-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S_ : Shape := ⟨0, ![]⟩
abbrev S8192 : Shape := ⟨1, ![8192]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg0 : FVec F S8192x8192 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_cst_6 : FVec F S_ .f32 := constant S_ .f32 0x00000000#32
  let main_v19 : FVec F S8192 .f32 := (fun x v => Host.reduceAdd x v reducesTo_S8192x8192_S8192_d1 h_S_) main_arg0 main_cst_6
  let main_cst_7 : FVec F S_ .f32 := constant S_ .f32 0x00000000#32
  let main_v20 : FVec F S8192 .f32 := broadcastInDim S8192 ![] bcast_S_S8192 main_cst_7
  let main_v21 : IVec S8192 1 := cmpf .ogt main_v19 main_v20
  let main_c_8 : IVec S_ 1 := constantI S_ 1 1#1
  let main_v22 : IVec S_ 1 := (fun x v => Host.reduce IntOp.andi x v reducesTo_S8192_S_d0 h_S_) main_v21 main_c_8
  let main_v23 : IVec S_ 1 := andi main_v18 main_v22
  main_v23

def fn {F : FTy → Type} [FloatOps F] (main_arg0 : FVec F S8192x8192 .f32) (main_arg1 : FVec F S8192x128 .f32) (main_arg2 : FVec F S128x128 .f32) (main_arg3 : FVec F S128 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_v13 main_v16
-- ==== Kernel.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S8192x1 : Shape := ⟨2, ![8192, 1]⟩
abbrev S2048x2048 : Shape := ⟨2, ![2048, 2048]⟩
abbrev S2048x1 : Shape := ⟨2, ![2048, 1]⟩
abbrev S2048 : Shape := ⟨1, ![2048]⟩
abbrev S2048x1024 : Shape := ⟨2, ![2048, 1024]⟩
abbrev S1024x128 : Shape := ⟨2, ![1024, 128]⟩
abbrev S1024x1 : Shape := ⟨2, ![1024, 1]⟩
abbrev S2048x128 : Shape := ⟨2, ![2048, 128]⟩
abbrev S1x128 : Shape := ⟨2, ![1, 128]⟩

abbrev nBuf : Space → Nat
  | .hbm => 6
  | .vmem => 18
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S8192x1, .f32⟩
  | .hbm, ⟨5, _⟩ => ⟨S8192x128, .f32⟩
  | .local _ .vmem, ⟨0, _⟩ => ⟨S2048x2048, .f32⟩
  | .local _ .vmem, ⟨1, _⟩ => ⟨S2048x2048, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x1024, .f32⟩
  | .local _ .vmem, ⟨6, _⟩ => ⟨S2048x1024, .f32⟩
  | .local _ .vmem, ⟨7, _⟩ => ⟨S1024x128, .f32⟩
  | .local _ .vmem, ⟨8, _⟩ => ⟨S1024x128, .f32⟩
  | .local _ .vmem, ⟨9, _⟩ => ⟨S1024x1, .f32⟩
  | .local _ .vmem, ⟨10, _⟩ => ⟨S1024x1, .f32⟩
  | .local _ .vmem, ⟨11, _⟩ => ⟨S2048x1, .f32⟩
  | .local _ .vmem, ⟨12, _⟩ => ⟨S2048x1, .f32⟩
  | .local _ .vmem, ⟨13, _⟩ => ⟨S128x128, .f32⟩
  | .local _ .vmem, ⟨14, _⟩ => ⟨S128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_10 : BitVec 32 := 0#32
  let v19 : BitVec 1 := Scalar.cmpi .ne v18 c0_i32_10
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [1] S2048
  shapeCasts_S2048_S2048x1 : S2048.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  broadcasts_S2048x1_S2048x128 : S2048x1.Broadcasts S2048x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  dot_S2048x1024_S1024x128_S2048x128_1_0_0_1_n_n_wf : DotDims.WF S2048x1024 S1024x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x8192.size a
  hwx0_0 : ∀ i : grid0.Coords, EltTy.bits .f32 = 32 ∨ (Rect.block (s := S8192x8192) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S8192x1.size a
  hwx0_1 : ∀ i : grid0.Coords, EltTy.bits .f32 = 32 ∨ (Rect.block (s := S8192x1) S2048x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S8192x1.size a
  hwx1_3 : ∀ i : grid1.Coords, EltTy.bits .f32 = 32 ∨ (Rect.block (s := S8192x1) S2048x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x128.size a ≤ S8192x128.size a
  hwx1_6 : ∀ i : grid1.Coords, EltTy.bits .f32 = 32 ∨ (Rect.block (s := S8192x128) S2048x128.size (cc1_transform_6 i) (hinb1_6 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S2048x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x128 : Shape := ⟨2, ![1, 128]⟩

abbrev nBuf : Space → Nat
  | .hbm => 24
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x8192, .f32⟩
  | .hbm, ⟨12, _⟩ => ⟨S8192x8192, .f32⟩
  | .hbm, ⟨13, _⟩ => ⟨S1x8192, .f32⟩
  | .hbm, ⟨14, _⟩ => ⟨S8192x8192, .f32⟩
  | .hbm, ⟨15, _⟩ => ⟨S8192x8192, .f32⟩
  | .hbm, ⟨16, _⟩ => ⟨S8192x128, .f32⟩
  | .hbm, ⟨17, _⟩ => ⟨S8192x128, .f32⟩
  | .hbm, ⟨18, _⟩ => ⟨S1x128, .f32⟩
  | .hbm, ⟨19, _⟩ => ⟨S8192x128, .f32⟩
  | .hbm, ⟨20, _⟩ => ⟨S8192x128, .f32⟩
  | .hbm, ⟨21, _⟩ => ⟨S_, .f32⟩
  | .hbm, ⟨22, _⟩ => ⟨S8192x128, .f32⟩
  | .hbm, ⟨23, _⟩ => ⟨S8192x128, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.KR0Runs.lean ====
/-
  The degree kernel (the first of the program's two kernels) at one grid point, on any staging buffers.

  The kernel walks a 4 × 4 grid of 2048 × 2048 blocks of the adjacency matrix: `i 0` is the block row, `i 1` the
  block column. Its scratch buffer holds a column of 2048 partial row sums. At block column 0 it is reset to zero;
  at every block column the block's row sums are added to it; at block column 3 the reciprocal square root of the
  column is stored into the output block. So a point is in one of three cases — first column (A), a middle column
  (B), last column (C) — told apart by the two conditions the body branches on, and in each case the body's run is
  stated as a triple whose postcondition lists, buffer by buffer, the pieces its stores leave.
-/
import proofs.«109398_j48576080118434_2_alg».proof.Proof.Gen.Kernel.Launch
import proofs.«109398_j48576080118434_2_alg».proof.Proof.Gen.Kernel.Skeleton
import proofs.«109398_j48576080118434_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions, decided over the grid -/

/-- The block column is the first one. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 4 = 0 :=
  (by decide +kernel : ∀ t : Fin grid0.N, cond1 (grid0.coords t) ↔ t.val % 4 = 0)

/-- The block column is the last one. -/
abbrev cond2 (i : grid0.Coords) : Prop := k0_cond2 i = 1#1
theorem hcond2 : ∀ t : Fin cfg0.N, cond2 (grid0.coords t) ↔ t.val % 4 = 3 :=
  (by decide +kernel : ∀ t : Fin grid0.N, cond2 (grid0.coords t) ↔ t.val % 4 = 3)

/-! ## Where the output window is idle -/

theorem live_in : ∀ t : Fin cfg0.N, cfg0.idle 0 (grid0.coords t) = false := by decide +kernel
theorem idle_out : ∀ t : Fin cfg0.N, ¬cond2 (grid0.coords t) → cfg0.idle 1 (grid0.coords t) = true := by decide +kernel
theorem noFlush_out : ∀ t : Fin cfg0.N, ¬cond2 (grid0.coords t) → (cfg0.win 1).flush t = false := by decide +kernel
theorem live_out : ∀ t : Fin cfg0.N, cond2 (grid0.coords t) → cfg0.idle 1 (grid0.coords t) = false := by decide +kernel

/-! ## The memrefs the body is called with -/

abbrev VO : View sig .tc .vmem S2048x1 .f32 := (Memref.whole cc0_stg1_0 : Memref sig .tc .vmem S2048x1 .f32).view
abbrev ms0 (t : Fin cfg0.N) : Memref sig .tc .vmem S2048x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1 .f32 := win0_1.stage (cfg0.slots t 1)
abbrev hs1 (t : Fin cfg0.N) : (ms1 t).IsWhole := hstage0_1 ((cfg0.slots t 1).cast nbuf0_1)
/-- The scratch column of partial row sums. -/
abbrev scM : Memref sig .tc .vmem S2048x1 .f32 := Memref.whole cc0_scratch0
abbrev VS : View sig .tc .vmem S2048x1 .f32 := scM.view

/-! ## The three runs -/

set_option maxHeartbeats 1000000 in
/-- FIRST COLUMN: the scratch, at anything, is reset and then holds the block's row sums added to zero; the output
    block is not touched. -/
noncomputable def runA (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc1 : cond1 i) (hc2 : ¬cond2 i)
    (x0 : Vec F S2048x2048 .f32) :
    { LS : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS)) -∗ K ⟨⟩))
          ⊢ wp frame (wpE (defs₀ (F := F)) Variants.none c none) E (cc0__degree_kernel_body i arg2 harg2 arg3 harg3 arg4 harg4) K } := by
  refine ⟨?_, fun xi1 E K => ?run⟩
  case run =>
    simp only [cc0__degree_kernel_body_eq_skeleton]; unfold cc0__degree_kernel_body_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- A MIDDLE COLUMN: the block's row sums are added to what the scratch held; the output block is not touched. -/
noncomputable def runB (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc1 : ¬cond1 i) (hc2 : ¬cond2 i)
    (x0 : Vec F S2048x2048 .f32) (xs : Vec F S2048x1 .f32) :
    { LS : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ owns (c : Thread nD τ) arg4 fullShare xs
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS)) -∗ K ⟨⟩))
          ⊢ wp frame (wpE (defs₀ (F := F)) Variants.none c none) E (cc0__degree_kernel_body i arg2 harg2 arg3 harg3 arg4 harg4) K } := by
  refine ⟨?_, fun xi1 E K => ?run⟩
  case run =>
    simp only [cc0__degree_kernel_body_eq_skeleton]; unfold cc0__degree_kernel_body_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- THE LAST COLUMN: the block's row sums are added to what the scratch held, and the reciprocal square root of the
    completed sums is stored into the output block, which was at anything. -/
noncomputable def runC (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc1 : ¬cond1 i) (hc2 : cond2 i)
    (x0 : Vec F S2048x2048 .f32) (xs : Vec F S2048x1 .f32) :
    Σ' (L1 : List (View.Piece (Elt F) S2048x1 .f32)), { LS : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0__degree_kernel_body i arg2 harg2 arg3 harg3 arg4 harg4) K } := by
  refine ⟨?_, ?_, fun E K => ?run⟩
  case run =>
    simp only [cc0__degree_kernel_body_eq_skeleton]; unfold cc0__degree_kernel_body_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc1 | exact hc2)
    sl_step
    iapply Hk
    isplitl [H0]
    · iexists _; isplitr; · ipureintro; exact harg2.read_unread _
      iexact H0
    isplitl [H1]; · iexists _; iexact H1
    iexists _; iexact HS0

end Cert.Kernel.R0

end
-- ==== Proof.KR0Frame.lean ====
/-
  The degree kernel over its whole grid: what its scratch column and its output block hold after every grid point,
  the proof data of its pipeline, and the body obligation — at ANY contents `V` of the core's buffers when the
  kernel is entered.

  Grid point `t` (of 16, row-major over the 4 × 4 blocks) is block row `t / 4`, block column `t % 4`. After point
  `t` the scratch holds the partial row sums of block row `t / 4` over block columns `0 … t % 4`: reset and first
  block at `t % 4 = 0`, one more block added at each later column, starting from what the point before left. At
  `t % 4 = 3` the output block holds the reciprocal square roots of the completed sums; at the other points the output
  window is idle (the body stores nothing into it and the pipeline does not write it back).
-/
import proofs.«109398_j48576080118434_2_alg».proof.Proof.Gen.Kernel.Launch
import proofs.«109398_j48576080118434_2_alg».proof.Proof.Gen.Kernel.Skeleton
import proofs.«109398_j48576080118434_2_alg».proof.Proof.Gen.Kernel.Points
import proofs.«109398_j48576080118434_2_alg».proof.Proof.KR0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The scratch after a first-column point: its stores read back. -/
def soutA (c : Dev nD) (t : Fin cfg0.N) (h1 : t.val % 4 = 0) (x0 : Vec F S2048x2048 .f32) : Vec F S2048x1 .f32 :=
  VS.read (Elt F) (VS.writes (Elt F) VS.junk (runA c (grid0.coords t) (ms0 t) (hs0 t) (ms1 t) (hs1 t) scM (Memref.isWhole_whole _) ((hcond1 t).mpr h1) (fun h => by have := (hcond2 t).mp h; omega) x0).1)
theorem scoverA (c : Dev nD) (t : Fin cfg0.N) (h1 : t.val % 4 = 0) (x0 : Vec F S2048x2048 .f32) (y : S2048x1.Idx) :
    ∃ pc ∈ (runA c (grid0.coords t) (ms0 t) (hs0 t) (ms1 t) (hs1 t) scM (Memref.isWhole_whole _) ((hcond1 t).mpr h1) (fun h => by have := (hcond2 t).mp h; omega) x0).1, y ∈ pc.1.set :=
  View.cover_of_tiledL _ S2048x1.size (by sl_kernel_rfl) y

/-- The scratch after a middle-column point, over what the point before left. -/
def soutB (c : Dev nD) (t : Fin cfg0.N) (h1 : ¬t.val % 4 = 0) (h2 : ¬t.val % 4 = 3) (x0 : Vec F S2048x2048 .f32) (xs : Vec F S2048x1 .f32) : Vec F S2048x1 .f32 :=
  VS.read (Elt F) (VS.writes (Elt F) VS.junk (runB c (grid0.coords t) (ms0 t) (hs0 t) (ms1 t) (hs1 t) scM (Memref.isWhole_whole _) (fun h => h1 ((hcond1 t).mp h)) (fun h => h2 ((hcond2 t).mp h)) x0 xs).1)
theorem scoverB (c : Dev nD) (t : Fin cfg0.N) (h1 : ¬t.val % 4 = 0) (h2 : ¬t.val % 4 = 3) (x0 : Vec F S2048x2048 .f32) (xs : Vec F S2048x1 .f32) (y : S2048x1.Idx) :
    ∃ pc ∈ (runB c (grid0.coords t) (ms0 t) (hs0 t) (ms1 t) (hs1 t) scM (Memref.isWhole_whole _) (fun h => h1 ((hcond1 t).mp h)) (fun h => h2 ((hcond2 t).mp h)) x0 xs).1, y ∈ pc.1.set :=
  View.cover_of_tiledL _ S2048x1.size (by sl_kernel_rfl) y

/-- The scratch and the output block after a last-column point, over what the point before left. -/
def soutC (c : Dev nD) (t : Fin cfg0.N) (h1 : ¬t.val % 4 = 0) (h2 : t.val % 4 = 3) (x0 : Vec F S2048x2048 .f32) (xs : Vec F S2048x1 .f32) : Vec F S2048x1 .f32 :=
  VS.read (Elt F) (VS.writes (Elt F) VS.junk (runC c (grid0.coords t) (ms0 t) (hs0 t) (ms1 t) (hs1 t) scM (Memref.isWhole_whole _) (fun h => h1 ((hcond1 t).mp h)) ((hcond2 t).mpr h2) x0 xs).2.1)
theorem scoverC (c : Dev nD) (t : Fin cfg0.N) (h1 : ¬t.val % 4 = 0) (h2 : t.val % 4 = 3) (x0 : Vec F S2048x2048 .f32) (xs : Vec F S2048x1 .f32) (y : S2048x1.Idx) :
    ∃ pc ∈ (runC c (grid0.coords t) (ms0 t) (hs0 t) (ms1 t) (hs1 t) scM (Memref.isWhole_whole _) (fun h => h1 ((hcond1 t).mp h)) ((hcond2 t).mpr h2) x0 xs).2.1, y ∈ pc.1.set :=
  View.cover_of_tiledL _ S2048x1.size (by sl_kernel_rfl) y
def outC (c : Dev nD) (t : Fin cfg0.N) (h1 : ¬t.val % 4 = 0) (h2 : t.val % 4 = 3) (x0 : Vec F S2048x2048 .f32) (xs : Vec F S2048x1 .f32) : Vec F S2048x1 .f32 :=
  VO.read (Elt F) (VO.writes (Elt F) VO.junk (runC c (grid0.coords t) (ms0 t) (hs0 t) (ms1 t) (hs1 t) scM (Memref.isWhole_whole _) (fun h => h1 ((hcond1 t).mp h)) ((hcond2 t).mpr h2) x0 xs).1)
theorem coverC (c : Dev nD) (t : Fin cfg0.N) (h1 : ¬t.val % 4 = 0) (h2 : t.val % 4 = 3) (x0 : Vec F S2048x2048 .f32) (xs : Vec F S2048x1 .f32) (y : S2048x1.Idx) :
    ∃ pc ∈ (runC c (grid0.coords t) (ms0 t) (hs0 t) (ms1 t) (hs1 t) scM (Memref.isWhole_whole _) (fun h => h1 ((hcond1 t).mp h)) ((hcond2 t).mpr h2) x0 xs).1, y ∈ pc.1.set :=
  View.cover_of_tiledL _ S2048x1.size (by sl_kernel_rfl) y

/-- Contents nothing reads: the output block where the window is idle, the scratch before the first point. -/
def unread : Vec F S2048x1 .f32 := VO.read (Elt F) VO.junk

/-! ## Point by point -/

/-- One point: the output block and the scratch after point `t`, from the scratch `prev` the point before left. -/
def step (c : Dev nD) (t : Fin cfg0.N) (prev : Vec F S2048x1 .f32) : Vec F S2048x1 .f32 × Vec F S2048x1 .f32 :=
  if h1 : t.val % 4 = 0 then (unread, soutA c t h1 (iblk V c 0 t))
  else if h2 : t.val % 4 = 3 then (outC c t h1 h2 (iblk V c 0 t) prev, soutC c t h1 h2 (iblk V c 0 t) prev)
  else (unread, soutB c t h1 h2 (iblk V c 0 t) prev)

theorem step_A (c : Dev nD) (t : Fin cfg0.N) (prev) (h1 : t.val % 4 = 0) : step V c t prev = (unread, soutA c t h1 (iblk V c 0 t)) := dif_pos h1
theorem step_B (c : Dev nD) (t : Fin cfg0.N) (prev) (h1 : ¬t.val % 4 = 0) (h2 : ¬t.val % 4 = 3) :
    step V c t prev = (unread, soutB c t h1 h2 (iblk V c 0 t) prev) := (dif_neg h1).trans (dif_neg h2)
theorem step_C (c : Dev nD) (t : Fin cfg0.N) (prev) (h1 : ¬t.val % 4 = 0) (h2 : t.val % 4 = 3) :
    step V c t prev = (outC c t h1 h2 (iblk V c 0 t) prev, soutC c t h1 h2 (iblk V c 0 t) prev) := (dif_neg h1).trans (dif_pos h2)

/-- The output block and the scratch after the body at position `n`: the points' steps chained. -/
def outsAt (c : Dev nD) : (n : ℕ) → n < cfg0.N → Vec F S2048x1 .f32 × Vec F S2048x1 .f32
  | 0, hn => step V c ⟨0, hn⟩ unread
  | n + 1, hn => step V c ⟨n + 1, hn⟩ (outsAt c n (Nat.lt_of_succ_lt hn)).2

theorem outsAt_pos (c : Dev nD) (t : Fin cfg0.N) (hz : t.val ≠ 0) :
    outsAt V c t.val t.isLt = step V c t (outsAt V c (t.val - 1) (Nat.lt_of_le_of_lt (Nat.sub_le _ _) t.isLt)).2 := by
  obtain ⟨n, hn⟩ := t
  cases n with
  | zero => exact absurd rfl hz
  | succ n => rfl

theorem outsAt_zero (c : Dev nD) (t : Fin cfg0.N) (hz : t.val = 0) : outsAt V c t.val t.isLt = step V c t unread := by
  obtain ⟨n, hn⟩ := t
  cases n with
  | zero => rfl
  | succ n => exact absurd hz (Nat.succ_ne_zero n)

/-! ## The region invariant -/

/-- The core's scoped buffers that are neither staging buffers of this kernel nor its scratch (the second kernel's
    staging buffers and scratch), each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

theorem PhiA_eq (c : Dev nD) :
    (Pipeline.ΦA spec0 c : sProp 𝕄)
      = iprop(iprop((∃ d, owns (c : Thread nD τ) scM fullShare d) ∗ others c) ∗ (∃ r, prngReg c r)) := by
  unfold Pipeline.ΦA; rw [scopedRest0_eq]; simp only [scM, owns_whole, others]; try rfl

/-- Before position `n`: at the start every scoped buffer at anything; afterwards the scratch at what the point before
    left in it, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((outsAt V c n hn).2) ∗ others c) ∗ (∃ r, prngReg c r)) := rfl
theorem PhiS_pos (c : Dev nD) (n : ℕ) (h : n ≤ cfg0.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The proof data -/

/-- The pipeline's proof data on core `c`: the arrays as the kernel finds them; after the body at point `t` the input
    buffer at its block and the output buffer at `outsAt`'s first component; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
  Φ t := PhiS V c t.val (Nat.le_of_lt_succ t.isLt)
  q _ := fullShare
  owed _ := 0

theorem A_eq (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after_0 (c : Dev nD) (t : Fin cfg0.N) : (dat0 V c).after 0 t = iblk V c 0 t := by dsimp only [dat0]
theorem after_1 (c : Dev nD) (t : Fin cfg0.N) : (dat0 V c).after 1 t = (outsAt V c t.val t.isLt).1 := by dsimp only [dat0]
theorem before_0 (c : Dev nD) (t : Fin cfg0.N) (d) : (dat0 V c).before 0 t d = iblk V c 0 t :=
  before_in_of V (dat0 V c) (A_eq V c 0) (after_0 V c) t d

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the block column says which case the point is in; the invariant hands the body the scratch
    at what the point before left (at anything where the case resets it first) and takes it back at this point's
    contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [live_in t], after_0]
  by_cases h1 : t.val % 4 = 0
  · have h2 : ¬t.val % 4 = 3 := by omega
    rw [Dat.leavesExact_idle (dat0 V c) 1 t (idle_out t (fun h => h2 ((hcond2 t).mp h))) (noFlush_out t (fun h => h2 ((hcond2 t).mp h)))]
    by_cases hz : t.val = 0
    · rw [outsAt_zero V c t hz, step_A V c t _ h1]
      unfold soutA; (try dsimp only)
      rw [PhiS_castSucc V c t, PhiS_zero V c _ _ hz, PhiA_eq]
      iintro ⟨⟨⟨HS0, Hoth⟩, Hg⟩, Ho, ⟨%d0, H0⟩, ⟨%d1, H1⟩⟩
      iapply ((runA c (grid0.coords t) _ _ _ _ _ _ ((hcond1 t).mpr h1) (fun h => h2 ((hcond2 t).mp h)) (iblk V c 0 t)).2 _ Set.univ _)
      isplitl [H0]; · iexact H0
      isplitl [H1]; · iexact H1
      isplitl [HS0]; · iexact HS0
      iintro ⟨H0, H1, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scoverA c t h1 _)
          iexact Hoth
        iexact Hg
      isplitl [Ho]; · iexact Ho
      isplitl [H0]; · iexact H0
      iexists _; iexact H1
    · rw [outsAt_pos V c t hz, step_A V c t _ h1]
      unfold soutA; (try dsimp only)
      rw [PhiS_castSucc V c t, PhiS_pos V c _ _ hz]
      iintro ⟨⟨⟨HS0, Hoth⟩, Hg⟩, Ho, ⟨%d0, H0⟩, ⟨%d1, H1⟩⟩
      iapply ((runA c (grid0.coords t) _ _ _ _ _ _ ((hcond1 t).mpr h1) (fun h => h2 ((hcond2 t).mp h)) (iblk V c 0 t)).2 _ Set.univ _)
      isplitl [H0]; · iexact H0
      isplitl [H1]; · iexact H1
      isplitl [HS0]; · iexists _; iexact HS0
      iintro ⟨H0, H1, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scoverA c t h1 _)
          iexact Hoth
        iexact Hg
      isplitl [Ho]; · iexact Ho
      isplitl [H0]; · iexact H0
      iexists _; iexact H1
  · have hz : t.val ≠ 0 := by omega
    by_cases h2 : t.val % 4 = 3
    · rw [show (dat0 V c).leavesExact 1 t = owns (c : Thread nD τ) (ms1 t) fullShare ((dat0 V c).after 1 t) from by
        unfold Dat.leavesExact; rw [live_out t ((hcond2 t).mpr h2)], after_1]
      rw [outsAt_pos V c t hz, step_C V c t _ h1 h2]
      unfold outC soutC; (try dsimp only)
      rw [PhiS_castSucc V c t, PhiS_pos V c _ _ hz]
      iintro ⟨⟨⟨HS0, Hoth⟩, Hg⟩, Ho, ⟨%d0, H0⟩, ⟨%d1, H1⟩⟩
      iapply ((runC c (grid0.coords t) _ _ _ _ _ _ (fun h => h1 ((hcond1 t).mp h)) ((hcond2 t).mpr h2) (iblk V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scoverC c t h1 h2 _ _)
          iexact Hoth
        iexact Hg
      isplitl [Ho]; · iexact Ho
      isplitl [H0]; · iexact H0
      unfold owns; iexists _; isplitr
      swap; · iexact H1
      ipureintro; exact View.read_writes_of_cover _ _ _ _ _ (coverC c t h1 h2 _ _)
    · rw [Dat.leavesExact_idle (dat0 V c) 1 t (idle_out t (fun h => h2 ((hcond2 t).mp h))) (noFlush_out t (fun h => h2 ((hcond2 t).mp h)))]
      rw [outsAt_pos V c t hz, step_B V c t _ h1 h2]
      unfold soutB; (try dsimp only)
      rw [PhiS_castSucc V c t, PhiS_pos V c _ _ hz]
      iintro ⟨⟨⟨HS0, Hoth⟩, Hg⟩, Ho, ⟨%d0, H0⟩, ⟨%d1, H1⟩⟩
      iapply ((runB c (grid0.coords t) _ _ _ _ _ _ (fun h => h1 ((hcond1 t).mp h)) (fun h => h2 ((hcond2 t).mp h)) (iblk V c 0 t) _).2 _ Set.univ _)
      isplitl [H0]; · iexact H0
      isplitl [H1]; · iexact H1
      isplitl [HS0]; · iexact HS0
      iintro ⟨H0, H1, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scoverB c t h1 h2 _ _)
          iexact Hoth
        iexact Hg
      isplitl [Ho]; · iexact Ho
      isplitl [H0]; · iexact H0
      iexists _; iexact H1

/-- The library's body obligation, at every point. -/
theorem body_obligation (c : Dev nD) : BodyObligation (dat0 (F := F) V c) (defs₀ (F := F)) Variants.none () Set.univ := fun t => by
  rw [bigSep_W0, bigSep_W0]
  exact sound_body V c t

/-- What the launch hands the kernel is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped buffers back, the scratch's contents forgotten. -/
theorem hout (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA_eq]
  iintro ⟨⟨HS0, Hoth⟩, Hg⟩
  isplitl [HS0 Hoth]
  · isplitl [HS0]
    · iexists _; iexact HS0
    iexact Hoth
  iexact Hg

end Cert.Kernel.R0

end
-- ==== Proof.KR1Runs.lean ====
/-
  The aggregation kernel (the second of the program's two kernels) at one grid point, on any staging buffers.

  The kernel walks a 4 × 8 grid of 2048 × 1024 blocks of the adjacency matrix: `i 0` is the block row, `i 1` the
  block column. Its scratch buffer holds a 2048 × 128 block of partial products. At block column 0 it is reset to
  zero; at every block column the product of the adjacency block with the feature block (each feature row scaled by
  its node's normalising factor) is added to it; at block column 7 the completed block is scaled row by row, multiplied
  by the weights, the bias added, the negative part cut off, and the result stored into the output block. A point is
  in one of three cases — first column (A), a middle column (B), last column (C) — and in each the body's run is a
  triple whose postcondition lists the pieces its stores leave.
-/
import proofs.«109398_j48576080118434_2_alg».proof.Proof.Gen.Kernel.Launch
import proofs.«109398_j48576080118434_2_alg».proof.Proof.Gen.Kernel.Skeleton
import proofs.«109398_j48576080118434_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions, decided over the grid -/

/-- The block column is the first one. -/
abbrev cond1 (i : grid1.Coords) : Prop := (Scalar.cmpi .ne (Scalar.extui (Scalar.cmpi .eq (BitVec.ofNat 32 (i 1).val) 0#32)) 0#32) = 1#1
theorem hcond1 : ∀ t : Fin cfg1.N, cond1 (grid1.coords t) ↔ t.val % 8 = 0 :=
  (by decide +kernel : ∀ t : Fin grid1.N, cond1 (grid1.coords t) ↔ t.val % 8 = 0)

/-- The block column is the last one. -/
abbrev cond2 (i : grid1.Coords) : Prop := k1_cond2 i = 1#1
theorem hcond2 : ∀ t : Fin cfg1.N, cond2 (grid1.coords t) ↔ t.val % 8 = 7 :=
  (by decide +kernel : ∀ t : Fin grid1.N, cond2 (grid1.coords t) ↔ t.val % 8 = 7)

/-! ## Where the windows are idle -/

theorem live_in : ∀ (w : Fin 7), w.val < 6 → ∀ t : Fin cfg1.N, cfg1.idle w (grid1.coords t) = false := by decide +kernel
theorem idle_out : ∀ t : Fin cfg1.N, ¬cond2 (grid1.coords t) → cfg1.idle 6 (grid1.coords t) = true := by decide +kernel
theorem noFlush_out : ∀ t : Fin cfg1.N, ¬cond2 (grid1.coords t) → (cfg1.win 6).flush t = false := by decide +kernel
theorem live_out : ∀ t : Fin cfg1.N, cond2 (grid1.coords t) → cfg1.idle 6 (grid1.coords t) = false := by decide +kernel

/-! ## The memrefs the body is called with -/

abbrev VO : View sig .tc .vmem S2048x128 .f32 := (Memref.whole cc1_stg6_0 : Memref sig .tc .vmem S2048x128 .f32).view
abbrev ms0 (t : Fin cfg1.N) : Memref sig .tc .vmem S2048x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S2048x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S128x128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S2048x128 .f32 := win1_6.stage (cfg1.slots t 6)
abbrev hs6 (t : Fin cfg1.N) : (ms6 t).IsWhole := hstage1_6 ((cfg1.slots t 6).cast nbuf1_6)
/-- The scratch block of partial products. -/
abbrev scM : Memref sig .tc .vmem S2048x128 .f32 := Memref.whole cc1_scratch0
abbrev VS : View sig .tc .vmem S2048x128 .f32 := scM.view

/-! ## The three runs -/

set_option maxHeartbeats 2000000 in
/-- FIRST COLUMN: the scratch, at anything, is reset and then holds the first product added to zero; the output block is not touched. -/
noncomputable def runA (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S2048x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S2048x128 .f32) (harg8 : arg8.IsWhole) (arg9 : Memref sig .tc .vmem S2048x128 .f32) (harg9 : arg9.IsWhole) (hc1 : cond1 i) (hc2 : ¬cond2 i)
    (x0 : Vec F S2048x1024 .f32) (x1 : Vec F S1024x128 .f32) (x2 : Vec F S1024x1 .f32) (x3 : Vec F S2048x1 .f32) (x4 : Vec F S128x128 .f32) (x5 : Vec F S128 .f32) :
    { LS : List (View.Piece (Elt F) S2048x128 .f32) //
      ∀ (xi6 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__gc_kernel_body i arg2 harg2 arg3 harg3 arg4 harg4 arg5 harg5 arg6 harg6 arg7 harg7 arg8 harg8 arg9 harg9) K } := by
  refine ⟨?_, fun xi6 E K => ?run⟩
  case run =>
    simp only [cc1__gc_kernel_body_eq_skeleton]; unfold cc1__gc_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 2000000 in
/-- A MIDDLE COLUMN: the product is added to what the scratch held; the output block is not touched. -/
noncomputable def runB (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S2048x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S2048x128 .f32) (harg8 : arg8.IsWhole) (arg9 : Memref sig .tc .vmem S2048x128 .f32) (harg9 : arg9.IsWhole) (hc1 : ¬cond1 i) (hc2 : ¬cond2 i)
    (x0 : Vec F S2048x1024 .f32) (x1 : Vec F S1024x128 .f32) (x2 : Vec F S1024x1 .f32) (x3 : Vec F S2048x1 .f32) (x4 : Vec F S128x128 .f32) (x5 : Vec F S128 .f32) (xs : Vec F S2048x128 .f32) :
    { LS : List (View.Piece (Elt F) S2048x128 .f32) //
      ∀ (xi6 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__gc_kernel_body i arg2 harg2 arg3 harg3 arg4 harg4 arg5 harg5 arg6 harg6 arg7 harg7 arg8 harg8 arg9 harg9) K } := by
  refine ⟨?_, fun xi6 E K => ?run⟩
  case run =>
    simp only [cc1__gc_kernel_body_eq_skeleton]; unfold cc1__gc_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 2000000 in
/-- THE LAST COLUMN: the product is added to what the scratch held, and the finished layer's block is stored into the output block, which was at anything. -/
noncomputable def runC (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S2048x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S2048x128 .f32) (harg8 : arg8.IsWhole) (arg9 : Memref sig .tc .vmem S2048x128 .f32) (harg9 : arg9.IsWhole) (hc1 : ¬cond1 i) (hc2 : cond2 i)
    (x0 : Vec F S2048x1024 .f32) (x1 : Vec F S1024x128 .f32) (x2 : Vec F S1024x1 .f32) (x3 : Vec F S2048x1 .f32) (x4 : Vec F S128x128 .f32) (x5 : Vec F S128 .f32) (xs : Vec F S2048x128 .f32) :
    Σ' (L6 : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc1__gc_kernel_body i arg2 harg2 arg3 harg3 arg4 harg4 arg5 harg5 arg6 harg6 arg7 harg7 arg8 harg8 arg9 harg9) K } := by
  refine ⟨?_, ?_, fun E K => ?run⟩
  case run =>
    simp only [cc1__gc_kernel_body_eq_skeleton]; unfold cc1__gc_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.R1

end
-- ==== Proof.KR1Frame.lean ====
/-
  The aggregation kernel over its whole grid: what its scratch block and its output block hold after every grid point,
  the proof data of its pipeline, and the body obligation — at ANY contents `V` of the core's buffers when the kernel
  is entered.

  Grid point `t` (of 32, row-major over the 4 × 8 blocks) is block row `t / 8`, block column `t % 8`. After point `t`
  the scratch holds the partial products of block row `t / 8` over block columns `0 … t % 8`: reset and first product at
  `t % 8 = 0`, one more product added at each later column, starting from what the point before left. At `t % 8 = 7`
  the output block holds the finished layer's block; at the other points the output window is idle.

  Two of the kernel's input windows read the SAME array (the column of normalising factors, once by block column and
  once by block row): the pipeline holds that array at the two halves of the full share, one per window.
-/
import proofs.«109398_j48576080118434_2_alg».proof.Proof.Gen.Kernel.Launch
import proofs.«109398_j48576080118434_2_alg».proof.Proof.Gen.Kernel.Skeleton
import proofs.«109398_j48576080118434_2_alg».proof.Proof.Gen.Kernel.Points
import proofs.«109398_j48576080118434_2_alg».proof.Proof.KR1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the kernel finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before_in_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in_of_5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The scratch after a first-column point: its stores read back. -/
def soutA (c : Dev nD) (t : Fin cfg1.N) (h1 : t.val % 8 = 0) (x0 : Vec F S2048x1024 .f32) (x1 : Vec F S1024x128 .f32) (x2 : Vec F S1024x1 .f32) (x3 : Vec F S2048x1 .f32) (x4 : Vec F S128x128 .f32) (x5 : Vec F S128 .f32) : Vec F S2048x128 .f32 :=
  VS.read (Elt F) (VS.writes (Elt F) VS.junk (runA c (grid1.coords t) (ms0 t) (hs0 t) (ms1 t) (hs1 t) (ms2 t) (hs2 t) (ms3 t) (hs3 t) (ms4 t) (hs4 t) (ms5 t) (hs5 t) (ms6 t) (hs6 t) scM (Memref.isWhole_whole _) ((hcond1 t).mpr h1) (fun h => by have := (hcond2 t).mp h; omega) x0 x1 x2 x3 x4 x5).1)
theorem scoverA (c : Dev nD) (t : Fin cfg1.N) (h1 : t.val % 8 = 0) (x0 : Vec F S2048x1024 .f32) (x1 : Vec F S1024x128 .f32) (x2 : Vec F S1024x1 .f32) (x3 : Vec F S2048x1 .f32) (x4 : Vec F S128x128 .f32) (x5 : Vec F S128 .f32) (y : S2048x128.Idx) :
    ∃ pc ∈ (runA c (grid1.coords t) (ms0 t) (hs0 t) (ms1 t) (hs1 t) (ms2 t) (hs2 t) (ms3 t) (hs3 t) (ms4 t) (hs4 t) (ms5 t) (hs5 t) (ms6 t) (hs6 t) scM (Memref.isWhole_whole _) ((hcond1 t).mpr h1) (fun h => by have := (hcond2 t).mp h; omega) x0 x1 x2 x3 x4 x5).1, y ∈ pc.1.set :=
  View.cover_of_tiledL _ S2048x128.size (by sl_kernel_rfl) y

/-- The scratch after a middle-column point, over what the point before left. -/
def soutB (c : Dev nD) (t : Fin cfg1.N) (h1 : ¬t.val % 8 = 0) (h2 : ¬t.val % 8 = 7) (x0 : Vec F S2048x1024 .f32) (x1 : Vec F S1024x128 .f32) (x2 : Vec F S1024x1 .f32) (x3 : Vec F S2048x1 .f32) (x4 : Vec F S128x128 .f32) (x5 : Vec F S128 .f32) (xs : Vec F S2048x128 .f32) : Vec F S2048x128 .f32 :=
  VS.read (Elt F) (VS.writes (Elt F) VS.junk (runB c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h1 ((hcond1 t).mp h)) (fun h => h2 ((hcond2 t).mp h)) x0 x1 x2 x3 x4 x5 xs).1)
theorem scoverB (c : Dev nD) (t : Fin cfg1.N) (h1 : ¬t.val % 8 = 0) (h2 : ¬t.val % 8 = 7) (x0 : Vec F S2048x1024 .f32) (x1 : Vec F S1024x128 .f32) (x2 : Vec F S1024x1 .f32) (x3 : Vec F S2048x1 .f32) (x4 : Vec F S128x128 .f32) (x5 : Vec F S128 .f32) (xs : Vec F S2048x128 .f32) (y : S2048x128.Idx) :
    ∃ pc ∈ (runB c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h1 ((hcond1 t).mp h)) (fun h => h2 ((hcond2 t).mp h)) x0 x1 x2 x3 x4 x5 xs).1, y ∈ pc.1.set :=
  View.cover_of_tiledL _ S2048x128.size (by sl_kernel_rfl) y

/-- The scratch and the output block after a last-column point, over what the point before left. -/
def soutC (c : Dev nD) (t : Fin cfg1.N) (h1 : ¬t.val % 8 = 0) (h2 : t.val % 8 = 7) (x0 : Vec F S2048x1024 .f32) (x1 : Vec F S1024x128 .f32) (x2 : Vec F S1024x1 .f32) (x3 : Vec F S2048x1 .f32) (x4 : Vec F S128x128 .f32) (x5 : Vec F S128 .f32) (xs : Vec F S2048x128 .f32) : Vec F S2048x128 .f32 :=
  VS.read (Elt F) (VS.writes (Elt F) VS.junk (runC c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h1 ((hcond1 t).mp h)) ((hcond2 t).mpr h2) x0 x1 x2 x3 x4 x5 xs).2.1)
theorem scoverC (c : Dev nD) (t : Fin cfg1.N) (h1 : ¬t.val % 8 = 0) (h2 : t.val % 8 = 7) (x0 : Vec F S2048x1024 .f32) (x1 : Vec F S1024x128 .f32) (x2 : Vec F S1024x1 .f32) (x3 : Vec F S2048x1 .f32) (x4 : Vec F S128x128 .f32) (x5 : Vec F S128 .f32) (xs : Vec F S2048x128 .f32) (y : S2048x128.Idx) :
    ∃ pc ∈ (runC c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h1 ((hcond1 t).mp h)) ((hcond2 t).mpr h2) x0 x1 x2 x3 x4 x5 xs).2.1, y ∈ pc.1.set :=
  View.cover_of_tiledL _ S2048x128.size (by sl_kernel_rfl) y
def outC (c : Dev nD) (t : Fin cfg1.N) (h1 : ¬t.val % 8 = 0) (h2 : t.val % 8 = 7) (x0 : Vec F S2048x1024 .f32) (x1 : Vec F S1024x128 .f32) (x2 : Vec F S1024x1 .f32) (x3 : Vec F S2048x1 .f32) (x4 : Vec F S128x128 .f32) (x5 : Vec F S128 .f32) (xs : Vec F S2048x128 .f32) : Vec F S2048x128 .f32 :=
  VO.read (Elt F) (VO.writes (Elt F) VO.junk (runC c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h1 ((hcond1 t).mp h)) ((hcond2 t).mpr h2) x0 x1 x2 x3 x4 x5 xs).1)
theorem coverC (c : Dev nD) (t : Fin cfg1.N) (h1 : ¬t.val % 8 = 0) (h2 : t.val % 8 = 7) (x0 : Vec F S2048x1024 .f32) (x1 : Vec F S1024x128 .f32) (x2 : Vec F S1024x1 .f32) (x3 : Vec F S2048x1 .f32) (x4 : Vec F S128x128 .f32) (x5 : Vec F S128 .f32) (xs : Vec F S2048x128 .f32) (y : S2048x128.Idx) :
    ∃ pc ∈ (runC c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h1 ((hcond1 t).mp h)) ((hcond2 t).mpr h2) x0 x1 x2 x3 x4 x5 xs).1, y ∈ pc.1.set :=
  View.cover_of_tiledL _ S2048x128.size (by sl_kernel_rfl) y

/-- Contents nothing reads: the output block where the window is idle, the scratch before the first point. -/
def unread : Vec F S2048x128 .f32 := VO.read (Elt F) VO.junk

/-! ## Point by point -/

/-- One point: the output block and the scratch after point `t`, from the scratch `prev` the point before left. -/
def step (c : Dev nD) (t : Fin cfg1.N) (prev : Vec F S2048x128 .f32) : Vec F S2048x128 .f32 × Vec F S2048x128 .f32 :=
  if h1 : t.val % 8 = 0 then (unread, soutA c t h1 (iblk V c 0 t) (iblk V c 1 t) (iblk V c 2 t) (iblk V c 3 t) (iblk V c 4 t) (iblk V c 5 t))
  else if h2 : t.val % 8 = 7 then (outC c t h1 h2 (iblk V c 0 t) (iblk V c 1 t) (iblk V c 2 t) (iblk V c 3 t) (iblk V c 4 t) (iblk V c 5 t) prev, soutC c t h1 h2 (iblk V c 0 t) (iblk V c 1 t) (iblk V c 2 t) (iblk V c 3 t) (iblk V c 4 t) (iblk V c 5 t) prev)
  else (unread, soutB c t h1 h2 (iblk V c 0 t) (iblk V c 1 t) (iblk V c 2 t) (iblk V c 3 t) (iblk V c 4 t) (iblk V c 5 t) prev)

theorem step_A (c : Dev nD) (t : Fin cfg1.N) (prev) (h1 : t.val % 8 = 0) : step V c t prev = (unread, soutA c t h1 (iblk V c 0 t) (iblk V c 1 t) (iblk V c 2 t) (iblk V c 3 t) (iblk V c 4 t) (iblk V c 5 t)) := dif_pos h1
theorem step_B (c : Dev nD) (t : Fin cfg1.N) (prev) (h1 : ¬t.val % 8 = 0) (h2 : ¬t.val % 8 = 7) :
    step V c t prev = (unread, soutB c t h1 h2 (iblk V c 0 t) (iblk V c 1 t) (iblk V c 2 t) (iblk V c 3 t) (iblk V c 4 t) (iblk V c 5 t) prev) := (dif_neg h1).trans (dif_neg h2)
theorem step_C (c : Dev nD) (t : Fin cfg1.N) (prev) (h1 : ¬t.val % 8 = 0) (h2 : t.val % 8 = 7) :
    step V c t prev = (outC c t h1 h2 (iblk V c 0 t) (iblk V c 1 t) (iblk V c 2 t) (iblk V c 3 t) (iblk V c 4 t) (iblk V c 5 t) prev, soutC c t h1 h2 (iblk V c 0 t) (iblk V c 1 t) (iblk V c 2 t) (iblk V c 3 t) (iblk V c 4 t) (iblk V c 5 t) prev) := (dif_neg h1).trans (dif_pos h2)

/-- The output block and the scratch after the body at position `n`: the points' steps chained. -/
def outsAt (c : Dev nD) : (n : ℕ) → n < cfg1.N → Vec F S2048x128 .f32 × Vec F S2048x128 .f32
  | 0, hn => step V c ⟨0, hn⟩ unread
  | n + 1, hn => step V c ⟨n + 1, hn⟩ (outsAt c n (Nat.lt_of_succ_lt hn)).2

theorem outsAt_pos (c : Dev nD) (t : Fin cfg1.N) (hz : t.val ≠ 0) :
    outsAt V c t.val t.isLt = step V c t (outsAt V c (t.val - 1) (Nat.lt_of_le_of_lt (Nat.sub_le _ _) t.isLt)).2 := by
  obtain ⟨n, hn⟩ := t
  cases n with
  | zero => exact absurd rfl hz
  | succ n => rfl

theorem outsAt_zero (c : Dev nD) (t : Fin cfg1.N) (hz : t.val = 0) : outsAt V c t.val t.isLt = step V c t unread := by
  obtain ⟨n, hn⟩ := t
  cases n with
  | zero => rfl
  | succ n => exact absurd hz (Nat.succ_ne_zero n)

/-! ## The region invariant -/

/-- The core's scoped buffers that are neither staging buffers of this kernel nor its scratch (the first kernel's staging
    buffers and scratch), each at some contents, beside what the scratch holds (`S`). -/
def withOthers (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ S)

theorem PhiA_eq (c : Dev nD) :
    (Pipeline.ΦA spec1 c : sProp 𝕄)
      = iprop(withOthers c (iprop(∃ d, owns (c : Thread nD τ) scM fullShare d)) ∗ (∃ r, prngReg c r)) := by
  unfold Pipeline.ΦA; rw [scopedRest1_eq]; simp only [scM, owns_whole, withOthers]; try rfl

/-- Before position `n`: at the start every scoped buffer at anything; afterwards the scratch at what the point before
    left in it, the other scoped buffers at anything, the generator register at some state. -/
def PhiS (c : Dev nD) : (n : ℕ) → n ≤ cfg1.N → sProp 𝕄
  | 0, _ => Pipeline.ΦA spec1 c
  | n + 1, hn => iprop(withOthers c (owns (c : Thread nD τ) scM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(withOthers c (owns (c : Thread nD τ) scM fullShare ((outsAt V c n hn).2)) ∗ (∃ r, prngReg c r)) := rfl
theorem PhiS_pos (c : Dev nD) (n : ℕ) (h : n ≤ cfg1.N) (hz : n ≠ 0) :
    PhiS V c n h = iprop(withOthers c (owns (c : Thread nD τ) scM fullShare ((outsAt V c (n - 1) (by omega)).2)) ∗ (∃ r, prngReg c r)) := by
  cases n with
  | zero => exact absurd rfl hz
  | succ n => rfl

/-! ## The proof data -/

/-- The pipeline's proof data on core `c`: the arrays as the kernel finds them; after the body at point `t` each input
    buffer at its block and the output buffer at `outsAt`'s first component; the invariant `PhiS`; nothing owed; the
    two windows on the column of normalising factors at the two halves of the full share, the others at the full
    share. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q w := match w with
    | ⟨2, _⟩ => fullShare.left
    | ⟨3, _⟩ => fullShare.right
    | _ => fullShare
  owed _ := 0

theorem A_eq (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after_0 (c : Dev nD) (t : Fin cfg1.N) : (dat1 V c).after 0 t = iblk V c 0 t := by dsimp only [dat1]
theorem after_1 (c : Dev nD) (t : Fin cfg1.N) : (dat1 V c).after 1 t = iblk V c 1 t := by dsimp only [dat1]
theorem after_2 (c : Dev nD) (t : Fin cfg1.N) : (dat1 V c).after 2 t = iblk V c 2 t := by dsimp only [dat1]
theorem after_3 (c : Dev nD) (t : Fin cfg1.N) : (dat1 V c).after 3 t = iblk V c 3 t := by dsimp only [dat1]
theorem after_4 (c : Dev nD) (t : Fin cfg1.N) : (dat1 V c).after 4 t = iblk V c 4 t := by dsimp only [dat1]
theorem after_5 (c : Dev nD) (t : Fin cfg1.N) : (dat1 V c).after 5 t = iblk V c 5 t := by dsimp only [dat1]
theorem after_6 (c : Dev nD) (t : Fin cfg1.N) : (dat1 V c).after 6 t = (outsAt V c t.val t.isLt).1 := by dsimp only [dat1]
theorem before_0 (c : Dev nD) (t : Fin cfg1.N) (d) : (dat1 V c).before 0 t d = iblk V c 0 t :=
  before_in_of_0 V (dat1 V c) (A_eq V c 0) (after_0 V c) t d
theorem before_1 (c : Dev nD) (t : Fin cfg1.N) (d) : (dat1 V c).before 1 t d = iblk V c 1 t :=
  before_in_of_1 V (dat1 V c) (A_eq V c 1) (after_1 V c) t d
theorem before_2 (c : Dev nD) (t : Fin cfg1.N) (d) : (dat1 V c).before 2 t d = iblk V c 2 t :=
  before_in_of_2 V (dat1 V c) (A_eq V c 2) (after_2 V c) t d
theorem before_3 (c : Dev nD) (t : Fin cfg1.N) (d) : (dat1 V c).before 3 t d = iblk V c 3 t :=
  before_in_of_3 V (dat1 V c) (A_eq V c 3) (after_3 V c) t d
theorem before_4 (c : Dev nD) (t : Fin cfg1.N) (d) : (dat1 V c).before 4 t d = iblk V c 4 t :=
  before_in_of_4 V (dat1 V c) (A_eq V c 4) (after_4 V c) t d
theorem before_5 (c : Dev nD) (t : Fin cfg1.N) (d) : (dat1 V c).before 5 t d = iblk V c 5 t :=
  before_in_of_5 V (dat1 V c) (A_eq V c 5) (after_5 V c) t d

/-! ## The body obligation -/

def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d))
    ∗ (∃ d, owns (c : Thread nD τ) (ms4 t) fullShare ((dat1 V c).before 4 t d))
    ∗ (∃ d, owns (c : Thread nD τ) (ms5 t) fullShare ((dat1 V c).before 5 t d))
    ∗ (∃ d, owns (c : Thread nD τ) (ms6 t) fullShare ((dat1 V c).before 6 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the block column says which case the point is in; the invariant hands the body the scratch
    at what the point before left (at anything where the case resets it first) and takes it back at this point's
    contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live_in 0 (by decide) t], after_0]
  rw [show (dat1 V c).leavesExact 1 t = owns (c : Thread nD τ) (ms1 t) fullShare ((dat1 V c).after 1 t) from by
    unfold Dat.leavesExact; rw [live_in 1 (by decide) t], after_1]
  rw [show (dat1 V c).leavesExact 2 t = owns (c : Thread nD τ) (ms2 t) fullShare ((dat1 V c).after 2 t) from by
    unfold Dat.leavesExact; rw [live_in 2 (by decide) t], after_2]
  rw [show (dat1 V c).leavesExact 3 t = owns (c : Thread nD τ) (ms3 t) fullShare ((dat1 V c).after 3 t) from by
    unfold Dat.leavesExact; rw [live_in 3 (by decide) t], after_3]
  rw [show (dat1 V c).leavesExact 4 t = owns (c : Thread nD τ) (ms4 t) fullShare ((dat1 V c).after 4 t) from by
    unfold Dat.leavesExact; rw [live_in 4 (by decide) t], after_4]
  rw [show (dat1 V c).leavesExact 5 t = owns (c : Thread nD τ) (ms5 t) fullShare ((dat1 V c).after 5 t) from by
    unfold Dat.leavesExact; rw [live_in 5 (by decide) t], after_5]
  by_cases h1 : t.val % 8 = 0
  · have h2 : ¬t.val % 8 = 7 := by omega
    rw [Dat.leavesExact_idle (dat1 V c) 6 t (idle_out t (fun h => h2 ((hcond2 t).mp h))) (noFlush_out t (fun h => h2 ((hcond2 t).mp h)))]
    by_cases hz : t.val = 0
    · rw [outsAt_zero V c t hz, step_A V c t _ h1]
      unfold soutA; (try dsimp only)
      rw [PhiS_castSucc V c t, PhiS_zero V c _ _ hz, PhiA_eq]
      unfold withOthers
      iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid1.coords t) _ _ _ _ _ _ _ _ _ _ _ _ _ _ _ _ ((hcond1 t).mpr h1) (fun h => h2 ((hcond2 t).mp h)) (iblk V c 0 t) (iblk V c 1 t) (iblk V c 2 t) (iblk V c 3 t) (iblk V c 4 t) (iblk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [Hb1 Hb2 Hb3 Hb4 Hb5 HS0 Hg]
      · isplitl [Hb1 Hb2 Hb3 Hb4 Hb5 HS0]
        · isplitl [Hb1]; · iexact Hb1
          isplitl [Hb2]; · iexact Hb2
          isplitl [Hb3]; · iexact Hb3
          isplitl [Hb4]; · iexact Hb4
          isplitl [Hb5]; · iexact Hb5
          unfold owns; iexists _; isplitr
          swap; · iexact HS0
          ipureintro; exact View.read_writes_of_cover _ _ _ _ _ (scoverA c t h1 _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [outsAt_pos V c t hz, step_A V c t _ h1]
      unfold soutA; (try dsimp only)
      rw [PhiS_castSucc V c t, PhiS_pos V c _ _ hz]
      unfold withOthers
      iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid1.coords t) _ _ _ _ _ _ _ _ _ _ _ _ _ _ _ _ ((hcond1 t).mpr h1) (fun h => h2 ((hcond2 t).mp h)) (iblk V c 0 t) (iblk V c 1 t) (iblk V c 2 t) (iblk V c 3 t) (iblk V c 4 t) (iblk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [Hb1 Hb2 Hb3 Hb4 Hb5 HS0 Hg]
      · isplitl [Hb1 Hb2 Hb3 Hb4 Hb5 HS0]
        · isplitl [Hb1]; · iexact Hb1
          isplitl [Hb2]; · iexact Hb2
          isplitl [Hb3]; · iexact Hb3
          isplitl [Hb4]; · iexact Hb4
          isplitl [Hb5]; · iexact Hb5
          unfold owns; iexists _; isplitr
          swap; · iexact HS0
          ipureintro; exact View.read_writes_of_cover _ _ _ _ _ (scoverA c t h1 _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    by_cases h2 : t.val % 8 = 7
    · rw [show (dat1 V c).leavesExact 6 t = owns (c : Thread nD τ) (ms6 t) fullShare ((dat1 V c).after 6 t) from by
        unfold Dat.leavesExact; rw [live_out t ((hcond2 t).mpr h2)], after_6]
      rw [outsAt_pos V c t hz, step_C V c t _ h1 h2]
      unfold outC soutC; (try dsimp only)
      rw [PhiS_castSucc V c t, PhiS_pos V c _ _ hz]
      unfold withOthers
      iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((runC c (grid1.coords t) _ _ _ _ _ _ _ _ _ _ _ _ _ _ _ _ (fun h => h1 ((hcond1 t).mp h)) ((hcond2 t).mpr h2) (iblk V c 0 t) (iblk V c 1 t) (iblk V c 2 t) (iblk V c 3 t) (iblk V c 4 t) (iblk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [Hb1 Hb2 Hb3 Hb4 Hb5 HS0 Hg]
      · isplitl [Hb1 Hb2 Hb3 Hb4 Hb5 HS0]
        · isplitl [Hb1]; · iexact Hb1
          isplitl [Hb2]; · iexact Hb2
          isplitl [Hb3]; · iexact Hb3
          isplitl [Hb4]; · iexact Hb4
          isplitl [Hb5]; · iexact Hb5
          unfold owns; iexists _; isplitr
          swap; · iexact HS0
          ipureintro; exact View.read_writes_of_cover _ _ _ _ _ (scoverC c t h1 h2 _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC c t h1 h2 _ _ _ _ _ _ _)
    · rw [Dat.leavesExact_idle (dat1 V c) 6 t (idle_out t (fun h => h2 ((hcond2 t).mp h))) (noFlush_out t (fun h => h2 ((hcond2 t).mp h)))]
      rw [outsAt_pos V c t hz, step_B V c t _ h1 h2]
      unfold soutB; (try dsimp only)
      rw [PhiS_castSucc V c t, PhiS_pos V c _ _ hz]
      unfold withOthers
      iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid1.coords t) _ _ _ _ _ _ _ _ _ _ _ _ _ _ _ _ (fun h => h1 ((hcond1 t).mp h)) (fun h => h2 ((hcond2 t).mp h)) (iblk V c 0 t) (iblk V c 1 t) (iblk V c 2 t) (iblk V c 3 t) (iblk V c 4 t) (iblk V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [Hb1 Hb2 Hb3 Hb4 Hb5 HS0 Hg]
      · isplitl [Hb1 Hb2 Hb3 Hb4 Hb5 HS0]
        · isplitl [Hb1]; · iexact Hb1
          isplitl [Hb2]; · iexact Hb2
          isplitl [Hb3]; · iexact Hb3
          isplitl [Hb4]; · iexact Hb4
          isplitl [Hb5]; · iexact Hb5
          unfold owns; iexists _; isplitr
          swap; · iexact HS0
          ipureintro; exact View.read_writes_of_cover _ _ _ _ _ (scoverB c t h1 h2 _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat1 (F := F) V c) (defs₀ (F := F)) Variants.none () Set.univ := fun t => by
  rw [bigSep_W1, bigSep_W1]
  exact sound_body V c t

/-- What the launch hands the kernel is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back, the scratch's contents forgotten. -/
theorem hout (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA_eq]
  unfold withOthers
  iintro ⟨⟨Hb1, Hb2, Hb3, Hb4, Hb5, HS0⟩, Hg⟩
  isplitl [Hb1 Hb2 Hb3 Hb4 Hb5 HS0]
  · isplitl [Hb1]; · iexact Hb1
    isplitl [Hb2]; · iexact Hb2
    isplitl [Hb3]; · iexact Hb3
    isplitl [Hb4]; · iexact Hb4
    isplitl [Hb5]; · iexact Hb5
    iexists _; iexact HS0
  iexact Hg

end Cert.Kernel.R1

end
-- ==== Proof.KWhole.lean ====
/-
  The whole program: the degree kernel, then the aggregation kernel, from the launch to the return.

  Between the program's two kernels every unscoped buffer of a core is held at a known valuation: `W0` at the launch;
  `W1` after the degree kernel — `W0` but for the column of normalising factors, which holds what that kernel's
  write-backs leave —; `W2` after the aggregation kernel — `W1` but for the result array. The aggregation kernel reads
  the column of normalising factors through two windows; the buffer behind it, whole at the full share between the
  kernels, is dealt to the two windows by halves at the kernel's entry and put together again at its exit.

  `run_all`: every weakly fair execution terminates, and in every final state every unscoped buffer holds `W2`.
-/
import proofs.«109398_j48576080118434_2_alg».proof.Proof.Gen.Kernel.Launch
import proofs.«109398_j48576080118434_2_alg».proof.Proof.Gen.Kernel.Skeleton
import proofs.«109398_j48576080118434_2_alg».proof.Proof.Gen.Kernel.Points
import proofs.«109398_j48576080118434_2_alg».proof.Proof.KR0Frame
import proofs.«109398_j48576080118434_2_alg».proof.Proof.KR1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the kernels -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- What the degree kernel leaves in the column of normalising factors. -/
def dcol (c : Dev nD) : Buf (Elt F) ((c : Thread nD τ).loc main_v0) := (R0.dat0 (V0 m ρ) c).arrAt 1 cfg0.N

/-- After the degree kernel. -/
def W1 (c : Dev nD) : Valuation τ sig (Elt F) := Function.update (W0 m ρ c) main_v0 (dcol m ρ c)
abbrev V1 : (c : Dev nD) → (b : Ref sig .tc) → Buf (Elt F) ((c : Thread nD τ).loc b) := fun c b => W1 m ρ c b

theorem W1_v0 (c : Dev nD) : W1 m ρ c main_v0 = dcol m ρ c := by unfold W1; exact Function.update_self _ _ _
theorem W1_of_ne (c : Dev nD) (r : Ref sig .tc) (h : r ≠ main_v0) : W1 m ρ c r = W0 m ρ c r := by
  unfold W1; exact Function.update_of_ne (StableHlo.devRef_ne_of_ne h) _ _

/-- What the aggregation kernel leaves in the result array. -/
def res (c : Dev nD) : Buf (Elt F) ((c : Thread nD τ).loc main_v1) := (R1.dat1 (V1 m ρ) c).arrAt 6 cfg1.N

/-- After the aggregation kernel. -/
def W2 (c : Dev nD) : Valuation τ sig (Elt F) := Function.update (W1 m ρ c) main_v1 (res m ρ c)
abbrev V2 : (c : Dev nD) → (b : Ref sig .tc) → Buf (Elt F) ((c : Thread nD τ).loc b) := fun c b => W2 m ρ c b

theorem W2_v1 (c : Dev nD) : W2 m ρ c main_v1 = res m ρ c := by unfold W2; exact Function.update_self _ _ _
theorem W2_of_ne (c : Dev nD) (r : Ref sig .tc) (h : r ≠ main_v1) : W2 m ρ c r = W1 m ρ c r := by
  unfold W2; exact Function.update_of_ne (StableHlo.devRef_ne_of_ne h) _ _

/-! ## The unscoped buffers, one by one -/

/-- A core's unscoped buffers at a valuation are its six unscoped arrays, each whole at the full share. -/
theorem ub_explicit (c : Dev nD) (V : (b : Ref sig .tc) → Buf (Elt F) ((c : Thread nD τ).loc b)) :
    (unscopedBufs c V : sProp 𝕄)
      = iprop(((((c : Thread nD τ).loc main_arg0) ↦{fullShare} V main_arg0) ∗ (((c : Thread nD τ).loc main_v0) ↦{fullShare} V main_v0))
          ∗ ((((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_v1) ↦{fullShare} V main_v1))) := by
  rw [Pipeline.unscopedBufs_split cfgs 0 launch0.win.arr_unscoped launch0.win.arr_inj c V, bigSep_W0]
  show iprop(_ ∗ Pipeline.unscopedRest spec0 c V) = _
  rw [unscopedRest0_eq]
  rfl

/-- A pipeline's arrays, window by window at its own share, when every array is a whole buffer. -/
theorem arrays_eq_share {cfg : Cfg sig Λ₀} {c : Dev nD} (dat : Dat τ (Elt F) Unit ℕ (UR sig nD τ) ℕ cfg c) (harr : ∀ w, (cfg.spec w).arr.IsWhole)
    (G : (w : Fin cfg.W) → Buf (Elt F) ((cfg.win w).arr.view.loc (c : Thread nD τ))) :
    (dat.arrays G : sProp 𝕄) = bigSep Finset.univ fun w => (((c : Thread nD τ).loc (Pipeline.arrRef cfg.spec w)) ↦{dat.share w} G w : sProp 𝕄) := by
  unfold Dat.arrays
  exact bigSep_congr fun w _ => by rw [(harr w).set_eq_univ]

/-- The aggregation kernel's arrays: the column of normalising factors twice, at the two halves of the full share. -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((R1.dat1 V c).arrays G : sProp 𝕄)
      = iprop((((c : Thread nD τ).loc main_arg0) ↦{fullShare} G 0) ∗ (((c : Thread nD τ).loc main_arg1) ↦{fullShare} G 1) ∗ (((c : Thread nD τ).loc main_v0) ↦{fullShare.left} G 2) ∗ (((c : Thread nD τ).loc main_v0) ↦{fullShare.right} G 3)
          ∗ (((c : Thread nD τ).loc main_arg2) ↦{fullShare} G 4) ∗ (((c : Thread nD τ).loc main_arg3) ↦{fullShare} G 5) ∗ (((c : Thread nD τ).loc main_v1) ↦{fullShare} G 6)) := by
  rw [arrays_eq_share (R1.dat1 V c) arr_whole1 G, bigSep_W1]
  rfl

/-! ## The proof data family and the thread state -/

/-- No kernel has a prefetched table. -/
abbrev adm : (p : Fin 2) → (pcfgs (F := F) p).Adm := fun p => (cfgs p).toPCfg_adm

/-- Every pipeline's proof data, each at its kernel's entry contents. -/
def pdats : (p : Fin 2) → (c : Dev nD) → Dat τ (Elt F) Unit ℕ (UR sig nD τ) ℕ (Pipeline.pin (pcfgs (F := F)) adm p) c
  | ⟨0, _⟩ => fun c => R0.dat0 (V0 m ρ) c
  | ⟨1, _⟩ => fun c => R1.dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The degree kernel's exit contents -/

theorem hF0 (c : Dev nD) : ∀ w : Fin cfg0.W, (R0.dat0 (V0 m ρ) c).arrAt w cfg0.N = V1 m ρ c (Pipeline.arrRef spec0 w)
  | ⟨0, _⟩ => ((R0.dat0 (V0 m ρ) c).arrAt_in 0 rfl _).trans ((R0.A_eq (V0 m ρ) c 0).trans (W1_of_ne m ρ c main_arg0 (by decide)).symm)
  | ⟨1, _⟩ => (W1_v0 m ρ c).symm
theorem hrest0 (c : Dev nD) : ∀ b, b ∉ Finset.univ.image (Pipeline.arrRef spec0) → V1 m ρ c b = V0 m ρ c b :=
  fun b hb => W1_of_ne m ρ c b (by rintro rfl; exact hb (Finset.mem_image.mpr ⟨1, Finset.mem_univ _, rfl⟩))

/-! ## The aggregation kernel's entry and exit, the shared column dealt by halves -/

/-- A buffer held at the full share is the same buffer held twice, once at each half of the full share. -/
theorem full_halves {ℓ : Loc nD τ sig} {I : Finset (Idx ℓ)} {f : Buf (Elt F) ℓ} :
    (ℓ ↦[I]{fullShare} f : sProp 𝕄) ⊢ iprop((ℓ ↦[I]{fullShare.left} f) ∗ ℓ ↦[I]{fullShare.right} f) :=
  (pointsTo_share (PosShare.mem_left_op_right fullShare)).1

/-- The two halves, at the same contents, are the buffer at the full share again. -/
theorem halves_full {ℓ : Loc nD τ sig} {I : Finset (Idx ℓ)} {f : Buf (Elt F) ℓ} :
    iprop((ℓ ↦[I]{fullShare.left} f) ∗ ℓ ↦[I]{fullShare.right} f) ⊢ (ℓ ↦[I]{fullShare} f : sProp 𝕄) :=
  (pointsTo_share (PosShare.mem_left_op_right fullShare)).2

theorem entry1 (c : Dev nD) :
    StableHlo.held (c : Thread nD τ) (Pipeline.ucRefs τ sig) (W1 m ρ c) ⊢ ((R1.dat1 (V1 m ρ) c).arrays ((R1.dat1 (V1 m ρ) c).arrAt · 0) : sProp 𝕄) := by
  rw [← Pipeline.unscopedBufs_held c (W1 m ρ c), ub_explicit, arrays1_eq]
  iintro ⟨⟨Ha0, Hv0⟩, Ha1, Ha2, Ha3, Hv1⟩
  ihave Hh := full_halves $$ Hv0
  icases Hh with ⟨HL, HR⟩
  isplitl [Ha0]; · iexact Ha0
  isplitl [Ha1]; · iexact Ha1
  isplitl [HL]; · iexact HL
  isplitl [HR]; · iexact HR
  isplitl [Ha2]; · iexact Ha2
  isplitl [Ha3]; · iexact Ha3
  iexact Hv1

theorem exit1 (c : Dev nD) :
    ((R1.dat1 (V1 m ρ) c).arrays ((R1.dat1 (V1 m ρ) c).arrAt · cfg1.N) : sProp 𝕄) ⊢ StableHlo.held (c : Thread nD τ) (Pipeline.ucRefs τ sig) (W2 m ρ c) := by
  rw [← Pipeline.unscopedBufs_held c (W2 m ρ c), ub_explicit, arrays1_eq]
  rw [(R1.dat1 (V1 m ρ) c).arrAt_in 0 rfl cfg1.N, (R1.dat1 (V1 m ρ) c).arrAt_in 1 rfl cfg1.N, (R1.dat1 (V1 m ρ) c).arrAt_in 2 rfl cfg1.N,
    (R1.dat1 (V1 m ρ) c).arrAt_in 3 rfl cfg1.N, (R1.dat1 (V1 m ρ) c).arrAt_in 4 rfl cfg1.N, (R1.dat1 (V1 m ρ) c).arrAt_in 5 rfl cfg1.N]
  rw [W2_of_ne m ρ c main_arg0 (by decide), W2_of_ne m ρ c main_v0 (by decide), W2_of_ne m ρ c main_arg1 (by decide),
    W2_of_ne m ρ c main_arg2 (by decide), W2_of_ne m ρ c main_arg3 (by decide), W2_v1]
  iintro ⟨Ha0, Ha1, HL, HR, Ha2, Ha3, Hv1⟩
  ihave Hv0 := halves_full $$ [HL HR]
  · isplitl [HL]; · iexact HL
    iexact HR
  isplitl [Ha0 Hv0]
  · isplitl [Ha0]; · iexact Ha0
    iexact Hv0
  isplitl [Ha1]; · iexact Ha1
  isplitl [Ha2]; · iexact Ha2
  isplitl [Ha3]; · iexact Ha3
  iexact Hv1

end Cert.Kernel.Whole

end
-- ==== Proof.KProgram.lean ====
/-
  The program's two kernels as segments of its main function, and the run of the whole: every weakly fair execution
  terminates, nothing faults, and every unscoped buffer ends at the valuation `W2` (the arguments as launched, the
  column of normalising factors at what the degree kernel left, the result at what the aggregation kernel left).
-/
import proofs.«109398_j48576080118434_2_alg».proof.Proof.Gen.Kernel.Launch
import proofs.«109398_j48576080118434_2_alg».proof.Proof.Gen.Kernel.Skeleton
import proofs.«109398_j48576080118434_2_alg».proof.Proof.Gen.Kernel.Points
import proofs.«109398_j48576080118434_2_alg».proof.Proof.KWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What enters a kernel's invariant beside the scoped buffers, reordered. -/
theorem join3 (X P S : sProp 𝕄) : iprop(X ∗ P ∗ S) ⊢ iprop(S ∗ X) := by
  iintro ⟨Hp, -, Hr⟩
  isplitl [Hr]; · iexact Hr
  iexact Hp
theorem split3 (X S : sProp 𝕄) : iprop(S ∗ X) ⊢ iprop(X ∗ emp ∗ S) := by
  iintro ⟨Hr, Hp⟩
  isplitl [Hp]; · iexact Hp
  isplitr; · iempintro
  iexact Hr

variable (m : (ℓ : Loc nD τ sig) → Buf (Elt F) ℓ) (ρ : Dev nD → PrngReg)

set_option backward.isDefEq.respectTransparency.types false in
/-- THE DEGREE KERNEL over the thread state: entered from every unscoped buffer at `W0`, left at `W1`. Its two arrays are
    split out of the unscoped buffers and put back at the exit contents; the generator register enters the invariant
    and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (join3 _ _ _).trans (R0.hin (V0 m ρ) c)
  hout c := by
    rw [Pipeline.ownSems0_none]
    exact (R0.hout (V0 m ρ) c).trans (split3 _ _)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last thread state without the `owes`: every unscoped buffer at `W2`, the generator register at some state. -/
abbrev Tₙ (c : Dev nD) : sProp 𝕄 := iprop(StableHlo.held (c : Thread nD τ) (Pipeline.ucRefs τ sig) (W2 m ρ c) ∗ ∃ r, prngReg c r)

set_option backward.isDefEq.respectTransparency.types false in
/-- THE AGGREGATION KERNEL over the thread state: entered from every unscoped buffer at `W1`, left at `W2`. All six
    unscoped buffers are arrays of its windows, the column of normalising factors of two of them (`entry1`, `exit1`). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (R1.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none]
    iintro ⟨⟨Hub, Hp, HO⟩, -, -⟩
    ihave Ha := (entry1 m ρ c) $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := (join3 _ _ _).trans (R1.hin (V1 m ρ) c)
  hout c := by
    rw [Pipeline.ownSems0_none]
    exact (R1.hout (V1 m ρ) c).trans (split3 _ _)
  hexit c := by
    have hx : ((pdats m ρ 1 c).arrays ((pdats m ρ 1 c).arrAt · (Pipeline.pin (pcfgs (F := F)) adm 1).N) : sProp 𝕄)
        ⊢ StableHlo.held (c : Thread nD τ) (Pipeline.ucRefs τ sig) (W2 m ρ c) := exit1 m ρ c
    iintro ⟨Ha, HO, HY, -⟩
    ihave Hh := hx $$ Ha
    imodintro
    isplitl [Hh HY]
    · isplitl [Hh]; · iexact Hh
      iexact HY
    unfold Pipeline.Dat.owesAt Pipeline.owesWithin
    icases HO with ⟨%W, -, HO⟩; iexists W; iexact HO

/-- The main function's two segments. -/
abbrev segs : List (Pipeline.Seg (pcfgs (F := F)) adm (pdats m ρ) () defs₀ 𝒱₀ L lv) :=
  [ .region (reg0 m ρ), .region (reg1 m ρ) ]

theorem main_run (c : Dev nD) : main (F := F) c = Pipeline.Seg.run (segs m ρ) :=
  main_segs adm (pdats m ρ) () 𝒱₀ L lv (reg0 m ρ) (reg1 m ρ) c

set_option backward.isDefEq.respectTransparency.types false in
/-- THE RUN: from any memory with zero counters every weakly fair execution of the main function on the TensorCores
    terminates, nothing faulting, and every final state holds every unscoped buffer at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

end Cert.Kernel.Whole

end
-- ==== Proof.KFrames.lean ====
/-
  The run of the whole program, read at the argument arrays and at the result: the arguments end as launched (no
  kernel writes one: each is read through input windows only), and the result array ends at what the aggregation
  kernel's write-backs leave.
-/
import proofs.«109398_j48576080118434_2_alg».proof.Proof.Gen.Kernel.Launch
import proofs.«109398_j48576080118434_2_alg».proof.Proof.Gen.Kernel.Skeleton
import proofs.«109398_j48576080118434_2_alg».proof.Proof.Gen.Kernel.Points
import proofs.«109398_j48576080118434_2_alg».proof.Proof.KProgram
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer neither kernel writes holds its launch contents at the end. -/
theorem W2_arg (c : Dev nD) (r : Ref sig .tc) (h1 : r ≠ main_v1) (h0 : r ≠ main_v0) : W2 m ρ c r = m ((c : Thread nD τ).loc r) :=
  (W2_of_ne m ρ c r h1).trans ((W1_of_ne m ρ c r h0).trans rfl)

/-- Every weakly fair execution terminates, nothing faults, the result array ends at `res` and the four arguments as
    launched. -/
theorem run_res : θ_run defs (onTc (τ := τ) (main (F := F))) ⟨m, fun _ => 0, ρ⟩ (fun r => ∀ c : Dev nD,
      r.2.mem ((c.tc : Thread nD τ).loc main_v1) = res m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v1 (by decide))).trans (W2_v1 m ρ c),
     (h c _ (mem_uc main_arg0 (by decide))).trans (W2_arg m ρ c main_arg0 (by decide) (by decide)),
     (h c _ (mem_uc main_arg1 (by decide))).trans (W2_arg m ρ c main_arg1 (by decide) (by decide)),
     (h c _ (mem_uc main_arg2 (by decide))).trans (W2_arg m ρ c main_arg2 (by decide) (by decide)),
     (h c _ (mem_uc main_arg3 (by decide))).trans (W2_arg m ρ c main_arg3 (by decide) (by decide))⟩)
    (run_all m ρ)

/-- The frame: the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_res m ρ)

end Cert.Kernel.Whole

end
-- ==== Proof.R0Runs.lean ====
/-
  The degree kernel (the first of the program's two kernels) at one grid point, on any staging buffers.

  The kernel walks a 4 × 4 grid of 2048 × 2048 blocks of the adjacency matrix: `i 0` is the block row, `i 1` the
  block column. Its scratch buffer holds a column of 2048 partial row sums. At block column 0 it is reset to zero;
  at every block column the block's row sums are added to it; at block column 3 the reciprocal square root of the
  column is stored into the output block. So a point is in one of three cases — first column (A), a middle column
  (B), last column (C) — told apart by the two conditions the body branches on, and in each case the body's run is
  stated as a triple whose postcondition lists, buffer by buffer, the pieces its stores leave.
-/
import proofs.«109398_j48576080118434_2_alg».proof.Proof.Gen.KernelIdeal.Launch
import proofs.«109398_j48576080118434_2_alg».proof.Proof.Gen.KernelIdeal.Skeleton
import proofs.«109398_j48576080118434_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions, decided over the grid -/

/-- The block column is the first one. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 4 = 0 :=
  (by decide +kernel : ∀ t : Fin grid0.N, cond1 (grid0.coords t) ↔ t.val % 4 = 0)

/-- The block column is the last one. -/
abbrev cond2 (i : grid0.Coords) : Prop := k0_cond2 i = 1#1
theorem hcond2 : ∀ t : Fin cfg0.N, cond2 (grid0.coords t) ↔ t.val % 4 = 3 :=
  (by decide +kernel : ∀ t : Fin grid0.N, cond2 (grid0.coords t) ↔ t.val % 4 = 3)

/-! ## Where the output window is idle -/

theorem live_in : ∀ t : Fin cfg0.N, cfg0.idle 0 (grid0.coords t) = false := by decide +kernel
theorem idle_out : ∀ t : Fin cfg0.N, ¬cond2 (grid0.coords t) → cfg0.idle 1 (grid0.coords t) = true := by decide +kernel
theorem noFlush_out : ∀ t : Fin cfg0.N, ¬cond2 (grid0.coords t) → (cfg0.win 1).flush t = false := by decide +kernel
theorem live_out : ∀ t : Fin cfg0.N, cond2 (grid0.coords t) → cfg0.idle 1 (grid0.coords t) = false := by decide +kernel

/-! ## The memrefs the body is called with -/

abbrev VO : View sig .tc .vmem S2048x1 .f32 := (Memref.whole cc0_stg1_0 : Memref sig .tc .vmem S2048x1 .f32).view
abbrev ms0 (t : Fin cfg0.N) : Memref sig .tc .vmem S2048x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1 .f32 := win0_1.stage (cfg0.slots t 1)
abbrev hs1 (t : Fin cfg0.N) : (ms1 t).IsWhole := hstage0_1 ((cfg0.slots t 1).cast nbuf0_1)
/-- The scratch column of partial row sums. -/
abbrev scM : Memref sig .tc .vmem S2048x1 .f32 := Memref.whole cc0_scratch0
abbrev VS : View sig .tc .vmem S2048x1 .f32 := scM.view

/-! ## The three runs -/

set_option maxHeartbeats 1000000 in
/-- FIRST COLUMN: the scratch, at anything, is reset and then holds the block's row sums added to zero; the output
    block is not touched. -/
noncomputable def runA (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc1 : cond1 i) (hc2 : ¬cond2 i)
    (x0 : Vec F S2048x2048 .f32) :
    { LS : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS)) -∗ K ⟨⟩))
          ⊢ wp frame (wpE (defs₀ (F := F)) Variants.none c none) E (cc0__degree_kernel_body i arg2 harg2 arg3 harg3 arg4 harg4) K } := by
  refine ⟨?_, fun xi1 E K => ?run⟩
  case run =>
    simp only [cc0__degree_kernel_body_eq_skeleton]; unfold cc0__degree_kernel_body_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- A MIDDLE COLUMN: the block's row sums are added to what the scratch held; the output block is not touched. -/
noncomputable def runB (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc1 : ¬cond1 i) (hc2 : ¬cond2 i)
    (x0 : Vec F S2048x2048 .f32) (xs : Vec F S2048x1 .f32) :
    { LS : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ owns (c : Thread nD τ) arg4 fullShare xs
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS)) -∗ K ⟨⟩))
          ⊢ wp frame (wpE (defs₀ (F := F)) Variants.none c none) E (cc0__degree_kernel_body i arg2 harg2 arg3 harg3 arg4 harg4) K } := by
  refine ⟨?_, fun xi1 E K => ?run⟩
  case run =>
    simp only [cc0__degree_kernel_body_eq_skeleton]; unfold cc0__degree_kernel_body_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- THE LAST COLUMN: the block's row sums are added to what the scratch held, and the reciprocal square root of the
    completed sums is stored into the output block, which was at anything. -/
noncomputable def runC (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc1 : ¬cond1 i) (hc2 : cond2 i)
    (x0 : Vec F S2048x2048 .f32) (xs : Vec F S2048x1 .f32) :
    Σ' (L1 : List (View.Piece (Elt F) S2048x1 .f32)), { LS : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0__degree_kernel_body i arg2 harg2 arg3 harg3 arg4 harg4) K } := by
  refine ⟨?_, ?_, fun E K => ?run⟩
  case run =>
    simp only [cc0__degree_kernel_body_eq_skeleton]; unfold cc0__degree_kernel_body_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc1 | exact hc2)
    sl_step
    iapply Hk
    isplitl [H0]
    · iexists _; isplitr; · ipureintro; exact harg2.read_unread _
      iexact H0
    isplitl [H1]; · iexists _; iexact H1
    iexists _; iexact HS0

end Cert.KernelIdeal.R0

end
-- ==== Proof.R0Frame.lean ====
/-
  The degree kernel over its whole grid: what its scratch column and its output block hold after every grid point,
  the proof data of its pipeline, and the body obligation — at ANY contents `V` of the core's buffers when the
  kernel is entered.

  Grid point `t` (of 16, row-major over the 4 × 4 blocks) is block row `t / 4`, block column `t % 4`. After point
  `t` the scratch holds the partial row sums of block row `t / 4` over block columns `0 … t % 4`: reset and first
  block at `t % 4 = 0`, one more block added at each later column, starting from what the point before left. At
  `t % 4 = 3` the output block holds the reciprocal square roots of the completed sums; at the other points the output
  window is idle (the body stores nothing into it and the pipeline does not write it back).
-/
import proofs.«109398_j48576080118434_2_alg».proof.Proof.Gen.KernelIdeal.Launch
import proofs.«109398_j48576080118434_2_alg».proof.Proof.Gen.KernelIdeal.Skeleton
import proofs.«109398_j48576080118434_2_alg».proof.Proof.Gen.KernelIdeal.Points
import proofs.«109398_j48576080118434_2_alg».proof.Proof.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The scratch after a first-column point: its stores read back. -/
def soutA (c : Dev nD) (t : Fin cfg0.N) (h1 : t.val % 4 = 0) (x0 : Vec F S2048x2048 .f32) : Vec F S2048x1 .f32 :=
  VS.read (Elt F) (VS.writes (Elt F) VS.junk (runA c (grid0.coords t) (ms0 t) (hs0 t) (ms1 t) (hs1 t) scM (Memref.isWhole_whole _) ((hcond1 t).mpr h1) (fun h => by have := (hcond2 t).mp h; omega) x0).1)
theorem scoverA (c : Dev nD) (t : Fin cfg0.N) (h1 : t.val % 4 = 0) (x0 : Vec F S2048x2048 .f32) (y : S2048x1.Idx) :
    ∃ pc ∈ (runA c (grid0.coords t) (ms0 t) (hs0 t) (ms1 t) (hs1 t) scM (Memref.isWhole_whole _) ((hcond1 t).mpr h1) (fun h => by have := (hcond2 t).mp h; omega) x0).1, y ∈ pc.1.set :=
  View.cover_of_tiledL _ S2048x1.size (by sl_kernel_rfl) y

/-- The scratch after a middle-column point, over what the point before left. -/
def soutB (c : Dev nD) (t : Fin cfg0.N) (h1 : ¬t.val % 4 = 0) (h2 : ¬t.val % 4 = 3) (x0 : Vec F S2048x2048 .f32) (xs : Vec F S2048x1 .f32) : Vec F S2048x1 .f32 :=
  VS.read (Elt F) (VS.writes (Elt F) VS.junk (runB c (grid0.coords t) (ms0 t) (hs0 t) (ms1 t) (hs1 t) scM (Memref.isWhole_whole _) (fun h => h1 ((hcond1 t).mp h)) (fun h => h2 ((hcond2 t).mp h)) x0 xs).1)
theorem scoverB (c : Dev nD) (t : Fin cfg0.N) (h1 : ¬t.val % 4 = 0) (h2 : ¬t.val % 4 = 3) (x0 : Vec F S2048x2048 .f32) (xs : Vec F S2048x1 .f32) (y : S2048x1.Idx) :
    ∃ pc ∈ (runB c (grid0.coords t) (ms0 t) (hs0 t) (ms1 t) (hs1 t) scM (Memref.isWhole_whole _) (fun h => h1 ((hcond1 t).mp h)) (fun h => h2 ((hcond2 t).mp h)) x0 xs).1, y ∈ pc.1.set :=
  View.cover_of_tiledL _ S2048x1.size (by sl_kernel_rfl) y

/-- The scratch and the output block after a last-column point, over what the point before left. -/
def soutC (c : Dev nD) (t : Fin cfg0.N) (h1 : ¬t.val % 4 = 0) (h2 : t.val % 4 = 3) (x0 : Vec F S2048x2048 .f32) (xs : Vec F S2048x1 .f32) : Vec F S2048x1 .f32 :=
  VS.read (Elt F) (VS.writes (Elt F) VS.junk (runC c (grid0.coords t) (ms0 t) (hs0 t) (ms1 t) (hs1 t) scM (Memref.isWhole_whole _) (fun h => h1 ((hcond1 t).mp h)) ((hcond2 t).mpr h2) x0 xs).2.1)
theorem scoverC (c : Dev nD) (t : Fin cfg0.N) (h1 : ¬t.val % 4 = 0) (h2 : t.val % 4 = 3) (x0 : Vec F S2048x2048 .f32) (xs : Vec F S2048x1 .f32) (y : S2048x1.Idx) :
    ∃ pc ∈ (runC c (grid0.coords t) (ms0 t) (hs0 t) (ms1 t) (hs1 t) scM (Memref.isWhole_whole _) (fun h => h1 ((hcond1 t).mp h)) ((hcond2 t).mpr h2) x0 xs).2.1, y ∈ pc.1.set :=
  View.cover_of_tiledL _ S2048x1.size (by sl_kernel_rfl) y
def outC (c : Dev nD) (t : Fin cfg0.N) (h1 : ¬t.val % 4 = 0) (h2 : t.val % 4 = 3) (x0 : Vec F S2048x2048 .f32) (xs : Vec F S2048x1 .f32) : Vec F S2048x1 .f32 :=
  VO.read (Elt F) (VO.writes (Elt F) VO.junk (runC c (grid0.coords t) (ms0 t) (hs0 t) (ms1 t) (hs1 t) scM (Memref.isWhole_whole _) (fun h => h1 ((hcond1 t).mp h)) ((hcond2 t).mpr h2) x0 xs).1)
theorem coverC (c : Dev nD) (t : Fin cfg0.N) (h1 : ¬t.val % 4 = 0) (h2 : t.val % 4 = 3) (x0 : Vec F S2048x2048 .f32) (xs : Vec F S2048x1 .f32) (y : S2048x1.Idx) :
    ∃ pc ∈ (runC c (grid0.coords t) (ms0 t) (hs0 t) (ms1 t) (hs1 t) scM (Memref.isWhole_whole _) (fun h => h1 ((hcond1 t).mp h)) ((hcond2 t).mpr h2) x0 xs).1, y ∈ pc.1.set :=
  View.cover_of_tiledL _ S2048x1.size (by sl_kernel_rfl) y

/-- Contents nothing reads: the output block where the window is idle, the scratch before the first point. -/
def unread : Vec F S2048x1 .f32 := VO.read (Elt F) VO.junk

/-! ## Point by point -/

/-- One point: the output block and the scratch after point `t`, from the scratch `prev` the point before left. -/
def step (c : Dev nD) (t : Fin cfg0.N) (prev : Vec F S2048x1 .f32) : Vec F S2048x1 .f32 × Vec F S2048x1 .f32 :=
  if h1 : t.val % 4 = 0 then (unread, soutA c t h1 (iblk V c 0 t))
  else if h2 : t.val % 4 = 3 then (outC c t h1 h2 (iblk V c 0 t) prev, soutC c t h1 h2 (iblk V c 0 t) prev)
  else (unread, soutB c t h1 h2 (iblk V c 0 t) prev)

theorem step_A (c : Dev nD) (t : Fin cfg0.N) (prev) (h1 : t.val % 4 = 0) : step V c t prev = (unread, soutA c t h1 (iblk V c 0 t)) := dif_pos h1
theorem step_B (c : Dev nD) (t : Fin cfg0.N) (prev) (h1 : ¬t.val % 4 = 0) (h2 : ¬t.val % 4 = 3) :
    step V c t prev = (unread, soutB c t h1 h2 (iblk V c 0 t) prev) := (dif_neg h1).trans (dif_neg h2)
theorem step_C (c : Dev nD) (t : Fin cfg0.N) (prev) (h1 : ¬t.val % 4 = 0) (h2 : t.val % 4 = 3) :
    step V c t prev = (outC c t h1 h2 (iblk V c 0 t) prev, soutC c t h1 h2 (iblk V c 0 t) prev) := (dif_neg h1).trans (dif_pos h2)

/-- The output block and the scratch after the body at position `n`: the points' steps chained. -/
def outsAt (c : Dev nD) : (n : ℕ) → n < cfg0.N → Vec F S2048x1 .f32 × Vec F S2048x1 .f32
  | 0, hn => step V c ⟨0, hn⟩ unread
  | n + 1, hn => step V c ⟨n + 1, hn⟩ (outsAt c n (Nat.lt_of_succ_lt hn)).2

theorem outsAt_pos (c : Dev nD) (t : Fin cfg0.N) (hz : t.val ≠ 0) :
    outsAt V c t.val t.isLt = step V c t (outsAt V c (t.val - 1) (Nat.lt_of_le_of_lt (Nat.sub_le _ _) t.isLt)).2 := by
  obtain ⟨n, hn⟩ := t
  cases n with
  | zero => exact absurd rfl hz
  | succ n => rfl

theorem outsAt_zero (c : Dev nD) (t : Fin cfg0.N) (hz : t.val = 0) : outsAt V c t.val t.isLt = step V c t unread := by
  obtain ⟨n, hn⟩ := t
  cases n with
  | zero => rfl
  | succ n => exact absurd hz (Nat.succ_ne_zero n)

/-! ## The region invariant -/

/-- The core's scoped buffers that are neither staging buffers of this kernel nor its scratch (the second kernel's
    staging buffers and scratch), each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

theorem PhiA_eq (c : Dev nD) :
    (Pipeline.ΦA spec0 c : sProp 𝕄)
      = iprop(iprop((∃ d, owns (c : Thread nD τ) scM fullShare d) ∗ others c) ∗ (∃ r, prngReg c r)) := by
  unfold Pipeline.ΦA; rw [scopedRest0_eq]; simp only [scM, owns_whole, others]; try rfl

/-- Before position `n`: at the start every scoped buffer at anything; afterwards the scratch at what the point before
    left in it, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((outsAt V c n hn).2) ∗ others c) ∗ (∃ r, prngReg c r)) := rfl
theorem PhiS_pos (c : Dev nD) (n : ℕ) (h : n ≤ cfg0.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The proof data -/

/-- The pipeline's proof data on core `c`: the arrays as the kernel finds them; after the body at point `t` the input
    buffer at its block and the output buffer at `outsAt`'s first component; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
  Φ t := PhiS V c t.val (Nat.le_of_lt_succ t.isLt)
  q _ := fullShare
  owed _ := 0

theorem A_eq (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after_0 (c : Dev nD) (t : Fin cfg0.N) : (dat0 V c).after 0 t = iblk V c 0 t := by dsimp only [dat0]
theorem after_1 (c : Dev nD) (t : Fin cfg0.N) : (dat0 V c).after 1 t = (outsAt V c t.val t.isLt).1 := by dsimp only [dat0]
theorem before_0 (c : Dev nD) (t : Fin cfg0.N) (d) : (dat0 V c).before 0 t d = iblk V c 0 t :=
  before_in_of V (dat0 V c) (A_eq V c 0) (after_0 V c) t d

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the block column says which case the point is in; the invariant hands the body the scratch
    at what the point before left (at anything where the case resets it first) and takes it back at this point's
    contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [live_in t], after_0]
  by_cases h1 : t.val % 4 = 0
  · have h2 : ¬t.val % 4 = 3 := by omega
    rw [Dat.leavesExact_idle (dat0 V c) 1 t (idle_out t (fun h => h2 ((hcond2 t).mp h))) (noFlush_out t (fun h => h2 ((hcond2 t).mp h)))]
    by_cases hz : t.val = 0
    · rw [outsAt_zero V c t hz, step_A V c t _ h1]
      unfold soutA; (try dsimp only)
      rw [PhiS_castSucc V c t, PhiS_zero V c _ _ hz, PhiA_eq]
      iintro ⟨⟨⟨HS0, Hoth⟩, Hg⟩, Ho, ⟨%d0, H0⟩, ⟨%d1, H1⟩⟩
      iapply ((runA c (grid0.coords t) _ _ _ _ _ _ ((hcond1 t).mpr h1) (fun h => h2 ((hcond2 t).mp h)) (iblk V c 0 t)).2 _ Set.univ _)
      isplitl [H0]; · iexact H0
      isplitl [H1]; · iexact H1
      isplitl [HS0]; · iexact HS0
      iintro ⟨H0, H1, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scoverA c t h1 _)
          iexact Hoth
        iexact Hg
      isplitl [Ho]; · iexact Ho
      isplitl [H0]; · iexact H0
      iexists _; iexact H1
    · rw [outsAt_pos V c t hz, step_A V c t _ h1]
      unfold soutA; (try dsimp only)
      rw [PhiS_castSucc V c t, PhiS_pos V c _ _ hz]
      iintro ⟨⟨⟨HS0, Hoth⟩, Hg⟩, Ho, ⟨%d0, H0⟩, ⟨%d1, H1⟩⟩
      iapply ((runA c (grid0.coords t) _ _ _ _ _ _ ((hcond1 t).mpr h1) (fun h => h2 ((hcond2 t).mp h)) (iblk V c 0 t)).2 _ Set.univ _)
      isplitl [H0]; · iexact H0
      isplitl [H1]; · iexact H1
      isplitl [HS0]; · iexists _; iexact HS0
      iintro ⟨H0, H1, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scoverA c t h1 _)
          iexact Hoth
        iexact Hg
      isplitl [Ho]; · iexact Ho
      isplitl [H0]; · iexact H0
      iexists _; iexact H1
  · have hz : t.val ≠ 0 := by omega
    by_cases h2 : t.val % 4 = 3
    · rw [show (dat0 V c).leavesExact 1 t = owns (c : Thread nD τ) (ms1 t) fullShare ((dat0 V c).after 1 t) from by
        unfold Dat.leavesExact; rw [live_out t ((hcond2 t).mpr h2)], after_1]
      rw [outsAt_pos V c t hz, step_C V c t _ h1 h2]
      unfold outC soutC; (try dsimp only)
      rw [PhiS_castSucc V c t, PhiS_pos V c _ _ hz]
      iintro ⟨⟨⟨HS0, Hoth⟩, Hg⟩, Ho, ⟨%d0, H0⟩, ⟨%d1, H1⟩⟩
      iapply ((runC c (grid0.coords t) _ _ _ _ _ _ (fun h => h1 ((hcond1 t).mp h)) ((hcond2 t).mpr h2) (iblk V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scoverC c t h1 h2 _ _)
          iexact Hoth
        iexact Hg
      isplitl [Ho]; · iexact Ho
      isplitl [H0]; · iexact H0
      unfold owns; iexists _; isplitr
      swap; · iexact H1
      ipureintro; exact View.read_writes_of_cover _ _ _ _ _ (coverC c t h1 h2 _ _)
    · rw [Dat.leavesExact_idle (dat0 V c) 1 t (idle_out t (fun h => h2 ((hcond2 t).mp h))) (noFlush_out t (fun h => h2 ((hcond2 t).mp h)))]
      rw [outsAt_pos V c t hz, step_B V c t _ h1 h2]
      unfold soutB; (try dsimp only)
      rw [PhiS_castSucc V c t, PhiS_pos V c _ _ hz]
      iintro ⟨⟨⟨HS0, Hoth⟩, Hg⟩, Ho, ⟨%d0, H0⟩, ⟨%d1, H1⟩⟩
      iapply ((runB c (grid0.coords t) _ _ _ _ _ _ (fun h => h1 ((hcond1 t).mp h)) (fun h => h2 ((hcond2 t).mp h)) (iblk V c 0 t) _).2 _ Set.univ _)
      isplitl [H0]; · iexact H0
      isplitl [H1]; · iexact H1
      isplitl [HS0]; · iexact HS0
      iintro ⟨H0, H1, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scoverB c t h1 h2 _ _)
          iexact Hoth
        iexact Hg
      isplitl [Ho]; · iexact Ho
      isplitl [H0]; · iexact H0
      iexists _; iexact H1

/-- The library's body obligation, at every point. -/
theorem body_obligation (c : Dev nD) : BodyObligation (dat0 (F := F) V c) (defs₀ (F := F)) Variants.none () Set.univ := fun t => by
  rw [bigSep_W0, bigSep_W0]
  exact sound_body V c t

/-- What the launch hands the kernel is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped buffers back, the scratch's contents forgotten. -/
theorem hout (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA_eq]
  iintro ⟨⟨HS0, Hoth⟩, Hg⟩
  isplitl [HS0 Hoth]
  · isplitl [HS0]
    · iexists _; iexact HS0
    iexact Hoth
  iexact Hg

end Cert.KernelIdeal.R0

end
-- ==== Proof.R1Runs.lean ====
/-
  The aggregation kernel (the second of the program's two kernels) at one grid point, on any staging buffers.

  The kernel walks a 4 × 8 grid of 2048 × 1024 blocks of the adjacency matrix: `i 0` is the block row, `i 1` the
  block column. Its scratch buffer holds a 2048 × 128 block of partial products. At block column 0 it is reset to
  zero; at every block column the product of the adjacency block with the feature block (each feature row scaled by
  its node's normalising factor) is added to it; at block column 7 the completed block is scaled row by row, multiplied
  by the weights, the bias added, the negative part cut off, and the result stored into the output block. A point is
  in one of three cases — first column (A), a middle column (B), last column (C) — and in each the body's run is a
  triple whose postcondition lists the pieces its stores leave.
-/
import proofs.«109398_j48576080118434_2_alg».proof.Proof.Gen.KernelIdeal.Launch
import proofs.«109398_j48576080118434_2_alg».proof.Proof.Gen.KernelIdeal.Skeleton
import proofs.«109398_j48576080118434_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions, decided over the grid -/

/-- The block column is the first one. -/
abbrev cond1 (i : grid1.Coords) : Prop := (Scalar.cmpi .ne (Scalar.extui (Scalar.cmpi .eq (BitVec.ofNat 32 (i 1).val) 0#32)) 0#32) = 1#1
theorem hcond1 : ∀ t : Fin cfg1.N, cond1 (grid1.coords t) ↔ t.val % 8 = 0 :=
  (by decide +kernel : ∀ t : Fin grid1.N, cond1 (grid1.coords t) ↔ t.val % 8 = 0)

/-- The block column is the last one. -/
abbrev cond2 (i : grid1.Coords) : Prop := k1_cond2 i = 1#1
theorem hcond2 : ∀ t : Fin cfg1.N, cond2 (grid1.coords t) ↔ t.val % 8 = 7 :=
  (by decide +kernel : ∀ t : Fin grid1.N, cond2 (grid1.coords t) ↔ t.val % 8 = 7)

/-! ## Where the windows are idle -/

theorem live_in : ∀ (w : Fin 7), w.val < 6 → ∀ t : Fin cfg1.N, cfg1.idle w (grid1.coords t) = false := by decide +kernel
theorem idle_out : ∀ t : Fin cfg1.N, ¬cond2 (grid1.coords t) → cfg1.idle 6 (grid1.coords t) = true := by decide +kernel
theorem noFlush_out : ∀ t : Fin cfg1.N, ¬cond2 (grid1.coords t) → (cfg1.win 6).flush t = false := by decide +kernel
theorem live_out : ∀ t : Fin cfg1.N, cond2 (grid1.coords t) → cfg1.idle 6 (grid1.coords t) = false := by decide +kernel

/-! ## The memrefs the body is called with -/

abbrev VO : View sig .tc .vmem S2048x128 .f32 := (Memref.whole cc1_stg6_0 : Memref sig .tc .vmem S2048x128 .f32).view
abbrev ms0 (t : Fin cfg1.N) : Memref sig .tc .vmem S2048x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S2048x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S128x128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S2048x128 .f32 := win1_6.stage (cfg1.slots t 6)
abbrev hs6 (t : Fin cfg1.N) : (ms6 t).IsWhole := hstage1_6 ((cfg1.slots t 6).cast nbuf1_6)
/-- The scratch block of partial products. -/
abbrev scM : Memref sig .tc .vmem S2048x128 .f32 := Memref.whole cc1_scratch0
abbrev VS : View sig .tc .vmem S2048x128 .f32 := scM.view

/-! ## The three runs -/

set_option maxHeartbeats 2000000 in
/-- FIRST COLUMN: the scratch, at anything, is reset and then holds the first product added to zero; the output block is not touched. -/
noncomputable def runA (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S2048x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S2048x128 .f32) (harg8 : arg8.IsWhole) (arg9 : Memref sig .tc .vmem S2048x128 .f32) (harg9 : arg9.IsWhole) (hc1 : cond1 i) (hc2 : ¬cond2 i)
    (x0 : Vec F S2048x1024 .f32) (x1 : Vec F S1024x128 .f32) (x2 : Vec F S1024x1 .f32) (x3 : Vec F S2048x1 .f32) (x4 : Vec F S128x128 .f32) (x5 : Vec F S128 .f32) :
    { LS : List (View.Piece (Elt F) S2048x128 .f32) //
      ∀ (xi6 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__gc_kernel_body i arg2 harg2 arg3 harg3 arg4 harg4 arg5 harg5 arg6 harg6 arg7 harg7 arg8 harg8 arg9 harg9) K } := by
  refine ⟨?_, fun xi6 E K => ?run⟩
  case run =>
    simp only [cc1__gc_kernel_body_eq_skeleton]; unfold cc1__gc_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 2000000 in
/-- A MIDDLE COLUMN: the product is added to what the scratch held; the output block is not touched. -/
noncomputable def runB (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S2048x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S2048x128 .f32) (harg8 : arg8.IsWhole) (arg9 : Memref sig .tc .vmem S2048x128 .f32) (harg9 : arg9.IsWhole) (hc1 : ¬cond1 i) (hc2 : ¬cond2 i)
    (x0 : Vec F S2048x1024 .f32) (x1 : Vec F S1024x128 .f32) (x2 : Vec F S1024x1 .f32) (x3 : Vec F S2048x1 .f32) (x4 : Vec F S128x128 .f32) (x5 : Vec F S128 .f32) (xs : Vec F S2048x128 .f32) :
    { LS : List (View.Piece (Elt F) S2048x128 .f32) //
      ∀ (xi6 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__gc_kernel_body i arg2 harg2 arg3 harg3 arg4 harg4 arg5 harg5 arg6 harg6 arg7 harg7 arg8 harg8 arg9 harg9) K } := by
  refine ⟨?_, fun xi6 E K => ?run⟩
  case run =>
    simp only [cc1__gc_kernel_body_eq_skeleton]; unfold cc1__gc_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 2000000 in
/-- THE LAST COLUMN: the product is added to what the scratch held, and the finished layer's block is stored into the output block, which was at anything. -/
noncomputable def runC (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S2048x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S2048x128 .f32) (harg8 : arg8.IsWhole) (arg9 : Memref sig .tc .vmem S2048x128 .f32) (harg9 : arg9.IsWhole) (hc1 : ¬cond1 i) (hc2 : cond2 i)
    (x0 : Vec F S2048x1024 .f32) (x1 : Vec F S1024x128 .f32) (x2 : Vec F S1024x1 .f32) (x3 : Vec F S2048x1 .f32) (x4 : Vec F S128x128 .f32) (x5 : Vec F S128 .f32) (xs : Vec F S2048x128 .f32) :
    Σ' (L6 : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc1__gc_kernel_body i arg2 harg2 arg3 harg3 arg4 harg4 arg5 harg5 arg6 harg6 arg7 harg7 arg8 harg8 arg9 harg9) K } := by
  refine ⟨?_, ?_, fun E K => ?run⟩
  case run =>
    simp only [cc1__gc_kernel_body_eq_skeleton]; unfold cc1__gc_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.R1

end
-- ==== Proof.R1Frame.lean ====
/-
  The aggregation kernel over its whole grid: what its scratch block and its output block hold after every grid point,
  the proof data of its pipeline, and the body obligation — at ANY contents `V` of the core's buffers when the kernel
  is entered.

  Grid point `t` (of 32, row-major over the 4 × 8 blocks) is block row `t / 8`, block column `t % 8`. After point `t`
  the scratch holds the partial products of block row `t / 8` over block columns `0 … t % 8`: reset and first product at
  `t % 8 = 0`, one more product added at each later column, starting from what the point before left. At `t % 8 = 7`
  the output block holds the finished layer's block; at the other points the output window is idle.

  Two of the kernel's input windows read the SAME array (the column of normalising factors, once by block column and
  once by block row): the pipeline holds that array at the two halves of the full share, one per window.
-/
import proofs.«109398_j48576080118434_2_alg».proof.Proof.Gen.KernelIdeal.Launch
import proofs.«109398_j48576080118434_2_alg».proof.Proof.Gen.KernelIdeal.Skeleton
import proofs.«109398_j48576080118434_2_alg».proof.Proof.Gen.KernelIdeal.Points
import proofs.«109398_j48576080118434_2_alg».proof.Proof.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the kernel finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before_in_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in_of_5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The scratch after a first-column point: its stores read back. -/
def soutA (c : Dev nD) (t : Fin cfg1.N) (h1 : t.val % 8 = 0) (x0 : Vec F S2048x1024 .f32) (x1 : Vec F S1024x128 .f32) (x2 : Vec F S1024x1 .f32) (x3 : Vec F S2048x1 .f32) (x4 : Vec F S128x128 .f32) (x5 : Vec F S128 .f32) : Vec F S2048x128 .f32 :=
  VS.read (Elt F) (VS.writes (Elt F) VS.junk (runA c (grid1.coords t) (ms0 t) (hs0 t) (ms1 t) (hs1 t) (ms2 t) (hs2 t) (ms3 t) (hs3 t) (ms4 t) (hs4 t) (ms5 t) (hs5 t) (ms6 t) (hs6 t) scM (Memref.isWhole_whole _) ((hcond1 t).mpr h1) (fun h => by have := (hcond2 t).mp h; omega) x0 x1 x2 x3 x4 x5).1)
theorem scoverA (c : Dev nD) (t : Fin cfg1.N) (h1 : t.val % 8 = 0) (x0 : Vec F S2048x1024 .f32) (x1 : Vec F S1024x128 .f32) (x2 : Vec F S1024x1 .f32) (x3 : Vec F S2048x1 .f32) (x4 : Vec F S128x128 .f32) (x5 : Vec F S128 .f32) (y : S2048x128.Idx) :
    ∃ pc ∈ (runA c (grid1.coords t) (ms0 t) (hs0 t) (ms1 t) (hs1 t) (ms2 t) (hs2 t) (ms3 t) (hs3 t) (ms4 t) (hs4 t) (ms5 t) (hs5 t) (ms6 t) (hs6 t) scM (Memref.isWhole_whole _) ((hcond1 t).mpr h1) (fun h => by have := (hcond2 t).mp h; omega) x0 x1 x2 x3 x4 x5).1, y ∈ pc.1.set :=
  View.cover_of_tiledL _ S2048x128.size (by sl_kernel_rfl) y

/-- The scratch after a middle-column point, over what the point before left. -/
def soutB (c : Dev nD) (t : Fin cfg1.N) (h1 : ¬t.val % 8 = 0) (h2 : ¬t.val % 8 = 7) (x0 : Vec F S2048x1024 .f32) (x1 : Vec F S1024x128 .f32) (x2 : Vec F S1024x1 .f32) (x3 : Vec F S2048x1 .f32) (x4 : Vec F S128x128 .f32) (x5 : Vec F S128 .f32) (xs : Vec F S2048x128 .f32) : Vec F S2048x128 .f32 :=
  VS.read (Elt F) (VS.writes (Elt F) VS.junk (runB c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h1 ((hcond1 t).mp h)) (fun h => h2 ((hcond2 t).mp h)) x0 x1 x2 x3 x4 x5 xs).1)
theorem scoverB (c : Dev nD) (t : Fin cfg1.N) (h1 : ¬t.val % 8 = 0) (h2 : ¬t.val % 8 = 7) (x0 : Vec F S2048x1024 .f32) (x1 : Vec F S1024x128 .f32) (x2 : Vec F S1024x1 .f32) (x3 : Vec F S2048x1 .f32) (x4 : Vec F S128x128 .f32) (x5 : Vec F S128 .f32) (xs : Vec F S2048x128 .f32) (y : S2048x128.Idx) :
    ∃ pc ∈ (runB c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h1 ((hcond1 t).mp h)) (fun h => h2 ((hcond2 t).mp h)) x0 x1 x2 x3 x4 x5 xs).1, y ∈ pc.1.set :=
  View.cover_of_tiledL _ S2048x128.size (by sl_kernel_rfl) y

/-- The scratch and the output block after a last-column point, over what the point before left. -/
def soutC (c : Dev nD) (t : Fin cfg1.N) (h1 : ¬t.val % 8 = 0) (h2 : t.val % 8 = 7) (x0 : Vec F S2048x1024 .f32) (x1 : Vec F S1024x128 .f32) (x2 : Vec F S1024x1 .f32) (x3 : Vec F S2048x1 .f32) (x4 : Vec F S128x128 .f32) (x5 : Vec F S128 .f32) (xs : Vec F S2048x128 .f32) : Vec F S2048x128 .f32 :=
  VS.read (Elt F) (VS.writes (Elt F) VS.junk (runC c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h1 ((hcond1 t).mp h)) ((hcond2 t).mpr h2) x0 x1 x2 x3 x4 x5 xs).2.1)
theorem scoverC (c : Dev nD) (t : Fin cfg1.N) (h1 : ¬t.val % 8 = 0) (h2 : t.val % 8 = 7) (x0 : Vec F S2048x1024 .f32) (x1 : Vec F S1024x128 .f32) (x2 : Vec F S1024x1 .f32) (x3 : Vec F S2048x1 .f32) (x4 : Vec F S128x128 .f32) (x5 : Vec F S128 .f32) (xs : Vec F S2048x128 .f32) (y : S2048x128.Idx) :
    ∃ pc ∈ (runC c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h1 ((hcond1 t).mp h)) ((hcond2 t).mpr h2) x0 x1 x2 x3 x4 x5 xs).2.1, y ∈ pc.1.set :=
  View.cover_of_tiledL _ S2048x128.size (by sl_kernel_rfl) y
def outC (c : Dev nD) (t : Fin cfg1.N) (h1 : ¬t.val % 8 = 0) (h2 : t.val % 8 = 7) (x0 : Vec F S2048x1024 .f32) (x1 : Vec F S1024x128 .f32) (x2 : Vec F S1024x1 .f32) (x3 : Vec F S2048x1 .f32) (x4 : Vec F S128x128 .f32) (x5 : Vec F S128 .f32) (xs : Vec F S2048x128 .f32) : Vec F S2048x128 .f32 :=
  VO.read (Elt F) (VO.writes (Elt F) VO.junk (runC c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h1 ((hcond1 t).mp h)) ((hcond2 t).mpr h2) x0 x1 x2 x3 x4 x5 xs).1)
theorem coverC (c : Dev nD) (t : Fin cfg1.N) (h1 : ¬t.val % 8 = 0) (h2 : t.val % 8 = 7) (x0 : Vec F S2048x1024 .f32) (x1 : Vec F S1024x128 .f32) (x2 : Vec F S1024x1 .f32) (x3 : Vec F S2048x1 .f32) (x4 : Vec F S128x128 .f32) (x5 : Vec F S128 .f32) (xs : Vec F S2048x128 .f32) (y : S2048x128.Idx) :
    ∃ pc ∈ (runC c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h1 ((hcond1 t).mp h)) ((hcond2 t).mpr h2) x0 x1 x2 x3 x4 x5 xs).1, y ∈ pc.1.set :=
  View.cover_of_tiledL _ S2048x128.size (by sl_kernel_rfl) y

/-- Contents nothing reads: the output block where the window is idle, the scratch before the first point. -/
def unread : Vec F S2048x128 .f32 := VO.read (Elt F) VO.junk

/-! ## Point by point -/

/-- One point: the output block and the scratch after point `t`, from the scratch `prev` the point before left. -/
def step (c : Dev nD) (t : Fin cfg1.N) (prev : Vec F S2048x128 .f32) : Vec F S2048x128 .f32 × Vec F S2048x128 .f32 :=
  if h1 : t.val % 8 = 0 then (unread, soutA c t h1 (iblk V c 0 t) (iblk V c 1 t) (iblk V c 2 t) (iblk V c 3 t) (iblk V c 4 t) (iblk V c 5 t))
  else if h2 : t.val % 8 = 7 then (outC c t h1 h2 (iblk V c 0 t) (iblk V c 1 t) (iblk V c 2 t) (iblk V c 3 t) (iblk V c 4 t) (iblk V c 5 t) prev, soutC c t h1 h2 (iblk V c 0 t) (iblk V c 1 t) (iblk V c 2 t) (iblk V c 3 t) (iblk V c 4 t) (iblk V c 5 t) prev)
  else (unread, soutB c t h1 h2 (iblk V c 0 t) (iblk V c 1 t) (iblk V c 2 t) (iblk V c 3 t) (iblk V c 4 t) (iblk V c 5 t) prev)

theorem step_A (c : Dev nD) (t : Fin cfg1.N) (prev) (h1 : t.val % 8 = 0) : step V c t prev = (unread, soutA c t h1 (iblk V c 0 t) (iblk V c 1 t) (iblk V c 2 t) (iblk V c 3 t) (iblk V c 4 t) (iblk V c 5 t)) := dif_pos h1
theorem step_B (c : Dev nD) (t : Fin cfg1.N) (prev) (h1 : ¬t.val % 8 = 0) (h2 : ¬t.val % 8 = 7) :
    step V c t prev = (unread, soutB c t h1 h2 (iblk V c 0 t) (iblk V c 1 t) (iblk V c 2 t) (iblk V c 3 t) (iblk V c 4 t) (iblk V c 5 t) prev) := (dif_neg h1).trans (dif_neg h2)
theorem step_C (c : Dev nD) (t : Fin cfg1.N) (prev) (h1 : ¬t.val % 8 = 0) (h2 : t.val % 8 = 7) :
    step V c t prev = (outC c t h1 h2 (iblk V c 0 t) (iblk V c 1 t) (iblk V c 2 t) (iblk V c 3 t) (iblk V c 4 t) (iblk V c 5 t) prev, soutC c t h1 h2 (iblk V c 0 t) (iblk V c 1 t) (iblk V c 2 t) (iblk V c 3 t) (iblk V c 4 t) (iblk V c 5 t) prev) := (dif_neg h1).trans (dif_pos h2)

/-- The output block and the scratch after the body at position `n`: the points' steps chained. -/
def outsAt (c : Dev nD) : (n : ℕ) → n < cfg1.N → Vec F S2048x128 .f32 × Vec F S2048x128 .f32
  | 0, hn => step V c ⟨0, hn⟩ unread
  | n + 1, hn => step V c ⟨n + 1, hn⟩ (outsAt c n (Nat.lt_of_succ_lt hn)).2

theorem outsAt_pos (c : Dev nD) (t : Fin cfg1.N) (hz : t.val ≠ 0) :
    outsAt V c t.val t.isLt = step V c t (outsAt V c (t.val - 1) (Nat.lt_of_le_of_lt (Nat.sub_le _ _) t.isLt)).2 := by
  obtain ⟨n, hn⟩ := t
  cases n with
  | zero => exact absurd rfl hz
  | succ n => rfl

theorem outsAt_zero (c : Dev nD) (t : Fin cfg1.N) (hz : t.val = 0) : outsAt V c t.val t.isLt = step V c t unread := by
  obtain ⟨n, hn⟩ := t
  cases n with
  | zero => rfl
  | succ n => exact absurd hz (Nat.succ_ne_zero n)

/-! ## The region invariant -/

/-- The core's scoped buffers that are neither staging buffers of this kernel nor its scratch (the first kernel's staging
    buffers and scratch), each at some contents, beside what the scratch holds (`S`). -/
def withOthers (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ S)

theorem PhiA_eq (c : Dev nD) :
    (Pipeline.ΦA spec1 c : sProp 𝕄)
      = iprop(withOthers c (iprop(∃ d, owns (c : Thread nD τ) scM fullShare d)) ∗ (∃ r, prngReg c r)) := by
  unfold Pipeline.ΦA; rw [scopedRest1_eq]; simp only [scM, owns_whole, withOthers]; try rfl

/-- Before position `n`: at the start every scoped buffer at anything; afterwards the scratch at what the point before
    left in it, the other scoped buffers at anything, the generator register at some state. -/
def PhiS (c : Dev nD) : (n : ℕ) → n ≤ cfg1.N → sProp 𝕄
  | 0, _ => Pipeline.ΦA spec1 c
  | n + 1, hn => iprop(withOthers c (owns (c : Thread nD τ) scM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(withOthers c (owns (c : Thread nD τ) scM fullShare ((outsAt V c n hn).2)) ∗ (∃ r, prngReg c r)) := rfl
theorem PhiS_pos (c : Dev nD) (n : ℕ) (h : n ≤ cfg1.N) (hz : n ≠ 0) :
    PhiS V c n h = iprop(withOthers c (owns (c : Thread nD τ) scM fullShare ((outsAt V c (n - 1) (by omega)).2)) ∗ (∃ r, prngReg c r)) := by
  cases n with
  | zero => exact absurd rfl hz
  | succ n => rfl

/-! ## The proof data -/

/-- The pipeline's proof data on core `c`: the arrays as the kernel finds them; after the body at point `t` each input
    buffer at its block and the output buffer at `outsAt`'s first component; the invariant `PhiS`; nothing owed; the
    two windows on the column of normalising factors at the two halves of the full share, the others at the full
    share. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q w := match w with
    | ⟨2, _⟩ => fullShare.left
    | ⟨3, _⟩ => fullShare.right
    | _ => fullShare
  owed _ := 0

theorem A_eq (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after_0 (c : Dev nD) (t : Fin cfg1.N) : (dat1 V c).after 0 t = iblk V c 0 t := by dsimp only [dat1]
theorem after_1 (c : Dev nD) (t : Fin cfg1.N) : (dat1 V c).after 1 t = iblk V c 1 t := by dsimp only [dat1]
theorem after_2 (c : Dev nD) (t : Fin cfg1.N) : (dat1 V c).after 2 t = iblk V c 2 t := by dsimp only [dat1]
theorem after_3 (c : Dev nD) (t : Fin cfg1.N) : (dat1 V c).after 3 t = iblk V c 3 t := by dsimp only [dat1]
theorem after_4 (c : Dev nD) (t : Fin cfg1.N) : (dat1 V c).after 4 t = iblk V c 4 t := by dsimp only [dat1]
theorem after_5 (c : Dev nD) (t : Fin cfg1.N) : (dat1 V c).after 5 t = iblk V c 5 t := by dsimp only [dat1]
theorem after_6 (c : Dev nD) (t : Fin cfg1.N) : (dat1 V c).after 6 t = (outsAt V c t.val t.isLt).1 := by dsimp only [dat1]
theorem before_0 (c : Dev nD) (t : Fin cfg1.N) (d) : (dat1 V c).before 0 t d = iblk V c 0 t :=
  before_in_of_0 V (dat1 V c) (A_eq V c 0) (after_0 V c) t d
theorem before_1 (c : Dev nD) (t : Fin cfg1.N) (d) : (dat1 V c).before 1 t d = iblk V c 1 t :=
  before_in_of_1 V (dat1 V c) (A_eq V c 1) (after_1 V c) t d
theorem before_2 (c : Dev nD) (t : Fin cfg1.N) (d) : (dat1 V c).before 2 t d = iblk V c 2 t :=
  before_in_of_2 V (dat1 V c) (A_eq V c 2) (after_2 V c) t d
theorem before_3 (c : Dev nD) (t : Fin cfg1.N) (d) : (dat1 V c).before 3 t d = iblk V c 3 t :=
  before_in_of_3 V (dat1 V c) (A_eq V c 3) (after_3 V c) t d
theorem before_4 (c : Dev nD) (t : Fin cfg1.N) (d) : (dat1 V c).before 4 t d = iblk V c 4 t :=
  before_in_of_4 V (dat1 V c) (A_eq V c 4) (after_4 V c) t d
theorem before_5 (c : Dev nD) (t : Fin cfg1.N) (d) : (dat1 V c).before 5 t d = iblk V c 5 t :=
  before_in_of_5 V (dat1 V c) (A_eq V c 5) (after_5 V c) t d

/-! ## The body obligation -/

def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d))
    ∗ (∃ d, owns (c : Thread nD τ) (ms4 t) fullShare ((dat1 V c).before 4 t d))
    ∗ (∃ d, owns (c : Thread nD τ) (ms5 t) fullShare ((dat1 V c).before 5 t d))
    ∗ (∃ d, owns (c : Thread nD τ) (ms6 t) fullShare ((dat1 V c).before 6 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the block column says which case the point is in; the invariant hands the body the scratch
    at what the point before left (at anything where the case resets it first) and takes it back at this point's
    contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live_in 0 (by decide) t], after_0]
  rw [show (dat1 V c).leavesExact 1 t = owns (c : Thread nD τ) (ms1 t) fullShare ((dat1 V c).after 1 t) from by
    unfold Dat.leavesExact; rw [live_in 1 (by decide) t], after_1]
  rw [show (dat1 V c).leavesExact 2 t = owns (c : Thread nD τ) (ms2 t) fullShare ((dat1 V c).after 2 t) from by
    unfold Dat.leavesExact; rw [live_in 2 (by decide) t], after_2]
  rw [show (dat1 V c).leavesExact 3 t = owns (c : Thread nD τ) (ms3 t) fullShare ((dat1 V c).after 3 t) from by
    unfold Dat.leavesExact; rw [live_in 3 (by decide) t], after_3]
  rw [show (dat1 V c).leavesExact 4 t = owns (c : Thread nD τ) (ms4 t) fullShare ((dat1 V c).after 4 t) from by
    unfold Dat.leavesExact; rw [live_in 4 (by decide) t], after_4]
  rw [show (dat1 V c).leavesExact 5 t = owns (c : Thread nD τ) (ms5 t) fullShare ((dat1 V c).after 5 t) from by
    unfold Dat.leavesExact; rw [live_in 5 (by decide) t], after_5]
  by_cases h1 : t.val % 8 = 0
  · have h2 : ¬t.val % 8 = 7 := by omega
    rw [Dat.leavesExact_idle (dat1 V c) 6 t (idle_out t (fun h => h2 ((hcond2 t).mp h))) (noFlush_out t (fun h => h2 ((hcond2 t).mp h)))]
    by_cases hz : t.val = 0
    · rw [outsAt_zero V c t hz, step_A V c t _ h1]
      unfold soutA; (try dsimp only)
      rw [PhiS_castSucc V c t, PhiS_zero V c _ _ hz, PhiA_eq]
      unfold withOthers
      iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid1.coords t) _ _ _ _ _ _ _ _ _ _ _ _ _ _ _ _ ((hcond1 t).mpr h1) (fun h => h2 ((hcond2 t).mp h)) (iblk V c 0 t) (iblk V c 1 t) (iblk V c 2 t) (iblk V c 3 t) (iblk V c 4 t) (iblk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [Hb1 Hb2 Hb3 Hb4 Hb5 HS0 Hg]
      · isplitl [Hb1 Hb2 Hb3 Hb4 Hb5 HS0]
        · isplitl [Hb1]; · iexact Hb1
          isplitl [Hb2]; · iexact Hb2
          isplitl [Hb3]; · iexact Hb3
          isplitl [Hb4]; · iexact Hb4
          isplitl [Hb5]; · iexact Hb5
          unfold owns; iexists _; isplitr
          swap; · iexact HS0
          ipureintro; exact View.read_writes_of_cover _ _ _ _ _ (scoverA c t h1 _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [outsAt_pos V c t hz, step_A V c t _ h1]
      unfold soutA; (try dsimp only)
      rw [PhiS_castSucc V c t, PhiS_pos V c _ _ hz]
      unfold withOthers
      iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid1.coords t) _ _ _ _ _ _ _ _ _ _ _ _ _ _ _ _ ((hcond1 t).mpr h1) (fun h => h2 ((hcond2 t).mp h)) (iblk V c 0 t) (iblk V c 1 t) (iblk V c 2 t) (iblk V c 3 t) (iblk V c 4 t) (iblk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [Hb1 Hb2 Hb3 Hb4 Hb5 HS0 Hg]
      · isplitl [Hb1 Hb2 Hb3 Hb4 Hb5 HS0]
        · isplitl [Hb1]; · iexact Hb1
          isplitl [Hb2]; · iexact Hb2
          isplitl [Hb3]; · iexact Hb3
          isplitl [Hb4]; · iexact Hb4
          isplitl [Hb5]; · iexact Hb5
          unfold owns; iexists _; isplitr
          swap; · iexact HS0
          ipureintro; exact View.read_writes_of_cover _ _ _ _ _ (scoverA c t h1 _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    by_cases h2 : t.val % 8 = 7
    · rw [show (dat1 V c).leavesExact 6 t = owns (c : Thread nD τ) (ms6 t) fullShare ((dat1 V c).after 6 t) from by
        unfold Dat.leavesExact; rw [live_out t ((hcond2 t).mpr h2)], after_6]
      rw [outsAt_pos V c t hz, step_C V c t _ h1 h2]
      unfold outC soutC; (try dsimp only)
      rw [PhiS_castSucc V c t, PhiS_pos V c _ _ hz]
      unfold withOthers
      iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((runC c (grid1.coords t) _ _ _ _ _ _ _ _ _ _ _ _ _ _ _ _ (fun h => h1 ((hcond1 t).mp h)) ((hcond2 t).mpr h2) (iblk V c 0 t) (iblk V c 1 t) (iblk V c 2 t) (iblk V c 3 t) (iblk V c 4 t) (iblk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [Hb1 Hb2 Hb3 Hb4 Hb5 HS0 Hg]
      · isplitl [Hb1 Hb2 Hb3 Hb4 Hb5 HS0]
        · isplitl [Hb1]; · iexact Hb1
          isplitl [Hb2]; · iexact Hb2
          isplitl [Hb3]; · iexact Hb3
          isplitl [Hb4]; · iexact Hb4
          isplitl [Hb5]; · iexact Hb5
          unfold owns; iexists _; isplitr
          swap; · iexact HS0
          ipureintro; exact View.read_writes_of_cover _ _ _ _ _ (scoverC c t h1 h2 _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC c t h1 h2 _ _ _ _ _ _ _)
    · rw [Dat.leavesExact_idle (dat1 V c) 6 t (idle_out t (fun h => h2 ((hcond2 t).mp h))) (noFlush_out t (fun h => h2 ((hcond2 t).mp h)))]
      rw [outsAt_pos V c t hz, step_B V c t _ h1 h2]
      unfold soutB; (try dsimp only)
      rw [PhiS_castSucc V c t, PhiS_pos V c _ _ hz]
      unfold withOthers
      iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid1.coords t) _ _ _ _ _ _ _ _ _ _ _ _ _ _ _ _ (fun h => h1 ((hcond1 t).mp h)) (fun h => h2 ((hcond2 t).mp h)) (iblk V c 0 t) (iblk V c 1 t) (iblk V c 2 t) (iblk V c 3 t) (iblk V c 4 t) (iblk V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [Hb1 Hb2 Hb3 Hb4 Hb5 HS0 Hg]
      · isplitl [Hb1 Hb2 Hb3 Hb4 Hb5 HS0]
        · isplitl [Hb1]; · iexact Hb1
          isplitl [Hb2]; · iexact Hb2
          isplitl [Hb3]; · iexact Hb3
          isplitl [Hb4]; · iexact Hb4
          isplitl [Hb5]; · iexact Hb5
          unfold owns; iexists _; isplitr
          swap; · iexact HS0
          ipureintro; exact View.read_writes_of_cover _ _ _ _ _ (scoverB c t h1 h2 _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat1 (F := F) V c) (defs₀ (F := F)) Variants.none () Set.univ := fun t => by
  rw [bigSep_W1, bigSep_W1]
  exact sound_body V c t

/-- What the launch hands the kernel is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back, the scratch's contents forgotten. -/
theorem hout (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA_eq]
  unfold withOthers
  iintro ⟨⟨Hb1, Hb2, Hb3, Hb4, Hb5, HS0⟩, Hg⟩
  isplitl [Hb1 Hb2 Hb3 Hb4 Hb5 HS0]
  · isplitl [Hb1]; · iexact Hb1
    isplitl [Hb2]; · iexact Hb2
    isplitl [Hb3]; · iexact Hb3
    isplitl [Hb4]; · iexact Hb4
    isplitl [Hb5]; · iexact Hb5
    iexists _; iexact HS0
  iexact Hg

end Cert.KernelIdeal.R1

end
-- ==== Proof.Whole.lean ====
/-
  The whole program: the degree kernel, then the aggregation kernel, from the launch to the return.

  Between the program's two kernels every unscoped buffer of a core is held at a known valuation: `W0` at the launch;
  `W1` after the degree kernel — `W0` but for the column of normalising factors, which holds what that kernel's
  write-backs leave —; `W2` after the aggregation kernel — `W1` but for the result array. The aggregation kernel reads
  the column of normalising factors through two windows; the buffer behind it, whole at the full share between the
  kernels, is dealt to the two windows by halves at the kernel's entry and put together again at its exit.

  `run_all`: every weakly fair execution terminates, and in every final state every unscoped buffer holds `W2`.
-/
import proofs.«109398_j48576080118434_2_alg».proof.Proof.Gen.KernelIdeal.Launch
import proofs.«109398_j48576080118434_2_alg».proof.Proof.Gen.KernelIdeal.Skeleton
import proofs.«109398_j48576080118434_2_alg».proof.Proof.Gen.KernelIdeal.Points
import proofs.«109398_j48576080118434_2_alg».proof.Proof.R0Frame
import proofs.«109398_j48576080118434_2_alg».proof.Proof.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the kernels -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- What the degree kernel leaves in the column of normalising factors. -/
def dcol (c : Dev nD) : Buf (Elt F) ((c : Thread nD τ).loc main_v0) := (R0.dat0 (V0 m ρ) c).arrAt 1 cfg0.N

/-- After the degree kernel. -/
def W1 (c : Dev nD) : Valuation τ sig (Elt F) := Function.update (W0 m ρ c) main_v0 (dcol m ρ c)
abbrev V1 : (c : Dev nD) → (b : Ref sig .tc) → Buf (Elt F) ((c : Thread nD τ).loc b) := fun c b => W1 m ρ c b

theorem W1_v0 (c : Dev nD) : W1 m ρ c main_v0 = dcol m ρ c := by unfold W1; exact Function.update_self _ _ _
theorem W1_of_ne (c : Dev nD) (r : Ref sig .tc) (h : r ≠ main_v0) : W1 m ρ c r = W0 m ρ c r := by
  unfold W1; exact Function.update_of_ne (StableHlo.devRef_ne_of_ne h) _ _

/-- What the aggregation kernel leaves in the result array. -/
def res (c : Dev nD) : Buf (Elt F) ((c : Thread nD τ).loc main_v1) := (R1.dat1 (V1 m ρ) c).arrAt 6 cfg1.N

/-- After the aggregation kernel. -/
def W2 (c : Dev nD) : Valuation τ sig (Elt F) := Function.update (W1 m ρ c) main_v1 (res m ρ c)
abbrev V2 : (c : Dev nD) → (b : Ref sig .tc) → Buf (Elt F) ((c : Thread nD τ).loc b) := fun c b => W2 m ρ c b

theorem W2_v1 (c : Dev nD) : W2 m ρ c main_v1 = res m ρ c := by unfold W2; exact Function.update_self _ _ _
theorem W2_of_ne (c : Dev nD) (r : Ref sig .tc) (h : r ≠ main_v1) : W2 m ρ c r = W1 m ρ c r := by
  unfold W2; exact Function.update_of_ne (StableHlo.devRef_ne_of_ne h) _ _

/-! ## The unscoped buffers, one by one -/

/-- A core's unscoped buffers at a valuation are its six unscoped arrays, each whole at the full share. -/
theorem ub_explicit (c : Dev nD) (V : (b : Ref sig .tc) → Buf (Elt F) ((c : Thread nD τ).loc b)) :
    (unscopedBufs c V : sProp 𝕄)
      = iprop(((((c : Thread nD τ).loc main_arg0) ↦{fullShare} V main_arg0) ∗ (((c : Thread nD τ).loc main_v0) ↦{fullShare} V main_v0))
          ∗ ((((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_v1) ↦{fullShare} V main_v1))) := by
  rw [Pipeline.unscopedBufs_split cfgs 0 launch0.win.arr_unscoped launch0.win.arr_inj c V, bigSep_W0]
  show iprop(_ ∗ Pipeline.unscopedRest spec0 c V) = _
  rw [unscopedRest0_eq]
  rfl

/-- A pipeline's arrays, window by window at its own share, when every array is a whole buffer. -/
theorem arrays_eq_share {cfg : Cfg sig Λ₀} {c : Dev nD} (dat : Dat τ (Elt F) Unit ℕ (UR sig nD τ) ℕ cfg c) (harr : ∀ w, (cfg.spec w).arr.IsWhole)
    (G : (w : Fin cfg.W) → Buf (Elt F) ((cfg.win w).arr.view.loc (c : Thread nD τ))) :
    (dat.arrays G : sProp 𝕄) = bigSep Finset.univ fun w => (((c : Thread nD τ).loc (Pipeline.arrRef cfg.spec w)) ↦{dat.share w} G w : sProp 𝕄) := by
  unfold Dat.arrays
  exact bigSep_congr fun w _ => by rw [(harr w).set_eq_univ]

/-- The aggregation kernel's arrays: the column of normalising factors twice, at the two halves of the full share. -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((R1.dat1 V c).arrays G : sProp 𝕄)
      = iprop((((c : Thread nD τ).loc main_arg0) ↦{fullShare} G 0) ∗ (((c : Thread nD τ).loc main_arg1) ↦{fullShare} G 1) ∗ (((c : Thread nD τ).loc main_v0) ↦{fullShare.left} G 2) ∗ (((c : Thread nD τ).loc main_v0) ↦{fullShare.right} G 3)
          ∗ (((c : Thread nD τ).loc main_arg2) ↦{fullShare} G 4) ∗ (((c : Thread nD τ).loc main_arg3) ↦{fullShare} G 5) ∗ (((c : Thread nD τ).loc main_v1) ↦{fullShare} G 6)) := by
  rw [arrays_eq_share (R1.dat1 V c) arr_whole1 G, bigSep_W1]
  rfl

/-! ## The proof data family and the thread state -/

/-- No kernel has a prefetched table. -/
abbrev adm : (p : Fin 2) → (pcfgs (F := F) p).Adm := fun p => (cfgs p).toPCfg_adm

/-- Every pipeline's proof data, each at its kernel's entry contents. -/
def pdats : (p : Fin 2) → (c : Dev nD) → Dat τ (Elt F) Unit ℕ (UR sig nD τ) ℕ (Pipeline.pin (pcfgs (F := F)) adm p) c
  | ⟨0, _⟩ => fun c => R0.dat0 (V0 m ρ) c
  | ⟨1, _⟩ => fun c => R1.dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The degree kernel's exit contents -/

theorem hF0 (c : Dev nD) : ∀ w : Fin cfg0.W, (R0.dat0 (V0 m ρ) c).arrAt w cfg0.N = V1 m ρ c (Pipeline.arrRef spec0 w)
  | ⟨0, _⟩ => ((R0.dat0 (V0 m ρ) c).arrAt_in 0 rfl _).trans ((R0.A_eq (V0 m ρ) c 0).trans (W1_of_ne m ρ c main_arg0 (by decide)).symm)
  | ⟨1, _⟩ => (W1_v0 m ρ c).symm
theorem hrest0 (c : Dev nD) : ∀ b, b ∉ Finset.univ.image (Pipeline.arrRef spec0) → V1 m ρ c b = V0 m ρ c b :=
  fun b hb => W1_of_ne m ρ c b (by rintro rfl; exact hb (Finset.mem_image.mpr ⟨1, Finset.mem_univ _, rfl⟩))

/-! ## The aggregation kernel's entry and exit, the shared column dealt by halves -/

/-- A buffer held at the full share is the same buffer held twice, once at each half of the full share. -/
theorem full_halves {ℓ : Loc nD τ sig} {I : Finset (Idx ℓ)} {f : Buf (Elt F) ℓ} :
    (ℓ ↦[I]{fullShare} f : sProp 𝕄) ⊢ iprop((ℓ ↦[I]{fullShare.left} f) ∗ ℓ ↦[I]{fullShare.right} f) :=
  (pointsTo_share (PosShare.mem_left_op_right fullShare)).1

/-- The two halves, at the same contents, are the buffer at the full share again. -/
theorem halves_full {ℓ : Loc nD τ sig} {I : Finset (Idx ℓ)} {f : Buf (Elt F) ℓ} :
    iprop((ℓ ↦[I]{fullShare.left} f) ∗ ℓ ↦[I]{fullShare.right} f) ⊢ (ℓ ↦[I]{fullShare} f : sProp 𝕄) :=
  (pointsTo_share (PosShare.mem_left_op_right fullShare)).2

theorem entry1 (c : Dev nD) :
    StableHlo.held (c : Thread nD τ) (Pipeline.ucRefs τ sig) (W1 m ρ c) ⊢ ((R1.dat1 (V1 m ρ) c).arrays ((R1.dat1 (V1 m ρ) c).arrAt · 0) : sProp 𝕄) := by
  rw [← Pipeline.unscopedBufs_held c (W1 m ρ c), ub_explicit, arrays1_eq]
  iintro ⟨⟨Ha0, Hv0⟩, Ha1, Ha2, Ha3, Hv1⟩
  ihave Hh := full_halves $$ Hv0
  icases Hh with ⟨HL, HR⟩
  isplitl [Ha0]; · iexact Ha0
  isplitl [Ha1]; · iexact Ha1
  isplitl [HL]; · iexact HL
  isplitl [HR]; · iexact HR
  isplitl [Ha2]; · iexact Ha2
  isplitl [Ha3]; · iexact Ha3
  iexact Hv1

theorem exit1 (c : Dev nD) :
    ((R1.dat1 (V1 m ρ) c).arrays ((R1.dat1 (V1 m ρ) c).arrAt · cfg1.N) : sProp 𝕄) ⊢ StableHlo.held (c : Thread nD τ) (Pipeline.ucRefs τ sig) (W2 m ρ c) := by
  rw [← Pipeline.unscopedBufs_held c (W2 m ρ c), ub_explicit, arrays1_eq]
  rw [(R1.dat1 (V1 m ρ) c).arrAt_in 0 rfl cfg1.N, (R1.dat1 (V1 m ρ) c).arrAt_in 1 rfl cfg1.N, (R1.dat1 (V1 m ρ) c).arrAt_in 2 rfl cfg1.N,
    (R1.dat1 (V1 m ρ) c).arrAt_in 3 rfl cfg1.N, (R1.dat1 (V1 m ρ) c).arrAt_in 4 rfl cfg1.N, (R1.dat1 (V1 m ρ) c).arrAt_in 5 rfl cfg1.N]
  rw [W2_of_ne m ρ c main_arg0 (by decide), W2_of_ne m ρ c main_v0 (by decide), W2_of_ne m ρ c main_arg1 (by decide),
    W2_of_ne m ρ c main_arg2 (by decide), W2_of_ne m ρ c main_arg3 (by decide), W2_v1]
  iintro ⟨Ha0, Ha1, HL, HR, Ha2, Ha3, Hv1⟩
  ihave Hv0 := halves_full $$ [HL HR]
  · isplitl [HL]; · iexact HL
    iexact HR
  isplitl [Ha0 Hv0]
  · isplitl [Ha0]; · iexact Ha0
    iexact Hv0
  isplitl [Ha1]; · iexact Ha1
  isplitl [Ha2]; · iexact Ha2
  isplitl [Ha3]; · iexact Ha3
  iexact Hv1

end Cert.KernelIdeal.Whole

end
-- ==== Proof.Program.lean ====
/-
  The program's two kernels as segments of its main function, and the run of the whole: every weakly fair execution
  terminates, nothing faults, and every unscoped buffer ends at the valuation `W2` (the arguments as launched, the
  column of normalising factors at what the degree kernel left, the result at what the aggregation kernel left).
-/
import proofs.«109398_j48576080118434_2_alg».proof.Proof.Gen.KernelIdeal.Launch
import proofs.«109398_j48576080118434_2_alg».proof.Proof.Gen.KernelIdeal.Skeleton
import proofs.«109398_j48576080118434_2_alg».proof.Proof.Gen.KernelIdeal.Points
import proofs.«109398_j48576080118434_2_alg».proof.Proof.Whole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What enters a kernel's invariant beside the scoped buffers, reordered. -/
theorem join3 (X P S : sProp 𝕄) : iprop(X ∗ P ∗ S) ⊢ iprop(S ∗ X) := by
  iintro ⟨Hp, -, Hr⟩
  isplitl [Hr]; · iexact Hr
  iexact Hp
theorem split3 (X S : sProp 𝕄) : iprop(S ∗ X) ⊢ iprop(X ∗ emp ∗ S) := by
  iintro ⟨Hr, Hp⟩
  isplitl [Hp]; · iexact Hp
  isplitr; · iempintro
  iexact Hr

variable (m : (ℓ : Loc nD τ sig) → Buf (Elt F) ℓ) (ρ : Dev nD → PrngReg)

set_option backward.isDefEq.respectTransparency.types false in
/-- THE DEGREE KERNEL over the thread state: entered from every unscoped buffer at `W0`, left at `W1`. Its two arrays are
    split out of the unscoped buffers and put back at the exit contents; the generator register enters the invariant
    and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (join3 _ _ _).trans (R0.hin (V0 m ρ) c)
  hout c := by
    rw [Pipeline.ownSems0_none]
    exact (R0.hout (V0 m ρ) c).trans (split3 _ _)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last thread state without the `owes`: every unscoped buffer at `W2`, the generator register at some state. -/
abbrev Tₙ (c : Dev nD) : sProp 𝕄 := iprop(StableHlo.held (c : Thread nD τ) (Pipeline.ucRefs τ sig) (W2 m ρ c) ∗ ∃ r, prngReg c r)

set_option backward.isDefEq.respectTransparency.types false in
/-- THE AGGREGATION KERNEL over the thread state: entered from every unscoped buffer at `W1`, left at `W2`. All six
    unscoped buffers are arrays of its windows, the column of normalising factors of two of them (`entry1`, `exit1`). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (R1.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none]
    iintro ⟨⟨Hub, Hp, HO⟩, -, -⟩
    ihave Ha := (entry1 m ρ c) $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := (join3 _ _ _).trans (R1.hin (V1 m ρ) c)
  hout c := by
    rw [Pipeline.ownSems0_none]
    exact (R1.hout (V1 m ρ) c).trans (split3 _ _)
  hexit c := by
    have hx : ((pdats m ρ 1 c).arrays ((pdats m ρ 1 c).arrAt · (Pipeline.pin (pcfgs (F := F)) adm 1).N) : sProp 𝕄)
        ⊢ StableHlo.held (c : Thread nD τ) (Pipeline.ucRefs τ sig) (W2 m ρ c) := exit1 m ρ c
    iintro ⟨Ha, HO, HY, -⟩
    ihave Hh := hx $$ Ha
    imodintro
    isplitl [Hh HY]
    · isplitl [Hh]; · iexact Hh
      iexact HY
    unfold Pipeline.Dat.owesAt Pipeline.owesWithin
    icases HO with ⟨%W, -, HO⟩; iexists W; iexact HO

/-- The main function's two segments. -/
abbrev segs : List (Pipeline.Seg (pcfgs (F := F)) adm (pdats m ρ) () defs₀ 𝒱₀ L lv) :=
  [ .region (reg0 m ρ), .region (reg1 m ρ) ]

theorem main_run (c : Dev nD) : main (F := F) c = Pipeline.Seg.run (segs m ρ) :=
  main_segs adm (pdats m ρ) () 𝒱₀ L lv (reg0 m ρ) (reg1 m ρ) c

set_option backward.isDefEq.respectTransparency.types false in
/-- THE RUN: from any memory with zero counters every weakly fair execution of the main function on the TensorCores
    terminates, nothing faulting, and every final state holds every unscoped buffer at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

end Cert.KernelIdeal.Whole

end
-- ==== Proof.Frames.lean ====
/-
  The run of the whole program, read at the argument arrays and at the result: the arguments end as launched (no
  kernel writes one: each is read through input windows only), and the result array ends at what the aggregation
  kernel's write-backs leave.
-/
import proofs.«109398_j48576080118434_2_alg».proof.Proof.Gen.KernelIdeal.Launch
import proofs.«109398_j48576080118434_2_alg».proof.Proof.Gen.KernelIdeal.Skeleton
import proofs.«109398_j48576080118434_2_alg».proof.Proof.Gen.KernelIdeal.Points
import proofs.«109398_j48576080118434_2_alg».proof.Proof.Program
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer neither kernel writes holds its launch contents at the end. -/
theorem W2_arg (c : Dev nD) (r : Ref sig .tc) (h1 : r ≠ main_v1) (h0 : r ≠ main_v0) : W2 m ρ c r = m ((c : Thread nD τ).loc r) :=
  (W2_of_ne m ρ c r h1).trans ((W1_of_ne m ρ c r h0).trans rfl)

/-- Every weakly fair execution terminates, nothing faults, the result array ends at `res` and the four arguments as
    launched. -/
theorem run_res : θ_run defs (onTc (τ := τ) (main (F := F))) ⟨m, fun _ => 0, ρ⟩ (fun r => ∀ c : Dev nD,
      r.2.mem ((c.tc : Thread nD τ).loc main_v1) = res m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v1 (by decide))).trans (W2_v1 m ρ c),
     (h c _ (mem_uc main_arg0 (by decide))).trans (W2_arg m ρ c main_arg0 (by decide) (by decide)),
     (h c _ (mem_uc main_arg1 (by decide))).trans (W2_arg m ρ c main_arg1 (by decide) (by decide)),
     (h c _ (mem_uc main_arg2 (by decide))).trans (W2_arg m ρ c main_arg2 (by decide) (by decide)),
     (h c _ (mem_uc main_arg3 (by decide))).trans (W2_arg m ρ c main_arg3 (by decide) (by decide))⟩)
    (run_all m ρ)

/-- The frame: the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_res m ρ)

end Cert.KernelIdeal.Whole

end
-- ==== Proof.R0Value.lean ====
/-
  The degree kernel's scratch column and output block as VALUES: what each of the three cases leaves, read off the
  body's runs — the scratch after a point is the block's row sums added to what the scratch held (to zero at a first
  block column), and the output block at a last block column is the reciprocal square root of the scratch.
-/
import proofs.«109398_j48576080118434_2_alg».proof.Proof.Gen.KernelIdeal.Launch
import proofs.«109398_j48576080118434_2_alg».proof.Proof.Gen.KernelIdeal.Skeleton
import proofs.«109398_j48576080118434_2_alg».proof.Proof.Gen.KernelIdeal.Points
import proofs.«109398_j48576080118434_2_alg».proof.Proof.R0Frame
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- A middle column adds the block's row sums to the scratch. -/
theorem soutB_eq (c : Dev nD) (t : Fin cfg0.N) (h1 : ¬t.val % 4 = 0) (h2 : ¬t.val % 4 = 3) (x0 : Vec F S2048x2048 .f32) (xs : Vec F S2048x1 .f32) :
    soutB c t h1 h2 x0 xs = k0_pay2 xs x0 := by
  unfold soutB
  rw [View.read_writes_eq_canon _ _ _ (scoverB c t h1 h2 x0 xs)]
  unfold runB
  dsimp only
  rw [View.canon_unit_zero hz]
  simp only [View.readAt_eq_ld, (hs0 t).read_unread, (Memref.isWhole_whole cc0_scratch0).read_unread,
    View.ld_unit_zero (S := S2048x1) hz, View.ld_unit_zero (S := S2048x2048) hz]

/-- A first column resets the scratch and adds the block's row sums to the zero column. -/
theorem soutA_eq (c : Dev nD) (t : Fin cfg0.N) (h1 : t.val % 4 = 0) (x0 : Vec F S2048x2048 .f32) :
    soutA c t h1 x0 = k0_pay2 (k0_pay1 (F := F)) x0 := by
  unfold soutA
  rw [View.read_writes_eq_canon _ _ _ (scoverA c t h1 x0)]
  unfold runA
  dsimp only
  sl_unfold_words
  rw [View.canon_cons_unit_zero (S := S2048x1) hz, View.readCov_unit_zero (S := S2048x1) _ hz]
  simp only [View.readAt_eq_ld, (hs0 t).read_unread, View.ld_unit_zero (S := S2048x1) hz, View.ld_unit_zero (S := S2048x2048) hz]

/-- A last column adds the block's row sums to the scratch, -/
theorem soutC_eq (c : Dev nD) (t : Fin cfg0.N) (h1 : ¬t.val % 4 = 0) (h2 : t.val % 4 = 3) (x0 : Vec F S2048x2048 .f32) (xs : Vec F S2048x1 .f32) :
    soutC c t h1 h2 x0 xs = k0_pay2 xs x0 := by
  unfold soutC
  rw [View.read_writes_eq_canon _ _ _ (scoverC c t h1 h2 x0 xs)]
  unfold runC
  dsimp only
  sl_unfold_words
  rw [View.canon_unit_zero hz]
  simp only [View.readAt_eq_ld, (hs0 t).read_unread, (Memref.isWhole_whole cc0_scratch0).read_unread,
    View.ld_unit_zero (S := S2048x1) hz, View.ld_unit_zero (S := S2048x2048) hz]

/-- and stores the reciprocal square root of the completed sums into the output block. -/
theorem outC_eq (c : Dev nD) (t : Fin cfg0.N) (h1 : ¬t.val % 4 = 0) (h2 : t.val % 4 = 3) (x0 : Vec F S2048x2048 .f32) (xs : Vec F S2048x1 .f32) :
    outC c t h1 h2 x0 xs = k0_pay3 (k0_pay2 xs x0) := by
  unfold outC
  rw [View.read_writes_eq_canon _ _ _ (coverC c t h1 h2 x0 xs)]
  unfold runC
  dsimp only
  sl_unfold_words
  rw [View.canon_unit_zero hz, View.readCov_unit_zero (S := S2048x1) _ hz]
  simp only [View.readAt_eq_ld, (hs0 t).read_unread, (Memref.isWhole_whole cc0_scratch0).read_unread,
    View.ld_unit_zero (S := S2048x1) hz, View.ld_unit_zero (S := S2048x2048) hz]

end Cert.KernelIdeal.R0

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.PayValue.lean ====
/-
  The kernel's payloads — the pure values its two bodies store — read at an index on the extended reals.

  First body (the degrees): the running column starts at zero; each step adds to it the sums of the rows of the
  loaded block of the adjacency matrix (a sum over the lane axis from the zero word, put back as a column); the last
  step takes the reciprocal square root of the column, entry by entry.

  Second body (the layer): the accumulator starts at zero; each step adds to it the product of the loaded block of
  the adjacency matrix with the loaded features, each feature row first scaled by its node's factor (the factor
  column spread over the lanes); the last step scales each accumulated row by its node's factor, multiplies by the
  weights, adds the bias (one row spread over the rows) and takes the maximum with zero.

  A change of float format is the identity here, a cast of a shape to itself is the identity, and a product on the
  matrix unit into the zero accumulator is the plain sum over the contracted coordinate.
-/
import proofs.«109398_j48576080118434_2_alg».proof.Proof.Gen.KernelIdeal.Skeleton
import proofs.«109398_j48576080118434_2_alg».proof.Proof.LibKeepdims
import proofs.«109398_j48576080118434_2_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayValue

open Cert.KernelIdeal Cert.KernelIdeal.Gen Idealize.ShloMosaic Idealize.ShloMosaic.ValueIdx
open scoped BigOperators

/-! ## The first body: the degrees and their reciprocal square roots -/

/-- The degree column is initialised to zero. -/
theorem pay0_1_apply (r : Fin 2048) : k0_pay1 (F := Ideal) (ix2 r (0 : Fin 1)) = 0 := by
  simp only [k0_pay1, shapeCast_self]
  exact Ideal.ofBits_zero_f32

/-- A step adds to row `r` of the column the sum of row `r` of the loaded block. -/
theorem pay0_2_apply (v3 : Vec Ideal S2048x1 .f32) (v4 : Vec Ideal S2048x2048 .f32) (r : Fin 2048) :
    k0_pay2 v3 v4 (ix2 r (0 : Fin 1)) = v3 (ix2 r (0 : Fin 1)) + ∑ k : Fin 2048, v4 (ix2 r k) := by
  simp only [k0_pay2, shapeCast_self]
  rw [addf_apply]
  refine congrArg (v3 (ix2 r (0 : Fin 1)) + ·) ?_
  refine (Cert.Lib.Keepdims.shapeCast_a_a1_apply _ _ r (0 : Fin 1)).trans ?_
  exact Cert.Lib.Keepdims.rowSum_apply v4 _ _ _ r

/-- The last step takes the reciprocal square root of each degree. -/
theorem pay0_3_apply (v14 : Vec Ideal S2048x1 .f32) (j : S2048x1.Idx) : k0_pay3 v14 j = Ideal.rsqrt (v14 j) := rfl

/-! ## The second body: the aggregation and the dense layer -/

/-- The accumulator is initialised to zero. -/
theorem pay1_1_apply (r : Fin 2048) (f : Fin 128) : k1_pay1 (F := Ideal) (ix2 r f) = 0 := by
  simp only [k1_pay1, shapeCast_self]
  exact Ideal.ofBits_zero_f32

/-- A step adds to entry `(r, f)` of the accumulator the sum, over the loaded columns `k`, of the adjacency entry
    `(r, k)` times feature `(k, f)` scaled by the factor of node `k`. -/
theorem pay1_2_apply (v3 : Vec Ideal S1024x128 .f32) (v4 : Vec Ideal S1024x1 .f32) (v9 : Vec Ideal S2048x1024 .f32)
    (v11 : Vec Ideal S2048x128 .f32) (r : Fin 2048) (f : Fin 128) :
    k1_pay2 v3 v4 v9 v11 (ix2 r f)
      = v11 (ix2 r f) + ∑ k : Fin 1024, v9 (ix2 r k) * (v3 (ix2 k f) * v4 (ix2 k (0 : Fin 1))) := by
  simp only [k1_pay2, shapeCast_self]
  rw [addf_apply]
  refine congrArg (v11 (ix2 r f) + ·) ?_
  refine (Cert.Lib.PlainDot.matmul_plain_zero_apply none _ _ r f).trans ?_
  refine Finset.sum_congr rfl fun k _ => ?_
  refine congrArg (v9 (ix2 r k) * ·) ?_
  refine congrArg (v3 (ix2 k f) * ·) ?_
  exact Cert.Lib.Keepdims.broadcastTo_a1_ab_apply v4 _ k f

/-- The last step: row `r` of the accumulator scaled by the factor of node `r`, times the weights, plus the bias,
    and the maximum with zero. -/
theorem pay1_3_apply (v20 : Vec Ideal S2048x128 .f32) (v21 : Vec Ideal S2048x1 .f32) (v26 : Vec Ideal S128x128 .f32)
    (v29 : Vec Ideal S128 .f32) (r : Fin 2048) (o : Fin 128) :
    k1_pay3 v20 v21 v26 v29 (ix2 r o)
      = max ((∑ f : Fin 128, (v20 (ix2 r f) * v21 (ix2 r (0 : Fin 1))) * v26 (ix2 f o)) + v29 (ix1 o)) 0 := by
  simp only [k1_pay3, shapeCast_self]
  rw [maximumf_apply, addf_apply]
  refine congrArg₂ max (congrArg₂ (· + ·) ?_ ?_) ?_
  · refine (Cert.Lib.PlainDot.matmul_plain_zero_apply none _ _ r o).trans ?_
    refine Finset.sum_congr rfl fun f _ => ?_
    refine congrArg (· * v26 (ix2 f o)) ?_
    refine congrArg (v20 (ix2 r f) * ·) ?_
    exact Cert.Lib.Keepdims.broadcastTo_a1_ab_apply v21 _ r f
  · refine (broadcastTo_1b_ab_apply _ _ r o).trans ?_
    exact shapeCast_a_1a_apply v29 _ (0 : Fin 1) o
  · exact Ideal.ofBits_zero_f32

end Cert.KernelIdeal.PayValue

end
-- ==== Proof.Spec.lean ====
/-
  A graph-convolution layer with the symmetric degree normalisation, as a function of its four arrays on the
  extended reals: the adjacency matrix `A` (8192 × 8192), the node features `X` (8192 × 128), the weights `W`
  (128 × 128) and the bias `b` (128).

  With `s i = Σ_k A i k` the degree of node `i` and `d i = 1 / √(s i)`, the layer is
  `relu ((D A D X) W + b)` for `D = diag d`. Two arrangements of the aggregation `D A D X` are stated:
  * `aggK`: the features are scaled by `d k` first, summed against row `i` of `A`, and the sum scaled by `d i`
    (with `d` the reciprocal square root of the degree taken as one operation);
  * `aggR`: every entry of `A` is scaled by `d i` and by `d k` first, and the scaled matrix multiplies `X`
    (with `d` the quotient of one by the square root of the degree).
  When every entry of `A` and `X` is a real number and every degree is positive the two agree (`agg_eq`): every
  quantity is then a real number, `d i` is the positive real `(√(s i))⁻¹` in both readings, and a finite sum of
  reals may be multiplied through term by term. (On the extended reals the law fails without those hypotheses: a
  negative degree reads `⊥` in one and `0` in the other, and a sum of infinities of both signs does not distribute.)
-/
import Idealize.ShloMosaic.PureOps.Ideal
import Idealize.ShloMosaic.Lib.ValueIdx

noncomputable section

namespace GraphConv

open Idealize.ShloMosaic Idealize.ShloMosaic.ValueIdx
open scoped BigOperators

abbrev SA : Shape := ⟨2, ![8192, 8192]⟩
abbrev SX : Shape := ⟨2, ![8192, 128]⟩
abbrev SW : Shape := ⟨2, ![128, 128]⟩
abbrev Sb : Shape := ⟨1, ![128]⟩

/-- The degree of node `i`: the sum of row `i` of the adjacency matrix. -/
def rowSum (A : SA.Idx → EReal) (i : Fin 8192) : EReal := ∑ k : Fin 8192, A (ix2 i k)

/-- The normalising factor as ONE operation: the reciprocal square root of the degree. -/
def dK (A : SA.Idx → EReal) (i : Fin 8192) : EReal := Ideal.rsqrt (rowSum A i)

/-- The normalising factor as a quotient: one over the square root of the degree. -/
def dR (A : SA.Idx → EReal) (i : Fin 8192) : EReal := Ideal.div 1 (Ideal.sqrt (rowSum A i))

/-- The aggregation with the features scaled first and the row sum scaled last. -/
def aggK (A : SA.Idx → EReal) (X : SX.Idx → EReal) (i : Fin 8192) (f : Fin 128) : EReal :=
  (∑ k : Fin 8192, A (ix2 i k) * (X (ix2 k f) * dK A k)) * dK A i

/-- The aggregation through the normalised adjacency matrix. -/
def aggR (A : SA.Idx → EReal) (X : SX.Idx → EReal) (i : Fin 8192) (f : Fin 128) : EReal :=
  ∑ k : Fin 8192, ((A (ix2 i k) * dR A i) * dR A k) * X (ix2 k f)

/-- The dense layer applied to an aggregation `g`: `relu (g W + b)`. -/
def layer (g : Fin 8192 → Fin 128 → EReal) (W : SW.Idx → EReal) (b : Sb.Idx → EReal) (i : Fin 8192) (o : Fin 128) : EReal :=
  max (∑ f : Fin 128, g i f * W (ix2 f o) + b (ix1 o)) 0

/-- The whole layer as an array of shape 8192 × 128, over an aggregation. -/
def out (g : Fin 8192 → Fin 128 → EReal) (W : SW.Idx → EReal) (b : Sb.Idx → EReal) : SX.Idx → EReal :=
  fun j => layer g W b (j 0) (j 1)

end GraphConv

end
-- ==== Proof.LibBlockSum.lean ====
/-
  Regrouping a long sum into consecutive blocks.

  A sum of `B * n` terms `f 0, f 1, …` can be taken block by block: first the `B` terms of block `0`, then the `B`
  terms of block `1`, and so on, block `s` holding the terms `f (B * s + k)` for `k < B`. Only associativity and
  commutativity of the addition are used, so the statements hold in any commutative additive monoid — in particular
  on the extended reals, where no finiteness is needed.
-/
import Idealize.ShloMosaic.Lib.ValueIdx

namespace BlockSum

open Finset

variable {β : Type*} [AddCommMonoid β]

/-- The first `n` blocks of `B` consecutive terms, summed block by block, are the first `B * n` terms. -/
theorem sum_range_blocks (f : ℕ → β) (B : ℕ) :
    ∀ n : ℕ, ∑ s ∈ range n, ∑ k ∈ range B, f (B * s + k) = ∑ K ∈ range (B * n), f K
  | 0 => by rw [Nat.mul_zero, sum_range_zero, sum_range_zero]
  | n + 1 => by
    rw [sum_range_succ, sum_range_blocks f B n, Nat.mul_succ, sum_range_add]

/-- The same with the position inside a block and the position in the whole sum running over `Fin` types: `n`
    blocks of `B` terms make up a sum of `N = B * n` terms. -/
theorem sum_fin_blocks (f : ℕ → β) (B n N : ℕ) (h : N = B * n) :
    ∑ s ∈ range n, ∑ k : Fin B, f (B * s + k.val) = ∑ K : Fin N, f K.val := by
  subst h
  rw [Fin.sum_univ_eq_sum_range (fun K => f K) (B * n), ← sum_range_blocks f B n]
  exact sum_congr rfl fun s _ => Fin.sum_univ_eq_sum_range (fun k => f (B * s + k)) B

end BlockSum
-- ==== Proof.BlockMath.lean ====
/-
  The whole sums of the layer, taken one block of columns at a time.

  The degree of a node is a sum over all 8192 columns of its row; the aggregation is a sum over all 8192 nodes. A
  computation that visits the columns in consecutive blocks (four blocks of 2048 for the degrees, eight blocks of
  1024 for the aggregation), adding each block's partial sum to an accumulator that starts at zero, ends with the
  whole sum: the blocks tile the range, and only associativity and commutativity of the addition are used, which
  hold on the extended reals without any finiteness.

  Positions are natural numbers here; an array read outside its extent counts as zero, so that the blocks can be
  written with plain arithmetic on positions.
-/
import proofs.«109398_j48576080118434_2_alg».proof.Proof.Spec
import proofs.«109398_j48576080118434_2_alg».proof.Proof.LibBlockSum

noncomputable section

namespace GraphConv

open Idealize.ShloMosaic Idealize.ShloMosaic.ValueIdx
open scoped BigOperators

/-- The shape of a column of per-node factors. -/
abbrev SD : Shape := ⟨2, ![8192, 1]⟩

/-- The adjacency entry at a position given by natural numbers: the entry if the position is inside the array,
    else zero. -/
def at2 (A : SA.Idx → EReal) (i k : ℕ) : EReal :=
  if h : i < 8192 ∧ k < 8192 then A (ix2 ⟨i, h.1⟩ ⟨k, h.2⟩) else 0

/-- The feature `f` of the node at a natural-number position, zero outside the array. -/
def atX (X : SX.Idx → EReal) (k : ℕ) (f : Fin 128) : EReal :=
  if h : k < 8192 then X (ix2 ⟨k, h⟩ f) else 0

/-- The factor of the node at a natural-number position, zero outside the array. -/
def atD (D : SD.Idx → EReal) (k : ℕ) : EReal :=
  if h : k < 8192 then D (ix2 ⟨k, h⟩ (0 : Fin 1)) else 0

theorem at2_of_lt (A : SA.Idx → EReal) {i k : ℕ} (hi : i < 8192) (hk : k < 8192) :
    at2 A i k = A (ix2 ⟨i, hi⟩ ⟨k, hk⟩) := by
  unfold at2
  rw [dif_pos ⟨hi, hk⟩]

theorem atX_of_lt (X : SX.Idx → EReal) {k : ℕ} (hk : k < 8192) (f : Fin 128) :
    atX X k f = X (ix2 ⟨k, hk⟩ f) := by
  unfold atX
  rw [dif_pos hk]

theorem atD_of_lt (D : SD.Idx → EReal) {k : ℕ} (hk : k < 8192) :
    atD D k = D (ix2 ⟨k, hk⟩ (0 : Fin 1)) := by
  unfold atD
  rw [dif_pos hk]

/-- The degree of node `i` is the sum of its row taken in four blocks of 2048 columns. -/
theorem rowSum_blocks (A : SA.Idx → EReal) (i : Fin 8192) :
    (∑ j ∈ Finset.range 4, ∑ k : Fin 2048, at2 A i.val (2048 * j + k.val)) = rowSum A i := by
  refine (BlockSum.sum_fin_blocks (fun K => at2 A i.val K) 2048 4 8192 (by norm_num)).trans ?_
  unfold rowSum
  refine Finset.sum_congr rfl fun K _ => ?_
  rw [at2_of_lt A i.isLt K.isLt]

/-- The aggregation sum of node `i` and feature `f`, over any column of factors, taken in eight blocks of 1024
    nodes. -/
theorem agg_blocks (A : SA.Idx → EReal) (X : SX.Idx → EReal) (D : SD.Idx → EReal) (i : Fin 8192) (f : Fin 128) :
    (∑ j ∈ Finset.range 8, ∑ k : Fin 1024,
        at2 A i.val (1024 * j + k.val) * (atX X (1024 * j + k.val) f * atD D (1024 * j + k.val)))
      = ∑ K : Fin 8192, A (ix2 i K) * (X (ix2 K f) * D (ix2 K (0 : Fin 1))) := by
  refine (BlockSum.sum_fin_blocks (fun K => at2 A i.val K * (atX X K f * atD D K)) 1024 8 8192
    (by norm_num)).trans ?_
  refine Finset.sum_congr rfl fun K _ => ?_
  rw [at2_of_lt A i.isLt K.isLt, atX_of_lt X K.isLt f, atD_of_lt D K.isLt]

/-- An accumulator reset to zero and then added to, step after step, holds the sum of what was added:
    `acc 0 = 0 + g 0` and `acc (n + 1) = acc n + g (n + 1)` give `acc n = g 0 + … + g n`. -/
theorem chain_sum (g acc : ℕ → EReal) (h0 : acc 0 = 0 + g 0) (hs : ∀ n, acc (n + 1) = acc n + g (n + 1)) (n : ℕ) :
    acc n = ∑ j ∈ Finset.range (n + 1), g j := by
  induction n with
  | zero => rw [h0, zero_add, Finset.sum_range_one]
  | succ n ih =>
    rw [hs, ih]
    exact (Finset.sum_range_succ g (n + 1)).symm

/-- The aggregation with the features scaled first and the row sum scaled last, over ANY column `D` of per-node
    factors. -/
def aggD (A : SA.Idx → EReal) (X : SX.Idx → EReal) (D : SD.Idx → EReal) (i : Fin 8192) (f : Fin 128) : EReal :=
  (∑ K : Fin 8192, A (ix2 i K) * (X (ix2 K f) * D (ix2 K (0 : Fin 1)))) * D (ix2 i (0 : Fin 1))

/-- With the reciprocal square roots of the degrees as the column of factors it is `aggK`. -/
theorem aggD_dK (A : SA.Idx → EReal) (X : SX.Idx → EReal) : aggD A X (fun j => dK A (j 0)) = aggK A X := rfl

end GraphConv

end
-- ==== Proof.R0Closed.lean ====
/-
  The degree kernel's result in closed form, at the exact instance: after the kernel, the column it wrote holds, at
  every node, the reciprocal square root of the node's degree (the sum of its row of the adjacency matrix).

  The scratch column after grid point `n` holds, at row `r`, the sum of the first `n % 4 + 1` blocks of 2048 entries
  of row `2048 (n / 4) + r` of the matrix (by induction on the point: a first block column starts from zero, a later
  one adds its block to what the point before left). At a last block column that is the whole row, and the output
  block there is its reciprocal square root. The output's sixteen-point grid writes back four blocks of 2048 rows,
  which cover the column.
-/
import proofs.«109398_j48576080118434_2_alg».proof.Proof.Gen.KernelIdeal.Launch
import proofs.«109398_j48576080118434_2_alg».proof.Proof.Gen.KernelIdeal.Skeleton
import proofs.«109398_j48576080118434_2_alg».proof.Proof.Gen.KernelIdeal.Points
import proofs.«109398_j48576080118434_2_alg».proof.Proof.R0Value
import proofs.«109398_j48576080118434_2_alg».proof.Proof.PayValue
import proofs.«109398_j48576080118434_2_alg».proof.Proof.BlockMath
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open GraphConv Cert.KernelIdeal.PayValue Idealize.ShloMosaic.ValueIdx
open scoped BigOperators

variable (V : (c : Dev nD) → (b : Ref sig .tc) → Buf (Elt Ideal) ((c : Thread nD τ).loc b))

/-- Point `t` is block row `t / 4`, block column `t % 4` of the adjacency matrix, and block `t / 4` of the output column. -/
theorem idx_in : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)
theorem idx_out : ∀ t : Fin cfg0.N, win0_1.index t (0 : Fin 2) = t.val / 4 ∧ win0_1.index t (1 : Fin 2) = 0 :=
  (by decide +kernel : ∀ t : Fin grid0.N, win0_1.index t (0 : Fin 2) = t.val / 4 ∧ win0_1.index t (1 : Fin 2) = 0)

/-- The adjacency block at point `t`. -/
abbrev blkA (c : Dev nD) (t : Fin cfg0.N) : Vec Ideal S2048x2048 .f32 := iblk V c 0 t

/-- The adjacency block at point `t`, entry by entry. -/
theorem blkA_apply (c : Dev nD) (t : Fin cfg0.N) (r k : Fin 2048) :
    blkA V c t (ix2 r k) = at2 (V c main_arg0) (2048 * (t.val / 4) + r.val) (2048 * (t.val % 4) + k.val) := by
  have hN : t.val < 16 := lt_of_lt_of_eq t.isLt N_0
  obtain ⟨e0, e1⟩ := idx_in t
  rw [at2_of_lt _ (by omega) (by omega)]
  unfold blkA iblk
  rw [View.read_apply]
  show V c main_arg0 _ = V c main_arg0 _
  refine congrArg (V c main_arg0) ?_
  funext a; apply Fin.ext
  match a with
  | ⟨0, _⟩ => show win0_0.index t 0 * 2048 + 1 * r.val = 2048 * (t.val / 4) + r.val; rw [e0]; omega
  | ⟨1, _⟩ => show win0_0.index t 1 * 2048 + 1 * k.val = 2048 * (t.val % 4) + k.val; rw [e1]; omega

/-! What each case leaves, read at a row, over ANY block `x0` and previous scratch `xs`. -/

theorem sA_apply (c : Dev nD) (t : Fin cfg0.N) (h1 : t.val % 4 = 0) (x0 : Vec Ideal S2048x2048 .f32) (r : Fin 2048) :
    soutA c t h1 x0 (ix2 r (0 : Fin 1)) = 0 + ∑ k : Fin 2048, x0 (ix2 r k) := by
  rw [soutA_eq, pay0_2_apply, pay0_1_apply]
theorem sB_apply (c : Dev nD) (t : Fin cfg0.N) (h1 : ¬t.val % 4 = 0) (h2 : ¬t.val % 4 = 3) (x0 : Vec Ideal S2048x2048 .f32) (xs : Vec Ideal S2048x1 .f32) (r : Fin 2048) :
    soutB c t h1 h2 x0 xs (ix2 r (0 : Fin 1)) = xs (ix2 r (0 : Fin 1)) + ∑ k : Fin 2048, x0 (ix2 r k) := by
  rw [soutB_eq, pay0_2_apply]
theorem sC_apply (c : Dev nD) (t : Fin cfg0.N) (h1 : ¬t.val % 4 = 0) (h2 : t.val % 4 = 3) (x0 : Vec Ideal S2048x2048 .f32) (xs : Vec Ideal S2048x1 .f32) (r : Fin 2048) :
    soutC c t h1 h2 x0 xs (ix2 r (0 : Fin 1)) = xs (ix2 r (0 : Fin 1)) + ∑ k : Fin 2048, x0 (ix2 r k) := by
  rw [soutC_eq, pay0_2_apply]
theorem oC_apply (c : Dev nD) (t : Fin cfg0.N) (h1 : ¬t.val % 4 = 0) (h2 : t.val % 4 = 3) (x0 : Vec Ideal S2048x2048 .f32) (xs : Vec Ideal S2048x1 .f32) (j : S2048x1.Idx) :
    outC c t h1 h2 x0 xs j = Ideal.rsqrt (soutC c t h1 h2 x0 xs j) := by
  rw [outC_eq, soutC_eq, pay0_3_apply]

/-- The step's two components, case by case, over the point's adjacency block. -/
theorem step2_A (c : Dev nD) (t : Fin cfg0.N) (prev : Vec Ideal S2048x1 .f32) (h1 : t.val % 4 = 0) :
    (step V c t prev).2 = soutA c t h1 (blkA V c t) := by rw [step_A V c t prev h1]
theorem step2_B (c : Dev nD) (t : Fin cfg0.N) (prev : Vec Ideal S2048x1 .f32) (h1 : ¬t.val % 4 = 0) (h2 : ¬t.val % 4 = 3) :
    (step V c t prev).2 = soutB c t h1 h2 (blkA V c t) prev := by rw [step_B V c t prev h1 h2]
theorem step2_C (c : Dev nD) (t : Fin cfg0.N) (prev : Vec Ideal S2048x1 .f32) (h1 : ¬t.val % 4 = 0) (h2 : t.val % 4 = 3) :
    (step V c t prev).2 = soutC c t h1 h2 (blkA V c t) prev := by rw [step_C V c t prev h1 h2]
theorem step1_C (c : Dev nD) (t : Fin cfg0.N) (prev : Vec Ideal S2048x1 .f32) (h1 : ¬t.val % 4 = 0) (h2 : t.val % 4 = 3) :
    (step V c t prev).1 = outC c t h1 h2 (blkA V c t) prev := by rw [step_C V c t prev h1 h2]

/-- One point's scratch: the block's row sums added to zero at a first block column, to the previous scratch else. -/
theorem step_scratch (c : Dev nD) (t : Fin cfg0.N) (prev : Vec Ideal S2048x1 .f32) (r : Fin 2048) :
    (step V c t prev).2 (ix2 r (0 : Fin 1))
      = (if t.val % 4 = 0 then 0 else prev (ix2 r (0 : Fin 1)))
        + ∑ k : Fin 2048, at2 (V c main_arg0) (2048 * (t.val / 4) + r.val) (2048 * (t.val % 4) + k.val) := by
  by_cases h1 : t.val % 4 = 0
  · rw [step2_A V c t prev h1, sA_apply, if_pos h1]
    simp only [blkA_apply]
  · rw [if_neg h1]
    by_cases h2 : t.val % 4 = 3
    · rw [step2_C V c t prev h1 h2, sC_apply]
      simp only [blkA_apply]
    · rw [step2_B V c t prev h1 h2, sB_apply]
      simp only [blkA_apply]

/-- At a last block column the output block is the reciprocal square root of the scratch. -/
theorem step_out (c : Dev nD) (t : Fin cfg0.N) (prev : Vec Ideal S2048x1 .f32) (h2 : t.val % 4 = 3) (j : S2048x1.Idx) :
    (step V c t prev).1 j = Ideal.rsqrt ((step V c t prev).2 j) := by
  have h1 : ¬t.val % 4 = 0 := by omega
  rw [step1_C V c t prev h1 h2, step2_C V c t prev h1 h2, oC_apply]

/-- THE SCRATCH after point `n`: the first `n % 4 + 1` blocks of the row. -/
theorem scratch_eq (c : Dev nD) : ∀ (n : ℕ) (h : n < cfg0.N) (r : Fin 2048),
    (outsAt V c n h).2 (ix2 r (0 : Fin 1))
      = ∑ j ∈ Finset.range (n % 4 + 1), ∑ k : Fin 2048, at2 (V c main_arg0) (2048 * (n / 4) + r.val) (2048 * j + k.val)
  | 0, h, r => by
    rw [show outsAt V c 0 h = step V c ⟨0, h⟩ unread from rfl, step_scratch]
    simp
  | n + 1, h, r => by
    rw [show outsAt V c (n + 1) h = step V c ⟨n + 1, h⟩ (outsAt V c n (Nat.lt_of_succ_lt h)).2 from rfl, step_scratch]
    show (if (n + 1) % 4 = 0 then 0 else (outsAt V c n _).2 (ix2 r 0)) + ∑ k : Fin 2048, at2 (V c main_arg0) (2048 * ((n + 1) / 4) + r.val) (2048 * ((n + 1) % 4) + k.val) = _
    by_cases h1 : (n + 1) % 4 = 0
    · rw [if_pos h1, h1]; simp
    · rw [if_neg h1, scratch_eq c n (Nat.lt_of_succ_lt h) r]
      have e1 : (n + 1) % 4 = n % 4 + 1 := by omega
      have e2 : (n + 1) / 4 = n / 4 := by omega
      rw [e1, e2, Finset.sum_range_succ (fun j => ∑ k : Fin 2048, at2 (V c main_arg0) (2048 * (n / 4) + r.val) (2048 * j + k.val)) (n % 4 + 1)]

/-- The column of reciprocal square roots of the degrees. -/
abbrev dcolSpec (c : Dev nD) : Buf (Elt Ideal) ((c : Thread nD τ).loc main_v0) := fun j => dK (V c main_arg0) (j 0)

theorem mem_blk (t : Fin cfg0.N) (i : S8192x1.Idx) :
    i ∈ ((cfg0.win 1).blk t).view.set ↔ ∀ a : Fin 2, win0_1.index t a * S2048x1.size a ≤ (i a).val ∧ (i a).val < win0_1.index t a * S2048x1.size a + S2048x1.size a := by
  show i ∈ ((View.whole main_v0).slice (win0_1.rect t)).set ↔ _
  rw [View.set_slice_whole, Rect.mem_set_unit]
  exact Iff.rfl

/-- What a last block column writes back is its block of that column. -/
theorem flushed_eq (c : Dev nD) (t : Fin cfg0.N) (hf : (cfg0.win 1).flush t = true) :
    (dat0 V c).flushed 1 t = ((cfg0.win 1).blk t).view.read (Elt Ideal) (dcolSpec V c) := by
  have h3 : t.val % 4 = 3 := (flush0_1 t).mp hf
  have hN : t.val < 16 := lt_of_lt_of_eq t.isLt N_0
  obtain ⟨e0, e1⟩ := idx_out t
  show (cfg0.win 1).cut (grid0.coords t) ((dat0 V c).after 1 t) = _
  rw [after_1]
  funext y
  rw [View.read_apply]
  obtain ⟨r, q, rfl⟩ : ∃ (r : Fin 2048) (q : Fin 1), y = ix2 r q := ⟨y 0, y 1, eq_ix2 y⟩
  obtain rfl : q = 0 := Subsingleton.elim _ _
  show (outsAt V c t.val t.isLt).1 (ix2 r 0) = dK (V c main_arg0) ((((cfg0.win 1).blk t).view.emb (ix2 r 0)) 0)
  have hi : (((cfg0.win 1).blk t).view.emb (ix2 r (0 : Fin 1))) 0 = (⟨2048 * (t.val / 4) + r.val, by omega⟩ : Fin 8192) := by
    apply Fin.ext
    show win0_1.index t 0 * 2048 + 1 * r.val = 2048 * (t.val / 4) + r.val
    rw [e0]; omega
  rw [hi]
  have hs := scratch_eq V c t.val t.isLt r
  rw [h3] at hs
  have hz : t.val ≠ 0 := by omega
  rw [outsAt_pos V c t hz] at hs ⊢
  rw [step_out V c t _ h3, hs]
  unfold dK
  exact congrArg Ideal.rsqrt (rowSum_blocks (V c main_arg0) ⟨2048 * (t.val / 4) + r.val, by omega⟩)

/-- THE COLUMN after the degree kernel. -/
theorem final (c : Dev nD) : (dat0 V c).arrAt 1 cfg0.N = dcolSpec V c :=
  (dat0 V c).arrAt_eq_of_cover 1 (dcolSpec V c) (flushed_eq V c) fun i => by
    have hi0 : (i 0).val < 8192 := (i 0).isLt
    have hi1 : (i 1).val < 1 := (i 1).isLt
    have hN : cfg0.N = 16 := N_0
    let t : Fin cfg0.N := ⟨4 * ((i 0).val / 2048) + 3, by rw [hN]; omega⟩
    obtain ⟨e0, e1⟩ := idx_out t
    have ht : t.val = 4 * ((i 0).val / 2048) + 3 := rfl
    refine ⟨t, (flush0_1 t).mpr (by rw [ht]; omega), ?_⟩
    rw [mem_blk]
    intro a
    match a with
    | ⟨0, _⟩ => show win0_1.index t 0 * 2048 ≤ (i 0).val ∧ (i 0).val < win0_1.index t 0 * 2048 + 2048; rw [e0, ht]; omega
    | ⟨1, _⟩ => show win0_1.index t 1 * 1 ≤ (i 1).val ∧ (i 1).val < win0_1.index t 1 * 1 + 1; rw [e1]; omega

end Cert.KernelIdeal.R0

end
-- ==== Proof.R1Value.lean ====
/-
  The aggregation kernel's scratch block and output block as VALUES: what each of the three cases leaves, read off the
  body's runs — the scratch after a point is the product of the adjacency block with the scaled feature block added to
  what the scratch held (to zero at a first block column), and the output block at a last block column is the dense
  layer of the completed scratch block.
-/
import proofs.«109398_j48576080118434_2_alg».proof.Proof.Gen.KernelIdeal.Launch
import proofs.«109398_j48576080118434_2_alg».proof.Proof.Gen.KernelIdeal.Skeleton
import proofs.«109398_j48576080118434_2_alg».proof.Proof.Gen.KernelIdeal.Points
import proofs.«109398_j48576080118434_2_alg».proof.Proof.R1Frame
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 whole-buffer access. -/
theorem hz : (![0, 0] : Fin 2 → Nat) = fun _ => 0 := funext fun a => by fin_cases a <;> rfl

/-- The zero offset of a rank-1 whole-buffer access. -/
theorem hz1 : (![0] : Fin 1 → Nat) = fun _ => 0 := funext fun a => by fin_cases a; rfl

/-- A middle column adds the block product to the scratch. -/
theorem soutB_eq (c : Dev nD) (t : Fin cfg1.N) (h1 : ¬t.val % 8 = 0) (h2 : ¬t.val % 8 = 7) (x0 : Vec F S2048x1024 .f32) (x1 : Vec F S1024x128 .f32) (x2 : Vec F S1024x1 .f32) (x3 : Vec F S2048x1 .f32) (x4 : Vec F S128x128 .f32) (x5 : Vec F S128 .f32) (xs : Vec F S2048x128 .f32) :
    soutB c t h1 h2 x0 x1 x2 x3 x4 x5 xs = k1_pay2 x1 x2 x0 xs := by
  unfold soutB
  rw [View.read_writes_eq_canon _ _ _ (scoverB c t h1 h2 x0 x1 x2 x3 x4 x5 xs)]
  unfold runB
  dsimp only
  rw [View.canon_unit_zero hz]
  simp only [View.readAt_eq_ld, (hs0 t).read_unread, (hs1 t).read_unread, (hs2 t).read_unread, (hs3 t).read_unread,
    (hs4 t).read_unread, (hs5 t).read_unread, (Memref.isWhole_whole cc1_scratch0).read_unread,
    View.ld_unit_zero (S := S2048x128) hz, View.ld_unit_zero (S := S2048x1024) hz, View.ld_unit_zero (S := S1024x128) hz,
    View.ld_unit_zero (S := S1024x1) hz, View.ld_unit_zero (S := S2048x1) hz, View.ld_unit_zero (S := S128x128) hz,
    View.ld_unit_zero (S := S128) hz1]

/-- A first column resets the scratch and adds the block product to the zero block. -/
theorem soutA_eq (c : Dev nD) (t : Fin cfg1.N) (h1 : t.val % 8 = 0) (x0 : Vec F S2048x1024 .f32) (x1 : Vec F S1024x128 .f32) (x2 : Vec F S1024x1 .f32) (x3 : Vec F S2048x1 .f32) (x4 : Vec F S128x128 .f32) (x5 : Vec F S128 .f32) :
    soutA c t h1 x0 x1 x2 x3 x4 x5 = k1_pay2 x1 x2 x0 (k1_pay1 (F := F)) := by
  unfold soutA
  rw [View.read_writes_eq_canon _ _ _ (scoverA c t h1 x0 x1 x2 x3 x4 x5)]
  unfold runA
  dsimp only
  sl_unfold_words
  rw [View.canon_cons_unit_zero (S := S2048x128) hz, View.readCov_unit_zero (S := S2048x128) _ hz]
  simp only [View.readAt_eq_ld, (hs0 t).read_unread, (hs1 t).read_unread, (hs2 t).read_unread, (hs3 t).read_unread,
    (hs4 t).read_unread, (hs5 t).read_unread, (Memref.isWhole_whole cc1_scratch0).read_unread,
    View.ld_unit_zero (S := S2048x128) hz, View.ld_unit_zero (S := S2048x1024) hz, View.ld_unit_zero (S := S1024x128) hz,
    View.ld_unit_zero (S := S1024x1) hz, View.ld_unit_zero (S := S2048x1) hz, View.ld_unit_zero (S := S128x128) hz,
    View.ld_unit_zero (S := S128) hz1]

/-- A last column adds the block product to the scratch, -/
theorem soutC_eq (c : Dev nD) (t : Fin cfg1.N) (h1 : ¬t.val % 8 = 0) (h2 : t.val % 8 = 7) (x0 : Vec F S2048x1024 .f32) (x1 : Vec F S1024x128 .f32) (x2 : Vec F S1024x1 .f32) (x3 : Vec F S2048x1 .f32) (x4 : Vec F S128x128 .f32) (x5 : Vec F S128 .f32) (xs : Vec F S2048x128 .f32) :
    soutC c t h1 h2 x0 x1 x2 x3 x4 x5 xs = k1_pay2 x1 x2 x0 xs := by
  unfold soutC
  rw [View.read_writes_eq_canon _ _ _ (scoverC c t h1 h2 x0 x1 x2 x3 x4 x5 xs)]
  unfold runC
  dsimp only
  sl_unfold_words
  rw [View.canon_unit_zero hz]
  simp only [View.readAt_eq_ld, (hs0 t).read_unread, (hs1 t).read_unread, (hs2 t).read_unread, (hs3 t).read_unread,
    (hs4 t).read_unread, (hs5 t).read_unread, (Memref.isWhole_whole cc1_scratch0).read_unread,
    View.ld_unit_zero (S := S2048x128) hz, View.ld_unit_zero (S := S2048x1024) hz, View.ld_unit_zero (S := S1024x128) hz,
    View.ld_unit_zero (S := S1024x1) hz, View.ld_unit_zero (S := S2048x1) hz, View.ld_unit_zero (S := S128x128) hz,
    View.ld_unit_zero (S := S128) hz1]

/-- and stores the dense layer of the completed block into the output block. -/
theorem outC_eq (c : Dev nD) (t : Fin cfg1.N) (h1 : ¬t.val % 8 = 0) (h2 : t.val % 8 = 7) (x0 : Vec F S2048x1024 .f32) (x1 : Vec F S1024x128 .f32) (x2 : Vec F S1024x1 .f32) (x3 : Vec F S2048x1 .f32) (x4 : Vec F S128x128 .f32) (x5 : Vec F S128 .f32) (xs : Vec F S2048x128 .f32) :
    outC c t h1 h2 x0 x1 x2 x3 x4 x5 xs = k1_pay3 (k1_pay2 x1 x2 x0 xs) x3 x4 x5 := by
  unfold outC
  rw [View.read_writes_eq_canon _ _ _ (coverC c t h1 h2 x0 x1 x2 x3 x4 x5 xs)]
  unfold runC
  dsimp only
  sl_unfold_words
  rw [View.canon_unit_zero hz, View.readCov_unit_zero (S := S2048x128) _ hz]
  simp only [View.readAt_eq_ld, (hs0 t).read_unread, (hs1 t).read_unread, (hs2 t).read_unread, (hs3 t).read_unread,
    (hs4 t).read_unread, (hs5 t).read_unread, (Memref.isWhole_whole cc1_scratch0).read_unread,
    View.ld_unit_zero (S := S2048x128) hz, View.ld_unit_zero (S := S2048x1024) hz, View.ld_unit_zero (S := S1024x128) hz,
    View.ld_unit_zero (S := S1024x1) hz, View.ld_unit_zero (S := S2048x1) hz, View.ld_unit_zero (S := S128x128) hz,
    View.ld_unit_zero (S := S128) hz1]

end Cert.KernelIdeal.R1

end
-- ==== Proof.R1Closed.lean ====
/-
  The aggregation kernel's result in closed form, at the exact instance: after the kernel, the array it wrote holds,
  at every node and output feature, the dense layer of the aggregation taken over the column of factors the kernel
  was given — the sum over all nodes of adjacency entry times scaled feature, scaled by the node's own factor,
  multiplied by the weights, the bias added, the negative part cut off.

  Grid point `t` (of 32) is block row `t / 8`, block column `t % 8`. The scratch block after point `n` holds, at
  `(r, f)`, the sum over the first `n % 8 + 1` blocks of 1024 nodes of the terms of row `2048 (n / 8) + r` (by
  induction on the point: a first block column starts from zero, a later one adds its block to what the point before
  left). At a last block column that is the whole sum over the 8192 nodes, and the output block there is the dense
  layer of it. The output's 32-point grid writes back four blocks of 2048 rows, which cover the array.
-/
import proofs.«109398_j48576080118434_2_alg».proof.Proof.Gen.KernelIdeal.Launch
import proofs.«109398_j48576080118434_2_alg».proof.Proof.Gen.KernelIdeal.Skeleton
import proofs.«109398_j48576080118434_2_alg».proof.Proof.Gen.KernelIdeal.Points
import proofs.«109398_j48576080118434_2_alg».proof.Proof.R1Value
import proofs.«109398_j48576080118434_2_alg».proof.Proof.PayValue
import proofs.«109398_j48576080118434_2_alg».proof.Proof.BlockMath
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open GraphConv Cert.KernelIdeal.PayValue Idealize.ShloMosaic.ValueIdx
open scoped BigOperators

variable (V : (c : Dev nD) → (b : Ref sig .tc) → Buf (Elt Ideal) ((c : Thread nD τ).loc b))

/-! ## Where each window's block lies -/

/-- Point `t` is block row `t / 8`, block column `t % 8` of the adjacency matrix; -/
theorem idx_0 : ∀ t : Fin cfg1.N, win1_0.index t (0 : Fin 2) = t.val / 8 ∧ win1_0.index t (1 : Fin 2) = t.val % 8 :=
  (by decide +kernel : ∀ t : Fin grid1.N, win1_0.index t (0 : Fin 2) = t.val / 8 ∧ win1_0.index t (1 : Fin 2) = t.val % 8)
/-- block `t % 8` of the features; -/
theorem idx_1 : ∀ t : Fin cfg1.N, win1_1.index t (0 : Fin 2) = t.val % 8 ∧ win1_1.index t (1 : Fin 2) = 0 :=
  (by decide +kernel : ∀ t : Fin grid1.N, win1_1.index t (0 : Fin 2) = t.val % 8 ∧ win1_1.index t (1 : Fin 2) = 0)
/-- block `t % 8` of the factors, for the nodes summed over; -/
theorem idx_2 : ∀ t : Fin cfg1.N, win1_2.index t (0 : Fin 2) = t.val % 8 ∧ win1_2.index t (1 : Fin 2) = 0 :=
  (by decide +kernel : ∀ t : Fin grid1.N, win1_2.index t (0 : Fin 2) = t.val % 8 ∧ win1_2.index t (1 : Fin 2) = 0)
/-- block `t / 8` of the factors, for the rows written; -/
theorem idx_3 : ∀ t : Fin cfg1.N, win1_3.index t (0 : Fin 2) = t.val / 8 ∧ win1_3.index t (1 : Fin 2) = 0 :=
  (by decide +kernel : ∀ t : Fin grid1.N, win1_3.index t (0 : Fin 2) = t.val / 8 ∧ win1_3.index t (1 : Fin 2) = 0)
/-- the whole weights; -/
theorem idx_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
/-- the whole bias; -/
theorem idx_5 : ∀ t : Fin cfg1.N, win1_5.index t (0 : Fin 1) = 0 :=
  (by decide +kernel : ∀ t : Fin grid1.N, win1_5.index t (0 : Fin 1) = 0)
/-- and block `t / 8` of the output. -/
theorem idx_6 : ∀ t : Fin cfg1.N, win1_6.index t (0 : Fin 2) = t.val / 8 ∧ win1_6.index t (1 : Fin 2) = 0 :=
  (by decide +kernel : ∀ t : Fin grid1.N, win1_6.index t (0 : Fin 2) = t.val / 8 ∧ win1_6.index t (1 : Fin 2) = 0)

/-! ## The six input blocks at a point, entry by entry -/

/-- The adjacency block, -/
abbrev blk0 (c : Dev nD) (t : Fin cfg1.N) : Vec Ideal S2048x1024 .f32 := iblk V c 0 t
/-- the feature block, -/
abbrev blk1 (c : Dev nD) (t : Fin cfg1.N) : Vec Ideal S1024x128 .f32 := iblk V c 1 t
/-- the factors of the nodes summed over, -/
abbrev blk2 (c : Dev nD) (t : Fin cfg1.N) : Vec Ideal S1024x1 .f32 := iblk V c 2 t
/-- the factors of the rows written, -/
abbrev blk3 (c : Dev nD) (t : Fin cfg1.N) : Vec Ideal S2048x1 .f32 := iblk V c 3 t
/-- the weights, -/
abbrev blk4 (c : Dev nD) (t : Fin cfg1.N) : Vec Ideal S128x128 .f32 := iblk V c 4 t
/-- the bias. -/
abbrev blk5 (c : Dev nD) (t : Fin cfg1.N) : Vec Ideal S128 .f32 := iblk V c 5 t

theorem blk0_apply (c : Dev nD) (t : Fin cfg1.N) (r : Fin 2048) (k : Fin 1024) :
    blk0 V c t (ix2 r k) = at2 (V c main_arg0) (2048 * (t.val / 8) + r.val) (1024 * (t.val % 8) + k.val) := by
  have hN : t.val < 32 := lt_of_lt_of_eq t.isLt N_1
  obtain ⟨e0, e1⟩ := idx_0 t
  rw [at2_of_lt _ (by omega) (by omega)]
  unfold blk0 iblk
  rw [View.read_apply]
  show V c main_arg0 _ = V c main_arg0 _
  refine congrArg (V c main_arg0) ?_
  funext a; apply Fin.ext
  match a with
  | ⟨0, _⟩ => show win1_0.index t 0 * 2048 + 1 * r.val = 2048 * (t.val / 8) + r.val; rw [e0]; omega
  | ⟨1, _⟩ => show win1_0.index t 1 * 1024 + 1 * k.val = 1024 * (t.val % 8) + k.val; rw [e1]; omega

theorem blk1_apply (c : Dev nD) (t : Fin cfg1.N) (k : Fin 1024) (f : Fin 128) :
    blk1 V c t (ix2 k f) = atX (V c main_arg1) (1024 * (t.val % 8) + k.val) f := by
  have hN : t.val < 32 := lt_of_lt_of_eq t.isLt N_1
  obtain ⟨e0, e1⟩ := idx_1 t
  rw [atX_of_lt _ (by omega) f]
  unfold blk1 iblk
  rw [View.read_apply]
  show V c main_arg1 _ = V c main_arg1 _
  refine congrArg (V c main_arg1) ?_
  funext a; apply Fin.ext
  match a with
  | ⟨0, _⟩ => show win1_1.index t 0 * 1024 + 1 * k.val = 1024 * (t.val % 8) + k.val; rw [e0]; omega
  | ⟨1, _⟩ => show win1_1.index t 1 * 128 + 1 * f.val = f.val; rw [e1]; omega

theorem blk2_apply (c : Dev nD) (t : Fin cfg1.N) (k : Fin 1024) :
    blk2 V c t (ix2 k (0 : Fin 1)) = atD (V c main_v0) (1024 * (t.val % 8) + k.val) := by
  have hN : t.val < 32 := lt_of_lt_of_eq t.isLt N_1
  obtain ⟨e0, e1⟩ := idx_2 t
  rw [atD_of_lt _ (by omega)]
  unfold blk2 iblk
  rw [View.read_apply]
  show V c main_v0 _ = V c main_v0 _
  refine congrArg (V c main_v0) ?_
  funext a; apply Fin.ext
  match a with
  | ⟨0, _⟩ => show win1_2.index t 0 * 1024 + 1 * k.val = 1024 * (t.val % 8) + k.val; rw [e0]; omega
  | ⟨1, _⟩ => show win1_2.index t 1 * 1 + 1 * 0 = 0; rw [e1]

theorem blk3_apply (c : Dev nD) (t : Fin cfg1.N) (r : Fin 2048) :
    blk3 V c t (ix2 r (0 : Fin 1)) = atD (V c main_v0) (2048 * (t.val / 8) + r.val) := by
  have hN : t.val < 32 := lt_of_lt_of_eq t.isLt N_1
  obtain ⟨e0, e1⟩ := idx_3 t
  rw [atD_of_lt _ (by omega)]
  unfold blk3 iblk
  rw [View.read_apply]
  show V c main_v0 _ = V c main_v0 _
  refine congrArg (V c main_v0) ?_
  funext a; apply Fin.ext
  match a with
  | ⟨0, _⟩ => show win1_3.index t 0 * 2048 + 1 * r.val = 2048 * (t.val / 8) + r.val; rw [e0]; omega
  | ⟨1, _⟩ => show win1_3.index t 1 * 1 + 1 * 0 = 0; rw [e1]

theorem blk4_apply (c : Dev nD) (t : Fin cfg1.N) (f o : Fin 128) :
    blk4 V c t (ix2 f o) = V c main_arg2 (ix2 f o) := by
  obtain ⟨e0, e1⟩ := idx_4 t
  unfold blk4 iblk
  rw [View.read_apply]
  show V c main_arg2 _ = V c main_arg2 _
  refine congrArg (V c main_arg2) ?_
  funext a; apply Fin.ext
  match a with
  | ⟨0, _⟩ => show win1_4.index t 0 * 128 + 1 * f.val = f.val; rw [e0]; omega
  | ⟨1, _⟩ => show win1_4.index t 1 * 128 + 1 * o.val = o.val; rw [e1]; omega

theorem blk5_apply (c : Dev nD) (t : Fin cfg1.N) (o : Fin 128) :
    blk5 V c t (ix1 o) = V c main_arg3 (ix1 o) := by
  have e0 := idx_5 t
  unfold blk5 iblk
  rw [View.read_apply]
  show V c main_arg3 _ = V c main_arg3 _
  refine congrArg (V c main_arg3) ?_
  funext a; apply Fin.ext
  match a with
  | ⟨0, _⟩ => show win1_5.index t 0 * 128 + 1 * o.val = o.val; rw [e0]; omega

/-! ## What each case leaves, entry by entry, over any blocks -/

/-- A first block column leaves the block product added to zero. -/
theorem sA_apply (c : Dev nD) (t : Fin cfg1.N) (h1 : t.val % 8 = 0) (x0 : Vec Ideal S2048x1024 .f32) (x1 : Vec Ideal S1024x128 .f32) (x2 : Vec Ideal S1024x1 .f32) (x3 : Vec Ideal S2048x1 .f32) (x4 : Vec Ideal S128x128 .f32) (x5 : Vec Ideal S128 .f32) (r : Fin 2048) (f : Fin 128) :
    soutA c t h1 x0 x1 x2 x3 x4 x5 (ix2 r f)
      = 0 + ∑ k : Fin 1024, x0 (ix2 r k) * (x1 (ix2 k f) * x2 (ix2 k (0 : Fin 1))) := by
  rw [soutA_eq, pay1_2_apply, pay1_1_apply]

/-- A middle block column adds the block product to what the scratch held. -/
theorem sB_apply (c : Dev nD) (t : Fin cfg1.N) (h1 : ¬t.val % 8 = 0) (h2 : ¬t.val % 8 = 7) (x0 : Vec Ideal S2048x1024 .f32) (x1 : Vec Ideal S1024x128 .f32) (x2 : Vec Ideal S1024x1 .f32) (x3 : Vec Ideal S2048x1 .f32) (x4 : Vec Ideal S128x128 .f32) (x5 : Vec Ideal S128 .f32) (xs : Vec Ideal S2048x128 .f32)
    (r : Fin 2048) (f : Fin 128) :
    soutB c t h1 h2 x0 x1 x2 x3 x4 x5 xs (ix2 r f)
      = xs (ix2 r f) + ∑ k : Fin 1024, x0 (ix2 r k) * (x1 (ix2 k f) * x2 (ix2 k (0 : Fin 1))) := by
  rw [soutB_eq, pay1_2_apply]

/-- So does a last block column, -/
theorem sC_apply (c : Dev nD) (t : Fin cfg1.N) (h1 : ¬t.val % 8 = 0) (h2 : t.val % 8 = 7) (x0 : Vec Ideal S2048x1024 .f32) (x1 : Vec Ideal S1024x128 .f32) (x2 : Vec Ideal S1024x1 .f32) (x3 : Vec Ideal S2048x1 .f32) (x4 : Vec Ideal S128x128 .f32) (x5 : Vec Ideal S128 .f32) (xs : Vec Ideal S2048x128 .f32)
    (r : Fin 2048) (f : Fin 128) :
    soutC c t h1 h2 x0 x1 x2 x3 x4 x5 xs (ix2 r f)
      = xs (ix2 r f) + ∑ k : Fin 1024, x0 (ix2 r k) * (x1 (ix2 k f) * x2 (ix2 k (0 : Fin 1))) := by
  rw [soutC_eq, pay1_2_apply]

/-- and its output block is the dense layer of the scratch it leaves. -/
theorem oC_apply (c : Dev nD) (t : Fin cfg1.N) (h1 : ¬t.val % 8 = 0) (h2 : t.val % 8 = 7) (x0 : Vec Ideal S2048x1024 .f32) (x1 : Vec Ideal S1024x128 .f32) (x2 : Vec Ideal S1024x1 .f32) (x3 : Vec Ideal S2048x1 .f32) (x4 : Vec Ideal S128x128 .f32) (x5 : Vec Ideal S128 .f32) (xs : Vec Ideal S2048x128 .f32)
    (r : Fin 2048) (o : Fin 128) :
    outC c t h1 h2 x0 x1 x2 x3 x4 x5 xs (ix2 r o)
      = max ((∑ f : Fin 128, (soutC c t h1 h2 x0 x1 x2 x3 x4 x5 xs (ix2 r f) * x3 (ix2 r (0 : Fin 1))) * x4 (ix2 f o))
          + x5 (ix1 o)) 0 := by
  rw [outC_eq, soutC_eq, pay1_3_apply]

/-! ## The components of one point's step, over the named blocks -/

theorem step2_A (c : Dev nD) (t : Fin cfg1.N) (prev : Vec Ideal S2048x128 .f32) (h1 : t.val % 8 = 0) :
    (step V c t prev).2 = soutA c t h1 (blk0 V c t) (blk1 V c t) (blk2 V c t) (blk3 V c t) (blk4 V c t) (blk5 V c t) := by
  rw [step_A V c t prev h1]
theorem step2_B (c : Dev nD) (t : Fin cfg1.N) (prev : Vec Ideal S2048x128 .f32) (h1 : ¬t.val % 8 = 0) (h2 : ¬t.val % 8 = 7) :
    (step V c t prev).2 = soutB c t h1 h2 (blk0 V c t) (blk1 V c t) (blk2 V c t) (blk3 V c t) (blk4 V c t) (blk5 V c t) prev := by
  rw [step_B V c t prev h1 h2]
theorem step2_C (c : Dev nD) (t : Fin cfg1.N) (prev : Vec Ideal S2048x128 .f32) (h1 : ¬t.val % 8 = 0) (h2 : t.val % 8 = 7) :
    (step V c t prev).2 = soutC c t h1 h2 (blk0 V c t) (blk1 V c t) (blk2 V c t) (blk3 V c t) (blk4 V c t) (blk5 V c t) prev := by
  rw [step_C V c t prev h1 h2]
theorem step1_C (c : Dev nD) (t : Fin cfg1.N) (prev : Vec Ideal S2048x128 .f32) (h1 : ¬t.val % 8 = 0) (h2 : t.val % 8 = 7) :
    (step V c t prev).1 = outC c t h1 h2 (blk0 V c t) (blk1 V c t) (blk2 V c t) (blk3 V c t) (blk4 V c t) (blk5 V c t) prev := by
  rw [step_C V c t prev h1 h2]

/-- One point's scratch: the block product added to zero at a first block column, to the previous scratch else. -/
theorem step_scratch (c : Dev nD) (t : Fin cfg1.N) (prev : Vec Ideal S2048x128 .f32) (r : Fin 2048) (f : Fin 128) :
    (step V c t prev).2 (ix2 r f)
      = (if t.val % 8 = 0 then 0 else prev (ix2 r f))
        + ∑ k : Fin 1024, at2 (V c main_arg0) (2048 * (t.val / 8) + r.val) (1024 * (t.val % 8) + k.val)
            * (atX (V c main_arg1) (1024 * (t.val % 8) + k.val) f * atD (V c main_v0) (1024 * (t.val % 8) + k.val)) := by
  by_cases h1 : t.val % 8 = 0
  · rw [if_pos h1, step2_A V c t prev h1, sA_apply]
    simp only [blk0_apply, blk1_apply, blk2_apply]
  · rw [if_neg h1]
    by_cases h2 : t.val % 8 = 7
    · rw [step2_C V c t prev h1 h2, sC_apply]
      simp only [blk0_apply, blk1_apply, blk2_apply]
    · rw [step2_B V c t prev h1 h2, sB_apply]
      simp only [blk0_apply, blk1_apply, blk2_apply]

/-- At a last block column the output block is the dense layer of the scratch. -/
theorem step_out (c : Dev nD) (t : Fin cfg1.N) (prev : Vec Ideal S2048x128 .f32) (h2 : t.val % 8 = 7) (r : Fin 2048) (o : Fin 128) :
    (step V c t prev).1 (ix2 r o)
      = max ((∑ f : Fin 128, ((step V c t prev).2 (ix2 r f) * atD (V c main_v0) (2048 * (t.val / 8) + r.val))
              * V c main_arg2 (ix2 f o)) + V c main_arg3 (ix1 o)) 0 := by
  have h1 : ¬t.val % 8 = 0 := by omega
  rw [step1_C V c t prev h1 h2, step2_C V c t prev h1 h2, oC_apply]
  simp only [blk3_apply, blk4_apply, blk5_apply]

/-- THE SCRATCH after point `n`: the first `n % 8 + 1` blocks of the sum. -/
theorem scratch_eq (c : Dev nD) : ∀ (n : ℕ) (h : n < cfg1.N) (r : Fin 2048) (f : Fin 128),
    (outsAt V c n h).2 (ix2 r f)
      = ∑ j ∈ Finset.range (n % 8 + 1), ∑ k : Fin 1024,
          at2 (V c main_arg0) (2048 * (n / 8) + r.val) (1024 * j + k.val)
            * (atX (V c main_arg1) (1024 * j + k.val) f * atD (V c main_v0) (1024 * j + k.val))
  | 0, h, r, f => by
    rw [show outsAt V c 0 h = step V c ⟨0, h⟩ unread from rfl, step_scratch]
    simp
  | n + 1, h, r, f => by
    rw [show outsAt V c (n + 1) h = step V c ⟨n + 1, h⟩ (outsAt V c n (Nat.lt_of_succ_lt h)).2 from rfl, step_scratch]
    show (if (n + 1) % 8 = 0 then 0 else (outsAt V c n _).2 (ix2 r f))
        + ∑ k : Fin 1024, at2 (V c main_arg0) (2048 * ((n + 1) / 8) + r.val) (1024 * ((n + 1) % 8) + k.val)
            * (atX (V c main_arg1) (1024 * ((n + 1) % 8) + k.val) f * atD (V c main_v0) (1024 * ((n + 1) % 8) + k.val)) = _
    by_cases h1 : (n + 1) % 8 = 0
    · rw [if_pos h1, h1]; simp
    · rw [if_neg h1, scratch_eq c n (Nat.lt_of_succ_lt h) r f]
      have e1 : (n + 1) % 8 = n % 8 + 1 := by omega
      have e2 : (n + 1) / 8 = n / 8 := by omega
      rw [e1, e2, Finset.sum_range_succ (fun j => ∑ k : Fin 1024,
          at2 (V c main_arg0) (2048 * (n / 8) + r.val) (1024 * j + k.val)
            * (atX (V c main_arg1) (1024 * j + k.val) f * atD (V c main_v0) (1024 * j + k.val))) (n % 8 + 1)]

/-! ## The array the kernel writes -/

/-- The dense layer of the aggregation over the column of factors the kernel was given. -/
abbrev resSpec (c : Dev nD) : Buf (Elt Ideal) ((c : Thread nD τ).loc main_v1) :=
  fun j => layer (aggD (V c main_arg0) (V c main_arg1) (V c main_v0)) (V c main_arg2) (V c main_arg3) (j 0) (j 1)

theorem resSpec_eq (c : Dev nD) :
    resSpec V c = out (aggD (V c main_arg0) (V c main_arg1) (V c main_v0)) (V c main_arg2) (V c main_arg3) := rfl

theorem mem_blk (t : Fin cfg1.N) (i : S8192x128.Idx) :
    i ∈ ((cfg1.win 6).blk t).view.set ↔ ∀ a : Fin 2, win1_6.index t a * S2048x128.size a ≤ (i a).val ∧ (i a).val < win1_6.index t a * S2048x128.size a + S2048x128.size a := by
  show i ∈ ((View.whole main_v1).slice (win1_6.rect t)).set ↔ _
  rw [View.set_slice_whole, Rect.mem_set_unit]
  exact Iff.rfl

/-- What a last block column writes back is its block of the layer. -/
theorem flushed_eq (c : Dev nD) (t : Fin cfg1.N) (hf : (cfg1.win 6).flush t = true) :
    (dat1 V c).flushed 6 t = ((cfg1.win 6).blk t).view.read (Elt Ideal) (resSpec V c) := by
  have h7 : t.val % 8 = 7 := (flush1_6 t).mp hf
  have hN : t.val < 32 := lt_of_lt_of_eq t.isLt N_1
  obtain ⟨e0, e1⟩ := idx_6 t
  show (cfg1.win 6).cut (grid1.coords t) ((dat1 V c).after 6 t) = _
  rw [after_6]
  funext y
  rw [View.read_apply]
  obtain ⟨r, o, rfl⟩ : ∃ (r : Fin 2048) (o : Fin 128), y = ix2 r o := ⟨y 0, y 1, eq_ix2 y⟩
  show (outsAt V c t.val t.isLt).1 (ix2 r o)
    = layer (aggD (V c main_arg0) (V c main_arg1) (V c main_v0)) (V c main_arg2) (V c main_arg3)
        ((((cfg1.win 6).blk t).view.emb (ix2 r o)) 0) ((((cfg1.win 6).blk t).view.emb (ix2 r o)) 1)
  have hi0 : (((cfg1.win 6).blk t).view.emb (ix2 r o)) 0 = (⟨2048 * (t.val / 8) + r.val, by omega⟩ : Fin 8192) := by
    apply Fin.ext
    show win1_6.index t 0 * 2048 + 1 * r.val = 2048 * (t.val / 8) + r.val
    rw [e0]; omega
  have hi1 : (((cfg1.win 6).blk t).view.emb (ix2 r o)) 1 = o := by
    apply Fin.ext
    show win1_6.index t 1 * 128 + 1 * o.val = o.val
    rw [e1]; omega
  rw [hi0, hi1]
  have hz : t.val ≠ 0 := by omega
  rw [outsAt_pos V c t hz, step_out V c t _ h7]
  unfold layer aggD
  refine congrArg (fun s => max (s + V c main_arg3 (ix1 o)) 0) (Finset.sum_congr rfl fun f _ => ?_)
  have h := scratch_eq V c t.val t.isLt r f
  rw [h7, outsAt_pos V c t hz] at h
  rw [h, atD_of_lt _ (by omega),
    agg_blocks (V c main_arg0) (V c main_arg1) (V c main_v0) ⟨2048 * (t.val / 8) + r.val, by omega⟩ f]

/-- THE ARRAY after the aggregation kernel. -/
theorem final (c : Dev nD) : (dat1 V c).arrAt 6 cfg1.N = resSpec V c :=
  (dat1 V c).arrAt_eq_of_cover 6 (resSpec V c) (flushed_eq V c) fun i => by
    have hi0 : (i 0).val < 8192 := (i 0).isLt
    have hi1 : (i 1).val < 128 := (i 1).isLt
    have hN : cfg1.N = 32 := N_1
    let t : Fin cfg1.N := ⟨8 * ((i 0).val / 2048) + 7, by rw [hN]; omega⟩
    obtain ⟨e0, e1⟩ := idx_6 t
    have ht : t.val = 8 * ((i 0).val / 2048) + 7 := rfl
    refine ⟨t, (flush1_6 t).mpr (by rw [ht]; omega), ?_⟩
    rw [mem_blk]
    intro a
    match a with
    | ⟨0, _⟩ => show win1_6.index t 0 * 2048 ≤ (i 0).val ∧ (i 0).val < win1_6.index t 0 * 2048 + 2048; rw [e0, ht]; omega
    | ⟨1, _⟩ => show win1_6.index t 1 * 128 ≤ (i 1).val ∧ (i 1).val < win1_6.index t 1 * 128 + 128; rw [e1]; omega

/-- The same, with the layer written as the specification's array. -/
theorem final_out (c : Dev nD) :
    (dat1 V c).arrAt 6 cfg1.N = out (aggD (V c main_arg0) (V c main_arg1) (V c main_v0)) (V c main_arg2) (V c main_arg3) :=
  final V c

end Cert.KernelIdeal.R1

end
-- ==== Proof.KernelValue.lean ====
/-
  The result of the whole program at the exact instance: the graph-convolution layer of its four arguments, with the
  aggregation in the arrangement the kernels compute it (features scaled first, the row sum scaled last) and the
  normalising factors the reciprocal square roots of the degrees.

  The aggregation kernel leaves the layer over WHATEVER column of factors it found in the buffer between the kernels;
  the degree kernel left there the reciprocal square roots of the degrees of the launch's adjacency matrix; and no
  argument changes in between.
-/
import proofs.«109398_j48576080118434_2_alg».proof.Proof.Gen.KernelIdeal.Launch
import proofs.«109398_j48576080118434_2_alg».proof.Proof.Gen.KernelIdeal.Skeleton
import proofs.«109398_j48576080118434_2_alg».proof.Proof.Gen.KernelIdeal.Points
import proofs.«109398_j48576080118434_2_alg».proof.Proof.Frames
import proofs.«109398_j48576080118434_2_alg».proof.Proof.R0Closed
import proofs.«109398_j48576080118434_2_alg».proof.Proof.R1Closed
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-- The result array after the run is the layer of the launch's arguments. -/
theorem res_eq (c : Dev nD) :
    res m ρ c = GraphConv.out (GraphConv.aggK (m ((c.tc : Thread nD τ).loc main_arg0)) (m ((c.tc : Thread nD τ).loc main_arg1)))
      (m ((c.tc : Thread nD τ).loc main_arg2)) (m ((c.tc : Thread nD τ).loc main_arg3)) := by
  have e0 : V1 m ρ c main_arg0 = m ((c.tc : Thread nD τ).loc main_arg0) := (W1_of_ne m ρ c main_arg0 (by decide)).trans rfl
  have e1 : V1 m ρ c main_arg1 = m ((c.tc : Thread nD τ).loc main_arg1) := (W1_of_ne m ρ c main_arg1 (by decide)).trans rfl
  have e2 : V1 m ρ c main_arg2 = m ((c.tc : Thread nD τ).loc main_arg2) := (W1_of_ne m ρ c main_arg2 (by decide)).trans rfl
  have e3 : V1 m ρ c main_arg3 = m ((c.tc : Thread nD τ).loc main_arg3) := (W1_of_ne m ρ c main_arg3 (by decide)).trans rfl
  have ed : V1 m ρ c main_v0 = (fun j => GraphConv.dK (m ((c.tc : Thread nD τ).loc main_arg0)) (j 0)) :=
    (W1_v0 m ρ c).trans (R0.final (V0 m ρ) c)
  unfold res
  rw [R1.final_out (V1 m ρ) c, e0, e1, e2, e3, ed]
  rfl

/-- THE KERNEL'S RUN, READ: the result array at the layer of the arguments, the arguments unchanged. -/
theorem run_value : θ_run defs (onTc (τ := τ) (main (F := Ideal))) ⟨m, fun _ => 0, ρ⟩ (fun r => ∀ c : Dev nD,
      r.2.mem ((c.tc : Thread nD τ).loc main_v1)
        = GraphConv.out (GraphConv.aggK (m ((c.tc : Thread nD τ).loc main_arg0)) (m ((c.tc : Thread nD τ).loc main_arg1)))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (res_eq m ρ c), (h c).2⟩) (run_res m ρ)

end Cert.KernelIdeal.Whole

end
-- ==== Proof.RefValue.lean ====
/-
  The reference's result, read at an index, is the layer over the aggregation through the normalised adjacency matrix.

  The reference computes the degrees by a sum along the rows from the initial value zero, takes the quotient of one
  by their square roots, scales entry `(i, k)` of the adjacency matrix by the factor of row `i` (broadcast along
  the columns) and by the factor of row `k` (broadcast along the rows), multiplies the scaled matrix with the
  features and the result with the weights, adds the bias (broadcast along the rows) and takes the maximum with
  zero. Read at the index `(p, q)`, every broadcast reads its operand at the coordinate it keeps, every matrix
  product is a sum over the contracted coordinate, and the two constants are zero and one: that is the
  specification's layer over `aggR`, term by term.
-/
import proofs.«109398_j48576080118434_2_alg».proof.Proof.Gen.ReferenceIdeal.Read
import proofs.«109398_j48576080118434_2_alg».proof.Proof.Spec
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx
open scoped BigOperators

/-! ## The composed index functions at coordinates -/

private theorem idx_v0 (i k : Fin 8192) : idx_main_v0 (ix1 i) k = ix2 i k :=
  funext fun a => by match a with | ⟨0, _⟩ => rfl | ⟨1, _⟩ => rfl

private theorem idx_v4_v5 (i k : Fin 8192) : idx_main_v4 (idx_main_v5 (ix2 i k)) = ix1 i :=
  funext fun a => by match a with | ⟨0, _⟩ => rfl

private theorem idx_v7_v8 (i k : Fin 8192) : idx_main_v7 (idx_main_v8 (ix2 i k)) = ix1 k :=
  funext fun a => by match a with | ⟨0, _⟩ => rfl

private theorem lidx_v10 (i : Fin 8192) (f : Fin 128) (k : Fin 8192) : lidx_main_v10 (ix2 i f) k = ix2 i k :=
  funext fun a => by match a with | ⟨0, _⟩ => rfl | ⟨1, _⟩ => rfl

private theorem ridx_v10 (i : Fin 8192) (f : Fin 128) (k : Fin 8192) : ridx_main_v10 (ix2 i f) k = ix2 k f :=
  funext fun a => by match a with | ⟨0, _⟩ => rfl | ⟨1, _⟩ => rfl

private theorem lidx_v11 (p : Fin 8192) (q : Fin 128) (f : Fin 128) : lidx_main_v11 (ix2 p q) f = ix2 p f :=
  funext fun a => by match a with | ⟨0, _⟩ => rfl | ⟨1, _⟩ => rfl

private theorem ridx_v11 (p : Fin 8192) (q : Fin 128) (f : Fin 128) : ridx_main_v11 (ix2 p q) f = ix2 f q :=
  funext fun a => by match a with | ⟨0, _⟩ => rfl | ⟨1, _⟩ => rfl

private theorem idx_v12_v13 (p : Fin 8192) (q : Fin 128) : idx_main_v12 (idx_main_v13 (ix2 p q)) = ix1 q :=
  funext fun a => by match a with | ⟨0, _⟩ => rfl

/-! ## The stages at coordinates -/

/-- The reference's normalising factor of node `i` is one over the square root of its degree. -/
theorem factor_eq (A : FVec Ideal S8192x8192 .f32) (i : Fin 8192) :
    val_main_v3 (F := Ideal) A (ix1 i) = GraphConv.dR A i := by
  rw [val_main_v3_apply, val_main_v2_apply, val_main_cst_0_apply, val_main_v1_apply, val_main_v0_apply,
    val_main_cst_apply]
  simp only [idx_v0, Ideal.hostDivf_def, Ideal.hostUnary_sqrt_def, Ideal.ofBits_def, Ideal.ofBits_one_f32,
    Ideal.ofBits_zero_f32, zero_add]
  rfl

/-- The scaled adjacency matrix at `(i, k)`: the entry times the factors of rows `i` and `k`. -/
theorem scaled_eq (A : FVec Ideal S8192x8192 .f32) (i k : Fin 8192) :
    val_main_v9 (F := Ideal) A (ix2 i k) = (A (ix2 i k) * GraphConv.dR A i) * GraphConv.dR A k := by
  rw [val_main_v9_apply, val_main_v6_apply, val_main_v5_apply, val_main_v4_apply, val_main_v8_apply,
    val_main_v7_apply, idx_v4_v5, idx_v7_v8, factor_eq, factor_eq]
  rfl

/-- The first product at `(i, f)` is the aggregation through the normalised adjacency matrix. -/
theorem agg_eq (A : FVec Ideal S8192x8192 .f32) (X : FVec Ideal S8192x128 .f32) (i : Fin 8192) (f : Fin 128) :
    val_main_v10 (F := Ideal) A X (ix2 i f) = GraphConv.aggR A X i f := by
  rw [val_main_v10_apply]
  unfold GraphConv.aggR
  refine Finset.sum_congr rfl fun k _ => ?_
  rw [lidx_v10, ridx_v10, scaled_eq]

/-- The reference's last stage is the specification's layer over `aggR`. -/
theorem val_eq (A : FVec Ideal S8192x8192 .f32) (X : FVec Ideal S8192x128 .f32) (W : FVec Ideal S128x128 .f32)
    (b : FVec Ideal S128 .f32) :
    val_main_v15 (F := Ideal) A X W b = GraphConv.out (GraphConv.aggR A X) W b := by
  funext j
  obtain ⟨p, q, rfl⟩ : ∃ (p : Fin 8192) (q : Fin 128), j = ix2 p q := ⟨j 0, j 1, eq_ix2 j⟩
  rw [val_main_v15_apply, val_main_v14_apply, val_main_v11_apply, val_main_v13_apply, val_main_v12_apply,
    val_main_call0_v0_apply, val_main_call0_cst_apply, idx_v12_v13]
  show _ = GraphConv.layer (GraphConv.aggR A X) W b p q
  unfold GraphConv.layer
  simp only [Ideal.maximumf_def, Ideal.addf_def, Ideal.ofBits_def, Ideal.ofBits_zero_f32]
  refine congrArg (fun s => max (s + b (ix1 q)) 0) (Finset.sum_congr rfl fun f _ => ?_)
  rw [lidx_v11, ridx_v11, agg_eq]

/-- The term the reference's run leaves in its result array is the specification's layer over `aggR`. -/
theorem result_eq (A : FVec Ideal S8192x8192 .f32) (X : FVec Ideal S8192x128 .f32) (W : FVec Ideal S128x128 .f32)
    (b : FVec Ideal S128 .f32) :
    maximumf (addf (Host.dotGeneral dot_S8192x128_S128x128_S8192x128_1_0_0_1_n_n none (Host.dotGeneral dot_S8192x8192_S8192x128_S8192x128_1_0_0_1_n_n none (mulf (mulf A (broadcastInDim S8192x8192 ![0, 1] bcast_S8192x1_S8192x8192_0_1 (broadcastInDim S8192x1 ![0] bcast_S8192_S8192x1_0 (Host.divf (broadcastInDim S8192 ![] bcast_S_S8192 (constant S_ .f32 0x3F800000#32)) (Host.sqrt (Host.reduceAdd A (constant S_ .f32 0x00000000#32) reducesTo_S8192x8192_S8192_d1 h_S_)))))) (broadcastInDim S8192x8192 ![0, 1] bcast_S1x8192_S8192x8192_0_1 (broadcastInDim S1x8192 ![1] bcast_S8192_S1x8192_1 (Host.divf (broadcastInDim S8192 ![] bcast_S_S8192 (constant S_ .f32 0x3F800000#32)) (Host.sqrt (Host.reduceAdd A (constant S_ .f32 0x00000000#32) reducesTo_S8192x8192_S8192_d1 h_S_)))))) X) W) (broadcastInDim S8192x128 ![0, 1] bcast_S1x128_S8192x128_0_1 (broadcastInDim S1x128 ![1] bcast_S128_S1x128_1 b))) (broadcastInDim S8192x128 ![] bcast_S_S8192x128 (constant S_ .f32 0x00000000#32))
      = GraphConv.out (GraphConv.aggR A X) W b :=
  (val_main_v15_eq (F := Ideal) A X W b).trans (val_eq A X W b)

end Cert.ReferenceIdeal.RefValue

end
-- ==== Proof.SpecLaw.lean ====
/-
  The two arrangements of the normalised aggregation agree when every entry is a real number and every degree
  is positive.

  Under those hypotheses the degree of node `i` is the coercion of a positive real `σ i`, so the reciprocal
  square root taken as one operation and the quotient of one by the square root are both the coercion of the
  real `(√(σ i))⁻¹`. Every factor in both aggregations is then the coercion of a real, products and finite sums
  of coercions are coercions of products and sums, and what remains is an identity of finite real sums: a sum may
  be multiplied through term by term, and the factors of each term commute.
-/
import proofs.«109398_j48576080118434_2_alg».proof.Proof.Spec

noncomputable section

namespace GraphConv

open Idealize.ShloMosaic Idealize.ShloMosaic.ValueIdx
open scoped BigOperators

/-- The coercion of a finite real sum is the sum of the coercions. -/
private theorem coe_sum {ι : Type} (s : Finset ι) (g : ι → ℝ) :
    ((∑ k ∈ s, g k : ℝ) : EReal) = ∑ k ∈ s, (g k : EReal) := by
  classical
  induction s using Finset.induction_on with
  | empty => simp
  | insert c s hc ih => rw [Finset.sum_insert hc, Finset.sum_insert hc, EReal.coe_add, ih]

/-- The law on the reals, over any finite index type: scaling the summed terms by `e` afterwards is scaling each
    term, and the factors of a term may be reordered. -/
private theorem real_law {ι : Type} [Fintype ι] (a x d : ι → ℝ) (e : ℝ) :
    (∑ k, a k * (x k * d k)) * e = ∑ k, ((a k * e) * d k) * x k := by
  rw [Finset.sum_mul]
  exact Finset.sum_congr rfl (fun k _ => by ring)

/-- With real entries and positive degrees the two arrangements of the aggregation agree. -/
theorem agg_eq (A : SA.Idx → EReal) (X : SX.Idx → EReal)
    (hA : ∀ j : SA.Idx, ∃ a : ℝ, A j = (a : EReal)) (hX : ∀ j : SX.Idx, ∃ x : ℝ, X j = (x : EReal))
    (hpos : ∀ i : Fin 8192, 0 < rowSum A i) (i : Fin 8192) (f : Fin 128) : aggK A X i f = aggR A X i f := by
  choose a ha using hA
  choose x hx using hX
  -- the degree is the coercion of a real sum, and that real is positive
  have hs : ∀ i, rowSum A i = ((∑ k : Fin 8192, a (ix2 i k) : ℝ) : EReal) := by
    intro i
    unfold rowSum
    rw [coe_sum]
    exact Finset.sum_congr rfl (fun k _ => ha _)
  have hσ : ∀ i, 0 < ∑ k : Fin 8192, a (ix2 i k) := by
    intro i
    have h := hpos i
    rw [hs i] at h
    exact_mod_cast h
  -- both readings of the normalising factor are the coercion of the same real
  have hdK : ∀ i, dK A i = (((Real.sqrt (∑ k : Fin 8192, a (ix2 i k)))⁻¹ : ℝ) : EReal) := by
    intro i
    unfold dK
    rw [hs i, Ideal.rsqrt_coe, if_neg (not_lt.mpr (hσ i).le), if_neg (hσ i).ne']
  have hdR : ∀ i, dR A i = (((Real.sqrt (∑ k : Fin 8192, a (ix2 i k)))⁻¹ : ℝ) : EReal) := by
    intro i
    unfold dR
    rw [hs i, Ideal.sqrt_coe, if_neg (not_lt.mpr (hσ i).le),
      Ideal.div_coe (Real.sqrt_ne_zero'.mpr (hσ i)), one_mul, one_div]
  unfold aggK aggR
  simp only [hdK, hdR, ha, hx, ← EReal.coe_mul, ← coe_sum]
  rw [real_law]

/-- Hence the whole layer is the same over either arrangement. -/
theorem out_eq (A : SA.Idx → EReal) (X : SX.Idx → EReal)
    (hA : ∀ j : SA.Idx, ∃ a : ℝ, A j = (a : EReal)) (hX : ∀ j : SX.Idx, ∃ x : ℝ, X j = (x : EReal))
    (hpos : ∀ i : Fin 8192, 0 < rowSum A i) (W : SW.Idx → EReal) (b : Sb.Idx → EReal) :
    out (aggK A X) W b = out (aggR A X) W b := by
  have h : aggK A X = aggR A X := funext fun i => funext fun f => agg_eq A X hA hX hpos i f
  rw [h]

end GraphConv

end
-- ==== Proof.PreFacts.lean ====
/-
  What the printed precondition says of the four arrays, read back at the extended reals.

  The precondition is a conjunction of five reductions by `and`: for each array, that every entry's absolute
  value is below `+∞`; and that every row sum of the adjacency matrix is above zero. An entry of an
  extended-real array whose absolute value `max x (-x)` is below `+∞` is neither infinity, hence the coercion
  of a real number. The row sum the precondition compares is the host's sum over the second axis from the initial
  value zero, which at the extended reals is zero plus the sum of the row's entries: the degree of the
  specification.
-/
import proofs.«109398_j48576080118434_2_alg».proof.Pre_finite_inputs
import proofs.«109398_j48576080118434_2_alg».proof.Proof.Gen.Pre_finite_inputs
import proofs.«109398_j48576080118434_2_alg».proof.Proof.Spec
import Idealize.ShloMosaic.Lib.ReduceAll
import Idealize.ShloMosaic.Lib.IdealHost

noncomputable section

namespace GraphConv

open Idealize.ShloMosaic Idealize.ShloMosaic.ValueIdx
open scoped BigOperators

/-- The scalar shape has one index. -/
private instance : Subsingleton Cert.Pre_finite_inputs.S_.Idx := ⟨fun a b => funext fun d => d.elim0⟩

/-- A one-bit word made from a Boolean is one exactly when the Boolean is true. -/
private theorem ofBool_eq_one {b : Bool} : BitVec.ofBool b = 1#1 ↔ b = true := by cases b <;> decide

/-- The pattern of the positive infinity denotes `⊤`. -/
private theorem ofBits_inf : Ideal.ofBits .f32 0x7F800000#32 = ⊤ := by simp [Ideal.ofBits, Ideal.ieee]

/-- An extended real whose absolute value is strictly below `+∞` is a real number. -/
private theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- `jnp.all (|x| < inf)` over a whole array, read back: every entry is a real number. -/
private theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) :
    ∀ j : s.Idx, ∃ r : ℝ, x j = (r : EReal) := by
  intro j
  exact real_of_abs_lt (x j) (Host.reduce_andi_all _ _ hr hu ix0 h j)

/-- The printed precondition holding (all ones) gives: every entry of the adjacency matrix and of the features is a
    real number, and every degree is positive. -/
theorem facts_of_pre [Cert.Pre_finite_inputs.Facts]
    (A : FVec Ideal Cert.Pre_finite_inputs.S8192x8192 .f32) (X : FVec Ideal Cert.Pre_finite_inputs.S8192x128 .f32)
    (W : FVec Ideal Cert.Pre_finite_inputs.S128x128 .f32) (b : FVec Ideal Cert.Pre_finite_inputs.S128 .f32)
    (h : Cert.Pre_finite_inputs.fn (F := Ideal) A X W b = fun _ => 1#1) :
    (∀ j, ∃ a : ℝ, A j = (a : EReal)) ∧ (∀ j, ∃ x : ℝ, X j = (x : EReal)) ∧
      (∀ i : Fin 8192, 0 < GraphConv.rowSum A i) := by
  have h0 := congrFun h ValueIdx.ix0
  dsimp only [Cert.Pre_finite_inputs.fn, Cert.Pre_finite_inputs.fn_part1] at h0
  obtain ⟨h1234, h5⟩ := IntOp.andi_eq_one.1 h0
  obtain ⟨h123, _⟩ := IntOp.andi_eq_one.1 h1234
  obtain ⟨h12, _⟩ := IntOp.andi_eq_one.1 h123
  obtain ⟨h1, h2⟩ := IntOp.andi_eq_one.1 h12
  refine ⟨all_real A _ _ _ h1, all_real X _ _ _ h2, fun i => ?_⟩
  have e := Host.reduce_andi_all _ _ _ _ ix0 h5 (ix1 i)
  have hR : Cert.Pre_finite_inputs.S8192x8192.Reduces [1] Cert.Pre_finite_inputs.S8192 := by decide
  change Ideal.cmp .ogt
      (Ideal.hostReduceAdd Cert.Pre_finite_inputs.Facts.reducesTo_S8192x8192_S8192_d1 A
        (Ideal.ofBits .f32 0x00000000#32) (ix1 i))
      (Ideal.ofBits .f32 0x00000000#32) = 1#1 at e
  rw [Ideal.hostReduceAdd_single _ hR, Ideal.ofBits_zero_f32, zero_add] at e
  have e' : (0 : EReal) < ∑ k, A (hR.lift (ix1 i) k) := by
    unfold Ideal.cmp at e
    exact of_decide_eq_true (ofBool_eq_one.1 e)
  unfold rowSum
  refine lt_of_lt_of_eq e' (Finset.sum_congr rfl fun k _ => congrArg A (funext fun c => ?_))
  match c with
  | ⟨0, _⟩ => rfl
  | ⟨1, _⟩ => rfl

end GraphConv

end
-- ==== Proof.lean ====
/-
  The certificate of a graph-convolution layer: a pair of kernels — one computing the reciprocal square roots of the
  degrees (row sums of the adjacency matrix) block by block, one aggregating the features, scaled by those factors,
  against the adjacency matrix block by block and applying the dense layer — against the plain formula
  `relu ((D A D X) W + b)`, `D = diag (1 / sqrt (degree))`.

  Claimed, under the precondition that every input is finite and every degree is positive (where the formula's own
  `1 / sqrt` is defined):
  * each of the three programs runs to the end on every weakly fair schedule, faults nowhere and leaves its four
    argument arrays as launched: the kernels' by the run of their two pipelines (each kernel's accumulator followed
    point by point over its grid), the formula's by its straight line of operations;
  * the idealized kernel is the kernel's own text (no rewrite was applied);
  * on the extended reals the idealized kernel and the formula end with the same result. The kernels compute
    `((Σ_k A i k · (X k f · d k)) · d i)` with the sums taken in blocks; the formula computes
    `Σ_k ((A i k · d i) · d k) · X k f`; with every entry a real number and every degree positive, `d` is a positive
    real in both readings and the two are equal by distributing the product over the finite sum. The rest of the layer
    (the product with `W`, the bias, the cut at zero) is the same function on both sides.
-/
import proofs.«109398_j48576080118434_2_alg».proof.Defs
import proofs.«109398_j48576080118434_2_alg».proof.Proof.Gen.Kernel
import proofs.«109398_j48576080118434_2_alg».proof.Proof.Gen.KernelIdeal
import proofs.«109398_j48576080118434_2_alg».proof.Proof.Gen.ReferenceIdeal
import proofs.«109398_j48576080118434_2_alg».proof.Proof.Gen.Pre_finite_inputs
import proofs.«109398_j48576080118434_2_alg».proof.Proof.Gen.ReferenceIdeal.Run
import proofs.«109398_j48576080118434_2_alg».proof.Proof.KFrames
import proofs.«109398_j48576080118434_2_alg».proof.Proof.KernelValue
import proofs.«109398_j48576080118434_2_alg».proof.Proof.RefValue
import proofs.«109398_j48576080118434_2_alg».proof.Proof.SpecLaw
import proofs.«109398_j48576080118434_2_alg».proof.Proof.PreFacts
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Whole.frame m ρ

theorem frame_pi : Cert.frame_KernelIdeal := fun m ρ _ => Cert.KernelIdeal.Whole.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the layer of the arguments: the kernels through `aggK`, the formula through `aggR`, and under
    the precondition the two aggregations agree. -/
theorem algebraic : Cert.algebraic_KernelIdeal_ReferenceIdeal := by
  intro m ρ m' ρ' hpre hagree
  refine ⟨fun c => GraphConv.out (GraphConv.aggK (m ((c.tc : Thread Cert.KernelIdeal.nD Cert.KernelIdeal.τ).loc Cert.KernelIdeal.main_arg0))
      (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run_value m ρ, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.RefValue.result_eq _ _ _ _)).trans ?_
  rw [(hagree c).1, (hagree c).2.1, (hagree c).2.2.1, (hagree c).2.2.2]
  obtain ⟨hA, hX, hpos⟩ := GraphConv.facts_of_pre _ _ _ _ (hpre c)
  exact (GraphConv.out_eq _ _ hA hX hpos _ _).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
